-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S64 .f32) (main_arg9 : FVec F S64 .f32) (main_arg10 : FVec F S64x64 .f32) (main_arg11 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x64 .f32) (main_arg7 : FVec F S64 .f32) (main_arg8 : FVec F S64 .f32) (main_arg9 : FVec F S64 .f32) (main_arg10 : FVec F S64x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x640000 32) (main_arg2 : FVec F S128x128 .f32) (main_arg3 : FVec F S128 .f32) (main_arg4 : FVec F S128 .f32) (main_arg5 : FVec F S128 .f32) (main_arg6 : FVec F S128x64 .f32) (main_arg7 : FVec F S64 .f32) (main_arg8 : FVec F S64 .f32) (main_arg9 : FVec F S64 .f32) (main_arg10 : FVec F S64x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S5000x128 : Shape := ⟨2, ![5000, 128]⟩
abbrev S740000x128 : Shape := ⟨2, ![740000, 128]⟩
abbrev S1x128 : Shape := ⟨2, ![1, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 112
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S100000, .i32⟩
  | .hbm, ⟨13, _⟩ => ⟨S1x640000, .i32⟩
  | .hbm, ⟨14, _⟩ => ⟨S640000, .i32⟩
  | .hbm, ⟨15, _⟩ => ⟨S740000, .i32⟩
  | .hbm, ⟨16, _⟩ => ⟨S1x640000, .i32⟩
  | .hbm, ⟨17, _⟩ => ⟨S640000, .i32⟩
  | .hbm, ⟨18, _⟩ => ⟨S740000, .i32⟩
  | .hbm, ⟨19, _⟩ => ⟨S_, .f32⟩
  | .hbm, ⟨20, _⟩ => ⟨S740000, .f32⟩
  | .hbm, ⟨21, _⟩ => ⟨S_, .f32⟩
  | .hbm, ⟨22, _⟩ => ⟨S100000, .f32⟩
  | .hbm, ⟨23, _⟩ => ⟨S740000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S740000, .i32⟩
  | .hbm, ⟨34, _⟩ => ⟨S740000, .i1⟩
  | .hbm, ⟨35, _⟩ => ⟨S_, .i32⟩
  | .hbm, ⟨36, _⟩ => ⟨S740000, .i32⟩
  | .hbm, ⟨37, _⟩ => ⟨S740000, .i32⟩
  | .hbm, ⟨38, _⟩ => ⟨S740000, .i32⟩
  | .hbm, ⟨39, _⟩ => ⟨S740000x1, .i32⟩
  | .hbm, ⟨40, _⟩ => ⟨S740000, .f32⟩
  | .hbm, ⟨41, _⟩ => ⟨S_, .i32⟩
  | .hbm, ⟨42, _⟩ => ⟨S740000, .i32⟩
  | .hbm, ⟨43, _⟩ => ⟨S740000, .i1⟩
  | .hbm, ⟨44, _⟩ => ⟨S_, .i32⟩
  | .hbm, ⟨45, _⟩ => ⟨S740000, .i32⟩
  | .hbm, ⟨46, _⟩ => ⟨S740000, .i32⟩
  | .hbm, ⟨47, _⟩ => ⟨S740000, .i32⟩
  | .hbm, ⟨48, _⟩ => ⟨S740000x1, .i32⟩
  | .hbm, ⟨49, _⟩ => ⟨S740000, .f32⟩
  | .hbm, ⟨50, _⟩ => ⟨S740000, .f32⟩
  | .hbm, ⟨51, _⟩ => ⟨S100000x128, .f32⟩
  | .hbm, ⟨52, _⟩ => ⟨S_, .i32⟩
  | .hbm, ⟨53, _⟩ => ⟨S740000, .i32⟩
  | .hbm, ⟨54, _⟩ => ⟨S740000, .i1⟩
  | .hbm, ⟨55, _⟩ => ⟨S_, .i32⟩
  | .hbm, ⟨56, _⟩ => ⟨S740000, .i32⟩
  | .hbm, ⟨57, _⟩ => ⟨S740000, .i32⟩
  | .hbm, ⟨58, _⟩ => ⟨S740000, .i32⟩
  | .hbm, ⟨59, _⟩ => ⟨S740000x1, .i32⟩
  | .hbm, ⟨60, _⟩ => ⟨S740000x128, .f32⟩
  | .hbm, ⟨61, _⟩ => ⟨S740000x1, .f32⟩
  | .hbm, ⟨62, _⟩ => ⟨S740000x128, .f32⟩
  | .hbm, ⟨63, _⟩ => ⟨S740000x128, .f32⟩
  | .hbm, ⟨64, _⟩ => ⟨S_, .f32⟩
  | .hbm, ⟨65, _⟩ => ⟨S100000x128, .f32⟩
  | .hbm, ⟨66, _⟩ => ⟨S740000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S1x128, .f32⟩
  | .hbm, ⟨71, _⟩ => ⟨S1x128, .f32⟩
  | .hbm, ⟨72, _⟩ => ⟨S_, .f32⟩
  | .hbm, ⟨73, _⟩ => ⟨S1x128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x64, .f32⟩
  | .hbm, ⟨90, _⟩ => ⟨S100000x64, .f32⟩
  | .hbm, ⟨91, _⟩ => ⟨S1x64, .f32⟩
  | .hbm, ⟨92, _⟩ => ⟨S1x64, .f32⟩
  | .hbm, ⟨93, _⟩ => ⟨S_, .f32⟩
  | .hbm, ⟨94, _⟩ => ⟨S1x64, .f32⟩
  | .hbm, ⟨95, _⟩ => ⟨S1x64, .f32⟩
  | .hbm, ⟨96, _⟩ => ⟨S_, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S_, .f32⟩
  | .hbm, ⟨103, _⟩ => ⟨S1x64, .f32⟩
  | .hbm, ⟨104, _⟩ => ⟨S1x64, .f32⟩
  | .hbm, ⟨105, _⟩ => ⟨S1x64, .f32⟩
  | .hbm, ⟨106, _⟩ => ⟨S1x64, .f32⟩
  | .hbm, ⟨107, _⟩ => ⟨S1x64, .f32⟩
  | .hbm, ⟨108, _⟩ => ⟨S1x64, .f32⟩
  | .hbm, ⟨109, _⟩ => ⟨S1x64, .f32⟩
  | .hbm, ⟨110, _⟩ => ⟨S1x64, .f32⟩
  | .hbm, ⟨111, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S1x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46_0 : Ref sig .tc := ⟨.hbm, 69, rfl⟩
abbrev main_v46_1 : Ref sig .tc := ⟨.hbm, 70, rfl⟩
abbrev main_v46_2 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62_0 : Ref sig .tc := ⟨.hbm, 90, rfl⟩
abbrev main_v62_1 : Ref sig .tc := ⟨.hbm, 91, rfl⟩
abbrev main_v62_2 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg7_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc2_sem6_0 : DmaSem sig := 20
abbrev cc2_sem7_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S128x64_S128x64_0_0 : ∀ a, (![0, 0] : Fin 2 → Nat) a + S128x64.size a ≤ S128x64.size a
  h_S128x64 : 0 < S128x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  bcast_S_S1x64 : S_.BroadcastsInDim S1x64 (![] : Fin 0 → Fin S1x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S5000x128_S128x128_S5000x128_1_0_0_1_n_n_wf : DotDims.WF S5000x128 S128x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v62_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v62_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 173
  | .vmem => 0
  | .smem => 0
  | _ => 0

abbrev hbmTy0_0 (i : Nat) : BufTy := match i % 128 with
  | 0 => ⟨S100000x128, .f32⟩
  | 1 => ⟨S2x640000, .i32⟩
  | 2 => ⟨S128x128, .f32⟩
  | 3 => ⟨S128, .f32⟩
  | 4 => ⟨S128, .f32⟩
  | 5 => ⟨S128, .f32⟩
  | 6 => ⟨S128x64, .f32⟩
  | 7 => ⟨S64, .f32⟩
  | 8 => ⟨S64, .f32⟩
  | 9 => ⟨S64, .f32⟩
  | 10 => ⟨S64x64, .f32⟩
  | 11 => ⟨S64, .f32⟩
  | 12 => ⟨S100000, .i32⟩
  | 13 => ⟨S1x640000, .i32⟩
  | 14 => ⟨S640000, .i32⟩
  | 15 => ⟨S740000, .i32⟩
  | 16 => ⟨S1x640000, .i32⟩
  | 17 => ⟨S640000, .i32⟩
  | 18 => ⟨S740000, .i32⟩
  | 19 => ⟨S_, .f32⟩
  | 20 => ⟨S740000, .f32⟩
  | 21 => ⟨S_, .f32⟩
  | 22 => ⟨S100000, .f32⟩
  | 23 => ⟨S740000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S100000, .f32⟩
  | 31 => ⟨S100000, .f32⟩
  | 32 => ⟨S_, .i32⟩
  | 33 => ⟨S740000, .i32⟩
  | 34 => ⟨S740000, .i1⟩
  | 35 => ⟨S_, .i32⟩
  | 36 => ⟨S740000, .i32⟩
  | 37 => ⟨S740000, .i32⟩
  | 38 => ⟨S740000, .i32⟩
  | 39 => ⟨S740000x1, .i32⟩
  | 40 => ⟨S740000, .f32⟩
  | 41 => ⟨S_, .i32⟩
  | 42 => ⟨S740000, .i32⟩
  | 43 => ⟨S740000, .i1⟩
  | 44 => ⟨S_, .i32⟩
  | 45 => ⟨S740000, .i32⟩
  | 46 => ⟨S740000, .i32⟩
  | 47 => ⟨S740000, .i32⟩
  | 48 => ⟨S740000x1, .i32⟩
  | 49 => ⟨S740000, .f32⟩
  | 50 => ⟨S740000, .f32⟩
  | 51 => ⟨S100000x128, .f32⟩
  | 52 => ⟨S_, .i32⟩
  | 53 => ⟨S740000, .i32⟩
  | 54 => ⟨S740000, .i1⟩
  | 55 => ⟨S_, .i32⟩
  | 56 => ⟨S740000, .i32⟩
  | 57 => ⟨S740000, .i32⟩
  | 58 => ⟨S740000, .i32⟩
  | 59 => ⟨S740000x1, .i32⟩
  | 60 => ⟨S740000x128, .f32⟩
  | 61 => ⟨S740000x1, .f32⟩
  | 62 => ⟨S740000x128, .f32⟩
  | 63 => ⟨S740000x128, .f32⟩
  | 64 => ⟨S_, .f32⟩
  | 65 => ⟨S100000x128, .f32⟩
  | 66 => ⟨S740000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S100000x128, .f32⟩
  | 84 => ⟨S100000x128, .f32⟩
  | 85 => ⟨S100000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S64, .f32⟩
  | 124 => ⟨S_, .f32⟩
  | 125 => ⟨S64, .f32⟩
  | 126 => ⟨S64, .f32⟩
  | 127 => ⟨S_, .i32⟩
  | _ => ⟨S100000x128, .f32⟩

abbrev hbmTy0_1 (i : Nat) : BufTy := match i % 128 with
  | 0 => ⟨S_, .f32⟩
  | 1 => ⟨S64, .f32⟩
  | 2 => ⟨S1x64, .f32⟩
  | 3 => ⟨S_, .f32⟩
  | 4 => ⟨S1x64, .f32⟩
  | 5 => ⟨S1x64, .f32⟩
  | 6 => ⟨S100000x64, .f32⟩
  | 7 => ⟨S100000x64, .f32⟩
  | 8 => ⟨S100000x64, .f32⟩
  | 9 => ⟨S_, .f32⟩
  | 10 => ⟨S_, .f32⟩
  | 11 => ⟨S_, .f32⟩
  | 12 => ⟨S_, .f32⟩
  | 13 => ⟨S64, .f32⟩
  | 14 => ⟨S64, .f32⟩
  | 15 => ⟨S64, .f32⟩
  | 16 => ⟨S_, .f32⟩
  | 17 => ⟨S_, .i1⟩
  | 18 => ⟨S_, .f32⟩
  | 19 => ⟨S_, .f32⟩
  | 20 => ⟨S64, .f32⟩
  | 21 => ⟨S64, .f32⟩
  | 22 => ⟨S1x64, .f32⟩
  | 23 => ⟨S100000x64, .f32⟩
  | 24 => ⟨S100000x64, .f32⟩
  | 25 => ⟨S_, .f32⟩
  | 26 => ⟨S64, .f32⟩
  | 27 => ⟨S64, .f32⟩
  | 28 => ⟨S64, .f32⟩
  | 29 => ⟨S1x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_cst_3 : Ref sig .tc := ⟨.hbm, 93, rfl⟩
abbrev main_call1_v12 : Ref sig .tc := ⟨.hbm, 94, rfl⟩
abbrev main_call1_cst_4 : Ref sig .tc := ⟨.hbm, 95, rfl⟩
abbrev main_call1_call0_v0 : Ref sig .tc := ⟨.hbm, 96, rfl⟩
abbrev main_call1_call0_v1 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_12 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_call2_cst : Ref sig .tc := ⟨.hbm, 115, rfl⟩
abbrev main_call2_v0 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_13 : Ref sig .tc := ⟨.hbm, 122, rfl⟩
abbrev main_v72 : Ref sig .tc := ⟨.hbm, 123, rfl⟩
abbrev main_cst_14 : Ref sig .tc := ⟨.hbm, 124, rfl⟩
abbrev main_v73 : Ref sig .tc := ⟨.hbm, 125, rfl⟩
abbrev main_v74 : Ref sig .tc := ⟨.hbm, 126, rfl⟩
abbrev main_c_15 : Ref sig .tc := ⟨.hbm, 127, rfl⟩
abbrev main_call3_cst : Ref sig .tc := ⟨.hbm, 128, rfl⟩
abbrev main_call3_v0 : Ref sig .tc := ⟨.hbm, 129, rfl⟩
abbrev main_call3_v1 : Ref sig .tc := ⟨.hbm, 130, rfl⟩
abbrev main_call3_cst_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_v7 : Ref sig .tc := ⟨.hbm, 137, rfl⟩
abbrev main_call3_cst_1 : Ref sig .tc := ⟨.hbm, 138, rfl⟩
abbrev main_call3_v8 : Ref sig .tc := ⟨.hbm, 139, rfl⟩
abbrev main_call3_cst_2 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_cst_3 : Ref sig .tc := ⟨.hbm, 144, rfl⟩
abbrev main_call3_v12 : Ref sig .tc := ⟨.hbm, 145, rfl⟩
abbrev main_call3_cst_4 : Ref sig .tc := ⟨.hbm, 146, rfl⟩
abbrev main_call3_call0_v0 : Ref sig .tc := ⟨.hbm, 147, rfl⟩
abbrev main_call3_call0_v1 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_cst_16 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_call4_cst : Ref sig .tc := ⟨.hbm, 166, rfl⟩
abbrev main_call4_v0 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result NAMED. The program is four kernel regions among stretches of host
  operations; the contents of every unscoped buffer at each boundary are a fold from the launch memory (`Gen.W0` …
  `Gen.W10`), and every weakly fair execution ends with every unscoped buffer at the last fold `Gen.W10`. The frame
  keeps of this only the argument arrays; here the result array `main_v78` is kept as well, at `Gen.W10 … main_v78`,
  which the value modules then read back region by region.
-/
import proofs.«129438_j27745488732760_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with the result array
    at the last boundary's contents and the argument arrays as launched. -/
theorem run_value : θ_run defs (onTc (τ := τ) (main (F := F))) ⟨m, fun _ => 0, ρ⟩ (fun r => ∀ c : Dev nD,
      r.2.mem ((c.tc : Thread nD τ).loc main_v78) = Gen.W10 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v78 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.KRun

end
-- ==== Proof.RefRunDefs.lean ====
/- The reference program's result as a composition of named stages of its argument arrays, read at
   exact extended reals. No program is run here: the run that ends at this term is in the sibling module
   that imports this one. -/
import proofs.«129438_j27745488732760_1_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-! # The reference as a composition of named stages

A two-layer network on a graph with 100000 nodes and 640000 directed edges, read at exact
extended reals. The edge list is extended by one self loop per node (740000 edges); a node's degree
counts its incoming edges; each edge is weighted by the inverse square roots of the degrees of its
two ends; the first layer projects the node features, sums the weighted projected rows of each
node's incoming edges and adds a bias; then twice: normalise every column by its mean and
variance over the nodes, scale, shift, clamp below at zero, and apply a dense layer.
Every stage is a function of the ARGUMENT ARRAYS; the vector of scalar literals is written as
the literal itself, so the same word on two sides of an equation is never evaluated. -/

/-- The scalar zero and its broadcasts are written through these two literals. -/
abbrev zeroS : FVec Ideal S_ .f32 := constant (F := Ideal) S_ .f32 0x00000000#32
/-- The number of nodes as a float scalar, 100000. -/
abbrev nodesS : FVec Ideal S_ .f32 := constant (F := Ideal) S_ .f32 0x47C35000#32

/-- Row `r` of the 2×640000 edge table as a vector, followed by the node numbers 0 … 99999
    (one self loop per node): 740000 entries. -/
def idxRow (off : Fin S2x640000.rank → Nat) (hs : S2x640000.Slices off S1x640000) (e : IVec S2x640000 32) : IVec S740000 32 :=
  concatenate S740000 0 [⟨S640000, shapeCast S640000 (extractStridedSlice S1x640000 off e hs) shapeCasts_S1x640000_S640000⟩, ⟨S100000, iotaInDim S100000 32 0⟩] concatenates_S640000_S100000_S740000_d0

/-- The source node of every edge (row 0 of the table, then the self loops). -/
def idxSrc (e : IVec S2x640000 32) : IVec S740000 32 := idxRow ![0, 0] slices_S2x640000_S1x640000_0_0 e
/-- The destination node of every edge (row 1 of the table, then the self loops). -/
def idxDst (e : IVec S2x640000 32) : IVec S740000 32 := idxRow ![1, 0] slices_S2x640000_S1x640000_1_0 e

/-- A node number made non-negative: a negative entry has 100000 added. -/
def wrapIdx (i : IVec S740000 32) : IVec S740000 32 :=
  select (cmpi .slt i (broadcastInDim S740000 ![] bcast_S_S740000 (constantI S_ 32 0#32))) (addi i (broadcastInDim S740000 ![] bcast_S_S740000 (constantI S_ 32 100000#32))) i

/-- An edge vector as the one-column index table the gathers and scatters take. -/
def asCol (i : IVec S740000 32) : IVec S740000x1 32 := broadcastInDim S740000x1 ![0] bcast_S740000_S740000x1_0 i

/-- The degree of every node: ones summed over the edges into their destination, from zero. -/
def deg (e : IVec S2x640000 32) : FVec Ideal S100000 .f32 :=
  Host.scatterAdd (F := Ideal) scatter_S100000_S740000x1_S740000_n_0_0_1 (broadcastInDim S100000 ![] bcast_S_S100000 zeroS) (asCol (idxDst e)) (broadcastInDim S740000 ![] bcast_S_S740000 (constant (F := Ideal) S_ .f32 0x3F800000#32))

/-- The inverse square root of the degree where it is positive, zero elsewhere. -/
def dinv (e : IVec S2x640000 32) : FVec Ideal S100000 .f32 :=
  select (cmpf .ogt (deg e) (broadcastInDim S100000 ![] bcast_S_S100000 zeroS)) (Host.rsqrt (F := Ideal) (deg e)) (broadcastInDim S100000 ![] bcast_S_S100000 zeroS)

/-- The weight of every edge: `dinv` at its source times `dinv` at its destination. -/
def edgeNorm (e : IVec S2x640000 32) : FVec Ideal S740000 .f32 :=
  mulf (Host.gather gather_S100000_S740000x1_S740000_n_0_n_n_0_1_1 (dinv e) (asCol (wrapIdx (idxSrc e)))) (Host.gather gather_S100000_S740000x1_S740000_n_0_n_n_0_1_1 (dinv e) (asCol (wrapIdx (idxDst e))))

/-- The node features times the first weight matrix. -/
def proj (x : FVec Ideal S100000x128 .f32) (Wg : FVec Ideal S128x128 .f32) : FVec Ideal S100000x128 .f32 :=
  Host.dotGeneral (F := Ideal) dot_S100000x128_S128x128_S100000x128_1_0_0_1_n_n none x Wg

/-- For every node, the sum over its incoming edges of the source's row of `h` times the edge's weight, from zero. -/
def agg (e : IVec S2x640000 32) (h : FVec Ideal S100000x128 .f32) : FVec Ideal S100000x128 .f32 :=
  Host.scatterAdd (F := Ideal) scatter_S100000x128_S740000x1_S740000x128_1_0_0_1 (broadcastInDim S100000x128 ![] bcast_S_S100000x128 zeroS) (asCol (idxDst e))
    (mulf (Host.gather gather_S100000x128_S740000x1_S740000x128_1_0_n_n_0_1_1128 h (asCol (wrapIdx (idxSrc e))))
      (broadcastInDim S740000x128 ![0, 1] bcast_S740000x1_S740000x128_0_1 (broadcastInDim S740000x1 ![0] bcast_S740000_S740000x1_0 (edgeNorm e))))

/-- A vector of 128 column values repeated on every one of the 100000 rows. -/
def rows128 (v : FVec Ideal S128 .f32) : FVec Ideal S100000x128 .f32 :=
  broadcastInDim S100000x128 ![0, 1] bcast_S1x128_S100000x128_0_1 (broadcastInDim S1x128 ![1] bcast_S128_S1x128_1 v)
/-- A vector of 64 column values repeated on every one of the 100000 rows. -/
def rows64 (v : FVec Ideal S64 .f32) : FVec Ideal S100000x64 .f32 :=
  broadcastInDim S100000x64 ![0, 1] bcast_S1x64_S100000x64_0_1 (broadcastInDim S1x64 ![1] bcast_S64_S1x64_1 v)

/-- The first layer before normalisation: the aggregate plus the bias on every row. -/
def h1 (a : FVec Ideal S100000x128 .f32) (b : FVec Ideal S128 .f32) : FVec Ideal S100000x128 .f32 := addf a (rows128 b)

/-- The divisor of the variance: the number of nodes minus the correction 0 (as a float scalar). -/
def cnt : FVec Ideal S_ .f32 := subf nodesS (sitofp (F := Ideal) .f32 (constantI S_ 32 0#32))

/-- The column means over the 100000 rows. -/
def mean1 (h : FVec Ideal S100000x128 .f32) : FVec Ideal S128 .f32 :=
  Host.divf (F := Ideal) (Host.reduceAdd (F := Ideal) h zeroS reducesTo_S100000x128_S128_d0 h_S_) (broadcastInDim S128 ![] bcast_S_S128 nodesS)

/-- Every entry minus its column's mean (the mean formed on a 1×128 row, then repeated). -/
def dev1 (h : FVec Ideal S100000x128 .f32) : FVec Ideal S100000x128 .f32 :=
  subf h (broadcastInDim S100000x128 ![0, 1] bcast_S1x128_S100000x128_0_1
    (Host.divf (F := Ideal) (broadcastInDim S1x128 ![1] bcast_S128_S1x128_1 (Host.reduceAdd (F := Ideal) h zeroS reducesTo_S100000x128_S128_d0 h_S_)) (broadcastInDim S1x128 ![] bcast_S_S1x128 nodesS)))

/-- The column variances: the column sums of the squared deviations over `cnt` where `cnt` is positive, the
    quiet-NaN literal elsewhere. -/
def var1 (h : FVec Ideal S100000x128 .f32) : FVec Ideal S128 .f32 :=
  select (broadcastInDim S128 ![] bcast_S_S128 (cmpf .ogt cnt zeroS))
    (Host.divf (F := Ideal) (Host.reduceAdd (F := Ideal) (mulf (dev1 h) (dev1 h)) zeroS reducesTo_S100000x128_S128_d0 h_S_) (broadcastInDim S128 ![] bcast_S_S128 cnt))
    (broadcastInDim S128 ![] bcast_S_S128 (constant (F := Ideal) S_ .f32 0x7FC00000#32))

/-- First normalisation and clamp: (h − mean) · rsqrt(var + ε) · γ + β, then the maximum with zero. -/
def act1 (h : FVec Ideal S100000x128 .f32) (γ β : FVec Ideal S128 .f32) : FVec Ideal S100000x128 .f32 :=
  maximumf
    (addf (mulf (mulf (subf h (rows128 (mean1 h)))
        (rows128 (Host.rsqrt (F := Ideal) (addf (var1 h) (broadcastInDim S128 ![] bcast_S_S128 (constant (F := Ideal) S_ .f32 0x3727C5AC#32))))))
      (rows128 γ)) (rows128 β))
    (broadcastInDim S100000x128 ![] bcast_S_S100000x128 zeroS)

/-- The second layer before normalisation: a dense layer 128 → 64 with bias. -/
def h2 (a : FVec Ideal S100000x128 .f32) (W1 : FVec Ideal S128x64 .f32) (b1 : FVec Ideal S64 .f32) : FVec Ideal S100000x64 .f32 :=
  addf (Host.dotGeneral (F := Ideal) dot_S100000x128_S128x64_S100000x64_1_0_0_1_n_n none a W1) (rows64 b1)

/-- The column means over the 100000 rows (64 columns). -/
def mean2 (h : FVec Ideal S100000x64 .f32) : FVec Ideal S64 .f32 :=
  Host.divf (F := Ideal) (Host.reduceAdd (F := Ideal) h zeroS reducesTo_S100000x64_S64_d0 h_S_) (broadcastInDim S64 ![] bcast_S_S64 nodesS)

/-- Every entry minus its column's mean (64 columns). -/
def dev2 (h : FVec Ideal S100000x64 .f32) : FVec Ideal S100000x64 .f32 :=
  subf h (broadcastInDim S100000x64 ![0, 1] bcast_S1x64_S100000x64_0_1
    (Host.divf (F := Ideal) (broadcastInDim S1x64 ![1] bcast_S64_S1x64_1 (Host.reduceAdd (F := Ideal) h zeroS reducesTo_S100000x64_S64_d0 h_S_)) (broadcastInDim S1x64 ![] bcast_S_S1x64 nodesS)))

/-- The column variances (64 columns), as `var1`. -/
def var2 (h : FVec Ideal S100000x64 .f32) : FVec Ideal S64 .f32 :=
  select (broadcastInDim S64 ![] bcast_S_S64 (cmpf .ogt cnt zeroS))
    (Host.divf (F := Ideal) (Host.reduceAdd (F := Ideal) (mulf (dev2 h) (dev2 h)) zeroS reducesTo_S100000x64_S64_d0 h_S_) (broadcastInDim S64 ![] bcast_S_S64 cnt))
    (broadcastInDim S64 ![] bcast_S_S64 (constant (F := Ideal) S_ .f32 0x7FC00000#32))

/-- Second normalisation and clamp, as `act1`. -/
def act2 (h : FVec Ideal S100000x64 .f32) (γ β : FVec Ideal S64 .f32) : FVec Ideal S100000x64 .f32 :=
  maximumf
    (addf (mulf (mulf (subf h (rows64 (mean2 h)))
        (rows64 (Host.rsqrt (F := Ideal) (addf (var2 h) (broadcastInDim S64 ![] bcast_S_S64 (constant (F := Ideal) S_ .f32 0x3727C5AC#32))))))
      (rows64 γ)) (rows64 β))
    (broadcastInDim S100000x64 ![] bcast_S_S100000x64 zeroS)

/-- The last dense layer 64 → 64 with bias. -/
def out (a : FVec Ideal S100000x64 .f32) (W2 : FVec Ideal S64x64 .f32) (b2 : FVec Ideal S64 .f32) : FVec Ideal S100000x64 .f32 :=
  addf (Host.dotGeneral (F := Ideal) dot_S100000x64_S64x64_S100000x64_1_0_0_1_n_n none a W2) (rows64 b2)

/-- The whole reference as a function of its twelve argument arrays. -/
def resultOf (x : FVec Ideal S100000x128 .f32) (e : IVec S2x640000 32) (Wg : FVec Ideal S128x128 .f32) (bg γ1 β1 : FVec Ideal S128 .f32)
    (W1 : FVec Ideal S128x64 .f32) (b1 γ2 β2 : FVec Ideal S64 .f32) (W2 : FVec Ideal S64x64 .f32) (b2 : FVec Ideal S64 .f32) : FVec Ideal S100000x64 .f32 :=
  out (act2 (h2 (act1 (h1 (agg e (proj x Wg)) bg) γ1 β1) W1 b1) γ2 β2) W2 b2

/-- The reference's result on core `c` from the launch memory `m`. -/
def result (m : (ℓ : Loc nD τ sig) → Buf (Elt Ideal) ℓ) (c : Dev nD) : FVec Ideal S100000x64 .f32 :=
  resultOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))

end Cert.ReferenceIdeal.RefRun

end
-- ==== Proof.KHost.lean ====
/-
  The host operations around the idealized kernel's four regions, read back as functions of the buffers each stretch
  finds. Before the first region the program extends the edge list by the self loops, counts degrees and forms the
  edge weights; between the first and second region it gathers the projected rows, weights them and sums them into
  their destination rows; after the second and after the third region it turns a column sum `s` and a column sum
  of squares `q` into the scale `γ · rsqrt(q/n − (s/n)² + ε)` and the shift `β − (s/n) · scale` of a normalisation.
  The first two are the reference's own stages (the same operations in the same order), so they are stated with the
  reference's stage functions; the scale and shift are the kernel's own form and are named here.
-/
import proofs.«129438_j27745488732760_1_alg».proof.Proof.Gen.KernelIdeal.Frame
import proofs.«129438_j27745488732760_1_alg».proof.Proof.RefRunDefs
import Idealize.ShloMosaic.PureOps.Ideal

set_option maxRecDepth 16384

noncomputable section

namespace Cert.KernelIdeal.KHost

open Idealize.ShloMosaic Idealize.ShloMosaic.TcCoe Idealize.ShloMosaic.Tactic Idealize.SL.Sem
open Cert.KernelIdeal Cert.KernelIdeal.Gen

/-! ## The kernel's own normalisation constants -/

/-- A 1×128 row of column sums over the number of rows, 100000. -/
def mean128 (s : FVec Ideal S1x128 .f32) : FVec Ideal S1x128 .f32 :=
  Host.divf (F := Ideal) s (broadcastInDim S1x128 ![] bcast_S_S1x128 (constant (F := Ideal) S_ .f32 0x47C35000#32))

/-- The scale of the first normalisation: `γ · rsqrt(q/n − (s/n)·(s/n) + ε)`. -/
def scale128 (γ : FVec Ideal S128 .f32) (s q : FVec Ideal S1x128 .f32) : FVec Ideal S1x128 .f32 :=
  mulf (shapeCast S1x128 γ shapeCasts_S128_S1x128)
    (Host.rsqrt (F := Ideal) (addf (subf (mean128 q) (mulf (mean128 s) (mean128 s)))
      (broadcastInDim S1x128 ![] bcast_S_S1x128 (constant (F := Ideal) S_ .f32 0x3727C5AC#32))))

/-- The shift of the first normalisation: `β − (s/n) · scale`. -/
def shift128 (β γ : FVec Ideal S128 .f32) (s q : FVec Ideal S1x128 .f32) : FVec Ideal S1x128 .f32 :=
  subf (shapeCast S1x128 β shapeCasts_S128_S1x128) (mulf (mean128 s) (scale128 γ s q))

/-- A 1×64 row of column sums over the number of rows, 100000. -/
def mean64 (s : FVec Ideal S1x64 .f32) : FVec Ideal S1x64 .f32 :=
  Host.divf (F := Ideal) s (broadcastInDim S1x64 ![] bcast_S_S1x64 (constant (F := Ideal) S_ .f32 0x47C35000#32))

/-- The scale of the second normalisation. -/
def scale64 (γ : FVec Ideal S64 .f32) (s q : FVec Ideal S1x64 .f32) : FVec Ideal S1x64 .f32 :=
  mulf (shapeCast S1x64 γ shapeCasts_S64_S1x64)
    (Host.rsqrt (F := Ideal) (addf (subf (mean64 q) (mulf (mean64 s) (mean64 s)))
      (broadcastInDim S1x64 ![] bcast_S_S1x64 (constant (F := Ideal) S_ .f32 0x3727C5AC#32))))

/-- The shift of the second normalisation. -/
def shift64 (β γ : FVec Ideal S64 .f32) (s q : FVec Ideal S1x64 .f32) : FVec Ideal S1x64 .f32 :=
  subf (shapeCast S1x64 β shapeCasts_S64_S1x64) (mulf (mean64 s) (scale64 γ s q))

/-! ## Each stretch of host operations, from ANY contents `U` of the buffers it finds -/

theorem keep_hostOps0_main_arg0 (U : Valuation τ sig (Elt Ideal)) : StableHlo.after hostOps0 U (Proc.devRef .tc main_arg0) = U (Proc.devRef .tc main_arg0) := by
  after_results
theorem keep_hostOps0_main_arg1 (U : Valuation τ sig (Elt Ideal)) : StableHlo.after hostOps0 U (Proc.devRef .tc main_arg1) = U (Proc.devRef .tc main_arg1) := by
  after_results
theorem keep_hostOps0_main_arg2 (U : Valuation τ sig (Elt Ideal)) : StableHlo.after hostOps0 U (Proc.devRef .tc main_arg2) = U (Proc.devRef .tc main_arg2) := by
  after_results
theorem keep_hostOps0_main_arg3 (U : Valuation τ sig (Elt Ideal)) : StableHlo.after hostOps0 U (Proc.devRef .tc main_arg3) = U (Proc.devRef .tc main_arg3) := by
  after_results
theorem keep_hostOps0_1_main_arg0 (U : Valuation τ sig (Elt Ideal)) : StableHlo.after hostOps0_1 U (Proc.devRef .tc main_arg0) = U (Proc.devRef .tc main_arg0) := by
  after_results
theorem keep_hostOps0_1_main_arg1 (U : Valuation τ sig (Elt Ideal)) : StableHlo.after hostOps0_1 U (Proc.devRef .tc main_arg1) = U (Proc.devRef .tc main_arg1) := by
  after_results
theorem keep_hostOps0_1_main_arg2 (U : Valuation τ sig (Elt Ideal)) : StableHlo.after hostOps0_1 U (Proc.devRef .tc main_arg2) = U (Proc.devRef .tc main_arg2) := by
  after_results
theorem keep_hostOps0_1_main_arg3 (U : Valuation τ sig (Elt Ideal)) : StableHlo.after hostOps0_1 U (Proc.devRef .tc main_arg3) = U (Proc.devRef .tc main_arg3) := by
  after_results
theorem keep_hostOps0_1_main_v3 (U : Valuation τ sig (Elt Ideal)) : StableHlo.after hostOps0_1 U (Proc.devRef .tc main_v3) = U (Proc.devRef .tc main_v3) := by
  after_results
theorem keep_hostOps0_1_main_v6 (U : Valuation τ sig (Elt Ideal)) : StableHlo.after hostOps0_1 U (Proc.devRef .tc main_v6) = U (Proc.devRef .tc main_v6) := by
  after_results
theorem keep_hostOps0_2_main_arg0 (U : Valuation τ sig (Elt Ideal)) : StableHlo.after hostOps0_2 U (Proc.devRef .tc main_arg0) = U (Proc.devRef .tc main_arg0) := by
  after_results
theorem keep_hostOps0_2_main_arg1 (U : Valuation τ sig (Elt Ideal)) : StableHlo.after hostOps0_2 U (Proc.devRef .tc main_arg1) = U (Proc.devRef .tc main_arg1) := by
  after_results
theorem keep_hostOps0_2_main_arg2 (U : Valuation τ sig (Elt Ideal)) : StableHlo.after hostOps0_2 U (Proc.devRef .tc main_arg2) = U (Proc.devRef .tc main_arg2) := by
  after_results
theorem keep_hostOps0_2_main_arg3 (U : Valuation τ sig (Elt Ideal)) : StableHlo.after hostOps0_2 U (Proc.devRef .tc main_arg3) = U (Proc.devRef .tc main_arg3) := by
  after_results
theorem keep_hostOps0_2_main_v3 (U : Valuation τ sig (Elt Ideal)) : StableHlo.after hostOps0_2 U (Proc.devRef .tc main_v3) = U (Proc.devRef .tc main_v3) := by
  after_results
theorem keep_hostOps0_2_main_v6 (U : Valuation τ sig (Elt Ideal)) : StableHlo.after hostOps0_2 U (Proc.devRef .tc main_v6) = U (Proc.devRef .tc main_v6) := by
  after_results
theorem keep_hostOps1_main_arg4 (U : Valuation τ sig (Elt Ideal)) : StableHlo.after hostOps1 U (Proc.devRef .tc main_arg4) = U (Proc.devRef .tc main_arg4) := by
  after_results
theorem keep_hostOps1_main_arg5 (U : Valuation τ sig (Elt Ideal)) : StableHlo.after hostOps1 U (Proc.devRef .tc main_arg5) = U (Proc.devRef .tc main_arg5) := by
  after_results
theorem keep_hostOps1_main_arg6 (U : Valuation τ sig (Elt Ideal)) : StableHlo.after hostOps1 U (Proc.devRef .tc main_arg6) = U (Proc.devRef .tc main_arg6) := by
  after_results
theorem keep_hostOps1_main_arg7 (U : Valuation τ sig (Elt Ideal)) : StableHlo.after hostOps1 U (Proc.devRef .tc main_arg7) = U (Proc.devRef .tc main_arg7) := by
  after_results
theorem keep_hostOps1_main_arg8 (U : Valuation τ sig (Elt Ideal)) : StableHlo.after hostOps1 U (Proc.devRef .tc main_arg8) = U (Proc.devRef .tc main_arg8) := by
  after_results
theorem keep_hostOps1_main_arg9 (U : Valuation τ sig (Elt Ideal)) : StableHlo.after hostOps1 U (Proc.devRef .tc main_arg9) = U (Proc.devRef .tc main_arg9) := by
  after_results
theorem keep_hostOps1_main_arg10 (U : Valuation τ sig (Elt Ideal)) : StableHlo.after hostOps1 U (Proc.devRef .tc main_arg10) = U (Proc.devRef .tc main_arg10) := by
  after_results
theorem keep_hostOps1_main_arg11 (U : Valuation τ sig (Elt Ideal)) : StableHlo.after hostOps1 U (Proc.devRef .tc main_arg11) = U (Proc.devRef .tc main_arg11) := by
  after_results
theorem keep_hostOps1_main_v31 (U : Valuation τ sig (Elt Ideal)) : StableHlo.after hostOps1 U (Proc.devRef .tc main_v31) = U (Proc.devRef .tc main_v31) := by
  after_results
theorem keep_hostOps2_main_arg6 (U : Valuation τ sig (Elt Ideal)) : StableHlo.after hostOps2 U (Proc.devRef .tc main_arg6) = U (Proc.devRef .tc main_arg6) := by
  after_results
theorem keep_hostOps2_main_arg8 (U : Valuation τ sig (Elt Ideal)) : StableHlo.after hostOps2 U (Proc.devRef .tc main_arg8) = U (Proc.devRef .tc main_arg8) := by
  after_results
theorem keep_hostOps2_main_arg9 (U : Valuation τ sig (Elt Ideal)) : StableHlo.after hostOps2 U (Proc.devRef .tc main_arg9) = U (Proc.devRef .tc main_arg9) := by
  after_results
theorem keep_hostOps2_main_arg10 (U : Valuation τ sig (Elt Ideal)) : StableHlo.after hostOps2 U (Proc.devRef .tc main_arg10) = U (Proc.devRef .tc main_arg10) := by
  after_results
theorem keep_hostOps2_main_arg11 (U : Valuation τ sig (Elt Ideal)) : StableHlo.after hostOps2 U (Proc.devRef .tc main_arg11) = U (Proc.devRef .tc main_arg11) := by
  after_results
theorem keep_hostOps2_main_v46_0 (U : Valuation τ sig (Elt Ideal)) : StableHlo.after hostOps2 U (Proc.devRef .tc main_v46_0) = U (Proc.devRef .tc main_v46_0) := by
  after_results
theorem keep_hostOps3_main_arg10 (U : Valuation τ sig (Elt Ideal)) : StableHlo.after hostOps3 U (Proc.devRef .tc main_arg10) = U (Proc.devRef .tc main_arg10) := by
  after_results
theorem keep_hostOps3_main_v62_0 (U : Valuation τ sig (Elt Ideal)) : StableHlo.after hostOps3 U (Proc.devRef .tc main_v62_0) = U (Proc.devRef .tc main_v62_0) := by
  after_results

theorem keep_hostOps0_main_arg4 (U : Valuation τ sig (Elt Ideal)) : StableHlo.after hostOps0 U (Proc.devRef .tc main_arg4) = U (Proc.devRef .tc main_arg4) := by
  after_results
theorem keep_hostOps0_main_arg5 (U : Valuation τ sig (Elt Ideal)) : StableHlo.after hostOps0 U (Proc.devRef .tc main_arg5) = U (Proc.devRef .tc main_arg5) := by
  after_results
theorem keep_hostOps0_main_arg6 (U : Valuation τ sig (Elt Ideal)) : StableHlo.after hostOps0 U (Proc.devRef .tc main_arg6) = U (Proc.devRef .tc main_arg6) := by
  after_results
theorem keep_hostOps0_main_arg7 (U : Valuation τ sig (Elt Ideal)) : StableHlo.after hostOps0 U (Proc.devRef .tc main_arg7) = U (Proc.devRef .tc main_arg7) := by
  after_results
theorem keep_hostOps0_main_arg8 (U : Valuation τ sig (Elt Ideal)) : StableHlo.after hostOps0 U (Proc.devRef .tc main_arg8) = U (Proc.devRef .tc main_arg8) := by
  after_results
theorem keep_hostOps0_main_arg9 (U : Valuation τ sig (Elt Ideal)) : StableHlo.after hostOps0 U (Proc.devRef .tc main_arg9) = U (Proc.devRef .tc main_arg9) := by
  after_results
theorem keep_hostOps0_main_arg10 (U : Valuation τ sig (Elt Ideal)) : StableHlo.after hostOps0 U (Proc.devRef .tc main_arg10) = U (Proc.devRef .tc main_arg10) := by
  after_results
theorem keep_hostOps0_main_arg11 (U : Valuation τ sig (Elt Ideal)) : StableHlo.after hostOps0 U (Proc.devRef .tc main_arg11) = U (Proc.devRef .tc main_arg11) := by
  after_results
theorem keep_hostOps0_1_main_arg4 (U : Valuation τ sig (Elt Ideal)) : StableHlo.after hostOps0_1 U (Proc.devRef .tc main_arg4) = U (Proc.devRef .tc main_arg4) := by
  after_results
theorem keep_hostOps0_1_main_arg5 (U : Valuation τ sig (Elt Ideal)) : StableHlo.after hostOps0_1 U (Proc.devRef .tc main_arg5) = U (Proc.devRef .tc main_arg5) := by
  after_results
theorem keep_hostOps0_1_main_arg6 (U : Valuation τ sig (Elt Ideal)) : StableHlo.after hostOps0_1 U (Proc.devRef .tc main_arg6) = U (Proc.devRef .tc main_arg6) := by
  after_results
theorem keep_hostOps0_1_main_arg7 (U : Valuation τ sig (Elt Ideal)) : StableHlo.after hostOps0_1 U (Proc.devRef .tc main_arg7) = U (Proc.devRef .tc main_arg7) := by
  after_results
theorem keep_hostOps0_1_main_arg8 (U : Valuation τ sig (Elt Ideal)) : StableHlo.after hostOps0_1 U (Proc.devRef .tc main_arg8) = U (Proc.devRef .tc main_arg8) := by
  after_results
theorem keep_hostOps0_1_main_arg9 (U : Valuation τ sig (Elt Ideal)) : StableHlo.after hostOps0_1 U (Proc.devRef .tc main_arg9) = U (Proc.devRef .tc main_arg9) := by
  after_results
theorem keep_hostOps0_1_main_arg10 (U : Valuation τ sig (Elt Ideal)) : StableHlo.after hostOps0_1 U (Proc.devRef .tc main_arg10) = U (Proc.devRef .tc main_arg10) := by
  after_results
theorem keep_hostOps0_1_main_arg11 (U : Valuation τ sig (Elt Ideal)) : StableHlo.after hostOps0_1 U (Proc.devRef .tc main_arg11) = U (Proc.devRef .tc main_arg11) := by
  after_results
theorem keep_hostOps0_2_main_arg4 (U : Valuation τ sig (Elt Ideal)) : StableHlo.after hostOps0_2 U (Proc.devRef .tc main_arg4) = U (Proc.devRef .tc main_arg4) := by
  after_results
theorem keep_hostOps0_2_main_arg5 (U : Valuation τ sig (Elt Ideal)) : StableHlo.after hostOps0_2 U (Proc.devRef .tc main_arg5) = U (Proc.devRef .tc main_arg5) := by
  after_results
theorem keep_hostOps0_2_main_arg6 (U : Valuation τ sig (Elt Ideal)) : StableHlo.after hostOps0_2 U (Proc.devRef .tc main_arg6) = U (Proc.devRef .tc main_arg6) := by
  after_results
theorem keep_hostOps0_2_main_arg7 (U : Valuation τ sig (Elt Ideal)) : StableHlo.after hostOps0_2 U (Proc.devRef .tc main_arg7) = U (Proc.devRef .tc main_arg7) := by
  after_results
theorem keep_hostOps0_2_main_arg8 (U : Valuation τ sig (Elt Ideal)) : StableHlo.after hostOps0_2 U (Proc.devRef .tc main_arg8) = U (Proc.devRef .tc main_arg8) := by
  after_results
theorem keep_hostOps0_2_main_arg9 (U : Valuation τ sig (Elt Ideal)) : StableHlo.after hostOps0_2 U (Proc.devRef .tc main_arg9) = U (Proc.devRef .tc main_arg9) := by
  after_results
theorem keep_hostOps0_2_main_arg10 (U : Valuation τ sig (Elt Ideal)) : StableHlo.after hostOps0_2 U (Proc.devRef .tc main_arg10) = U (Proc.devRef .tc main_arg10) := by
  after_results
theorem keep_hostOps0_2_main_arg11 (U : Valuation τ sig (Elt Ideal)) : StableHlo.after hostOps0_2 U (Proc.devRef .tc main_arg11) = U (Proc.devRef .tc main_arg11) := by
  after_results

/-- The extended source list. -/
theorem s0_v3 (U : Valuation τ sig (Elt Ideal)) : StableHlo.after hostOps0 U (Proc.devRef .tc main_v3) = Cert.ReferenceIdeal.RefRun.idxSrc (U (Proc.devRef .tc main_arg1)) := by
  after_results; all_goals rfl
/-- The extended destination list. -/
theorem s0_v6 (U : Valuation τ sig (Elt Ideal)) : StableHlo.after hostOps0 U (Proc.devRef .tc main_v6) = Cert.ReferenceIdeal.RefRun.idxDst (U (Proc.devRef .tc main_arg1)) := by
  after_results; all_goals rfl
/-- Where the degree is positive. -/
theorem s0_v12 (U : Valuation τ sig (Elt Ideal)) : StableHlo.after hostOps0 U (Proc.devRef .tc main_v12)
    = cmpf .ogt (Cert.ReferenceIdeal.RefRun.deg (U (Proc.devRef .tc main_arg1))) (broadcastInDim S100000 ![] bcast_S_S100000 Cert.ReferenceIdeal.RefRun.zeroS) := by
  after_results; all_goals rfl
/-- The reciprocal square root of the degree. -/
theorem s0_v13 (U : Valuation τ sig (Elt Ideal)) : StableHlo.after hostOps0 U (Proc.devRef .tc main_v13) = Host.rsqrt (F := Ideal) (Cert.ReferenceIdeal.RefRun.deg (U (Proc.devRef .tc main_arg1))) := by
  after_results; all_goals rfl
theorem s0_v14 (U : Valuation τ sig (Elt Ideal)) : StableHlo.after hostOps0 U (Proc.devRef .tc main_v14) = broadcastInDim S100000 ![] bcast_S_S100000 Cert.ReferenceIdeal.RefRun.zeroS := by
  after_results; all_goals rfl
/-- The select that guards the reciprocal square root. -/
theorem s01_v15 (U : Valuation τ sig (Elt Ideal)) : StableHlo.after hostOps0_1 U (Proc.devRef .tc main_v15)
    = select (U (Proc.devRef .tc main_v12)) (U (Proc.devRef .tc main_v13)) (U (Proc.devRef .tc main_v14)) := by
  after_results; all_goals rfl
set_option maxHeartbeats 4000000 in
/-- The edge weights from the guarded reciprocal square roots and the two index lists. -/
theorem s02_v30 (U : Valuation τ sig (Elt Ideal)) : StableHlo.after hostOps0_2 U (Proc.devRef .tc main_v30)
    = (mulf (F := Ideal) (φ := .f32) (Host.gather gather_S100000_S740000x1_S740000_n_0_n_n_0_1_1 (U (Proc.devRef .tc main_v15) : FVec Ideal S100000 .f32) (Cert.ReferenceIdeal.RefRun.asCol (Cert.ReferenceIdeal.RefRun.wrapIdx (U (Proc.devRef .tc main_v3)))))
        (Host.gather gather_S100000_S740000x1_S740000_n_0_n_n_0_1_1 (U (Proc.devRef .tc main_v15) : FVec Ideal S100000 .f32) (Cert.ReferenceIdeal.RefRun.asCol (Cert.ReferenceIdeal.RefRun.wrapIdx (U (Proc.devRef .tc main_v6))))) : FVec Ideal S740000 .f32) := by
  after_results; all_goals rfl
set_option maxHeartbeats 4000000 in
/-- The aggregate from the projected rows, the two index lists and the edge weights. -/
theorem s1_v44 (U : Valuation τ sig (Elt Ideal)) : StableHlo.after hostOps1 U (Proc.devRef .tc main_v44)
    = Host.scatterAdd (F := Ideal) scatter_S100000x128_S740000x1_S740000x128_1_0_0_1 (broadcastInDim S100000x128 ![] bcast_S_S100000x128 Cert.ReferenceIdeal.RefRun.zeroS) (Cert.ReferenceIdeal.RefRun.asCol (U (Proc.devRef .tc main_v6)))
        (mulf (Host.gather gather_S100000x128_S740000x1_S740000x128_1_0_n_n_0_1_1128 (U (Proc.devRef .tc main_v31) : FVec Ideal S100000x128 .f32) (Cert.ReferenceIdeal.RefRun.asCol (Cert.ReferenceIdeal.RefRun.wrapIdx (U (Proc.devRef .tc main_v3)))))
          (broadcastInDim S740000x128 ![0, 1] bcast_S740000x1_S740000x128_0_1 (broadcastInDim S740000x1 ![0] bcast_S740000_S740000x1_0 (U (Proc.devRef .tc main_v30))))) := by
  after_results; all_goals rfl
set_option maxHeartbeats 4000000 in
/-- The first bias as a 1×128 row. -/
theorem s1_v45 (U : Valuation τ sig (Elt Ideal)) : StableHlo.after hostOps1 U (Proc.devRef .tc main_v45) = shapeCast S1x128 (U (Proc.devRef .tc main_arg3)) shapeCasts_S128_S1x128 := by
  after_results; all_goals rfl
set_option maxHeartbeats 4000000 in
theorem s2_v57 (U : Valuation τ sig (Elt Ideal)) : StableHlo.after hostOps2 U (Proc.devRef .tc main_v57)
    = scale128 (U (Proc.devRef .tc main_arg4)) (U (Proc.devRef .tc main_v46_1)) (U (Proc.devRef .tc main_v46_2)) := by
  after_results; unfold scale128 mean128; rfl
set_option maxHeartbeats 4000000 in
theorem s2_v60 (U : Valuation τ sig (Elt Ideal)) : StableHlo.after hostOps2 U (Proc.devRef .tc main_v60)
    = shift128 (U (Proc.devRef .tc main_arg5)) (U (Proc.devRef .tc main_arg4)) (U (Proc.devRef .tc main_v46_1)) (U (Proc.devRef .tc main_v46_2)) := by
  after_results; unfold shift128 scale128 mean128; rfl
set_option maxHeartbeats 4000000 in
theorem s2_v61 (U : Valuation τ sig (Elt Ideal)) : StableHlo.after hostOps2 U (Proc.devRef .tc main_v61) = shapeCast S1x64 (U (Proc.devRef .tc main_arg7)) shapeCasts_S64_S1x64 := by
  after_results; all_goals rfl
set_option maxHeartbeats 4000000 in
theorem s3_v73 (U : Valuation τ sig (Elt Ideal)) : StableHlo.after hostOps3 U (Proc.devRef .tc main_v73)
    = scale64 (U (Proc.devRef .tc main_arg8)) (U (Proc.devRef .tc main_v62_1)) (U (Proc.devRef .tc main_v62_2)) := by
  after_results; unfold scale64 mean64; rfl
set_option maxHeartbeats 4000000 in
theorem s3_v76 (U : Valuation τ sig (Elt Ideal)) : StableHlo.after hostOps3 U (Proc.devRef .tc main_v76)
    = shift64 (U (Proc.devRef .tc main_arg9)) (U (Proc.devRef .tc main_arg8)) (U (Proc.devRef .tc main_v62_1)) (U (Proc.devRef .tc main_v62_2)) := by
  after_results; unfold shift64 scale64 mean64; rfl
set_option maxHeartbeats 4000000 in
theorem s3_v77 (U : Valuation τ sig (Elt Ideal)) : StableHlo.after hostOps3 U (Proc.devRef .tc main_v77) = shapeCast S1x64 (U (Proc.devRef .tc main_arg11)) shapeCasts_S64_S1x64 := by
  after_results; all_goals rfl

end Cert.KernelIdeal.KHost

end
-- ==== Proof.Region0.lean ====
/-
  Region 0 of the idealized kernel, read as a whole-array function. The region multiplies a [100000,128] array by a
  [128,128] array, 5000 rows per grid point: point t loads rows 5000·t … 5000·t + 4999 of the first array and all of
  the second, and stores their product into the same rows of the output. Over the extended reals the product of a
  row block is the row block of the product, so the output array ends holding, at (r, j), the sum over the 128
  contracted positions k of first(r, k) · second(k, j). The steps: the stored block at an entry (the matrix product
  read at an index), each loaded block as rows of its array, what a point writes back as a block of the whole-array
  function, the 20 blocks covering the array (row r belongs to point r / 5000), and the array after the last point.
-/
import proofs.«129438_j27745488732760_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The dimension numbers of the body's one matrix product: [5000,128] times [128,128], contracting the first
    operand's columns against the second's rows. -/
abbrev D0 : DotDims S5000x128 S128x128 S5000x128 := dot_S5000x128_S128x128_S5000x128_1_0_0_1_n_n

/-- The first operand's row is the output's row, -/
theorem lhs_0 (i : S5000x128.Idx) (q : D0.contr.Idx) : (D0.lhsIdx i q 0).val = (i 0).val := by
  unfold DotDims.lhsIdx
  rw [dif_neg (show ¬(0 : Fin S5000x128.rank) ∈ D0.lhsBatch by decide),
    dif_pos (show (0 : Fin S5000x128.rank) ∈ D0.lhsNonContracting by decide)]
  rfl

/-- its column the contracted position; -/
theorem lhs_1 (i : S5000x128.Idx) (q : D0.contr.Idx) : (D0.lhsIdx i q 1).val = (q ⟨0, by decide⟩).val :=
  D0.lhsIdx_val_of_single rfl i q

/-- the second operand's row is the contracted position, -/
theorem rhs_0 (i : S5000x128.Idx) (q : D0.contr.Idx) : (D0.rhsIdx i q 0).val = (q ⟨0, by decide⟩).val :=
  D0.rhsIdx_val_of_single rfl i q

/-- its column the output's column. -/
theorem rhs_1 (i : S5000x128.Idx) (q : D0.contr.Idx) : (D0.rhsIdx i q 1).val = (i 1).val := by
  unfold DotDims.rhsIdx
  rw [dif_neg (show ¬(1 : Fin S128x128.rank) ∈ D0.rhsBatch by decide),
    dif_pos (show (1 : Fin S128x128.rank) ∈ D0.rhsNonContracting by decide)]
  rfl

/-- The body's stored value at row p, column q of its block: row p of the first loaded block times column q of
    the second, summed over the 128 contracted positions (a change of float format is the identity on extended
    reals, and the accumulator is the zero splat). -/
theorem payload_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (Ideal.matmul_constant_zero_apply D0 none _ _ (ix2 p q)).trans ?_
  rw [← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs_0 _ _
    | ⟨1, _⟩ => exact (lhs_1 _ _).trans hk)
  have er : D0.rhsIdx (ix2 p q) ((contrEquiv1 D0 128 rfl rfl).symm k) = ix2 k q := funext fun a => Fin.ext (by
    match a with
    | ⟨0, _⟩ => exact (rhs_0 _ _).trans hk
    | ⟨1, _⟩ => exact rhs_1 _ _)
  rw [el, er]
  rfl

/-- The whole-array value: entry (r, j) is row r of the first array times column j of the second. -/
def G (X : S100000x128.Idx → EReal) (W : S128x128.Idx → EReal) : S100000x128.Idx → EReal :=
  fun i => ∑ k : Fin 128, X (ix2 (i 0) k) * W (ix2 k (i 1))

/-- One grid point's work, over plain variables: if the first loaded block is rows 5000·t … 5000·t + 4999 of X
    and the second is all of W, then the stored block's entry j is G's entry i whenever i is j moved down by
    5000·t rows. -/
theorem point_value (X : S100000x128.Idx → EReal) (W : S128x128.Idx → EReal)
    (x0 : Vec Ideal S5000x128 .f32) (x1 : Vec Ideal S128x128 .f32) (t : Nat)
    (j : S5000x128.Idx) (i : S100000x128.Idx)
    (hi0 : (i 0).val = 5000 * t + (j 0).val) (hi1 : (i 1).val = (j 1).val)
    (h0 : ∀ (a : S5000x128.Idx) (b : S100000x128.Idx), (b 0).val = 5000 * t + (a 0).val → (b 1).val = (a 1).val → x0 a = X b)
    (h1 : ∀ (a : S128x128.Idx) (b : S128x128.Idx), (b 0).val = (a 0).val → (b 1).val = (a 1).val → x1 a = W b) :
    k0_pay1 x0 x1 j = G X W i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  rw [payload_apply]
  show _ = ∑ k : Fin 128, X (ix2 r k) * W (ix2 k s)
  refine Finset.sum_congr rfl fun k _ => ?_
  rw [h0 (ix2 p k) (ix2 r k) hi0 rfl, h1 (ix2 k q) (ix2 k s) rfl hi1]

/-- The printed index maps, decided over the 20 grid points: windows 0 and 2 are at row block t, column block 0;
    window 1 is the one whole block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point t is rows 5000·t … 5000·t + 4999 of its array. -/
theorem read0 (c : Dev nD) (t : Fin cfg0.N) (a : S5000x128.Idx) (b : S100000x128.Idx)
    (h0 : (b 0).val = 5000 * t.val + (a 0).val) (h1 : (b 1).val = (a 1).val) :
    (iblk0 V c 0 t : Vec Ideal S5000x128 .f32) a = (V c (Pipeline.arrRef spec0 0) : S100000x128.Idx → EReal) b := by
  obtain ⟨e0, e1, -⟩ := idx_facts t
  have h : ((cfg0.win 0).blk t).view.emb a = b := by
    funext ax; apply Fin.ext
    match ax with
    | ⟨0, _⟩ => show win0_0.index t (0 : Fin 2) * 5000 + 1 * (a 0).val = (b 0).val; rw [e0, h0]; omega
    | ⟨1, _⟩ => show win0_0.index t (1 : Fin 2) * 128 + 1 * (a 1).val = (b 1).val; rw [e1, h1]; omega
  unfold iblk0
  rw [View.read_apply]
  show (V c (Pipeline.arrRef spec0 0) : S100000x128.Idx → EReal) (((cfg0.win 0).blk t).view.emb a) = _
  rw [h]

/-- Window 1's block at every point is its whole array. -/
theorem read1 (c : Dev nD) (t : Fin cfg0.N) (a : S128x128.Idx) (b : S128x128.Idx)
    (h0 : (b 0).val = (a 0).val) (h1 : (b 1).val = (a 1).val) :
    (iblk0 V c 1 t : Vec Ideal S128x128 .f32) a = (V c (Pipeline.arrRef spec0 1) : S128x128.Idx → EReal) b := by
  obtain ⟨-, -, e2, e3, -⟩ := idx_facts t
  have h : ((cfg0.win 1).blk t).view.emb a = b := by
    funext ax; apply Fin.ext
    match ax with
    | ⟨0, _⟩ => show win0_1.index t (0 : Fin 2) * 128 + 1 * (a 0).val = (b 0).val; rw [e2, h0]; omega
    | ⟨1, _⟩ => show win0_1.index t (1 : Fin 2) * 128 + 1 * (a 1).val = (b 1).val; rw [e3, h1]; omega
  unfold iblk0
  rw [View.read_apply]
  show (V c (Pipeline.arrRef spec0 1) : S128x128.Idx → EReal) (((cfg0.win 1).blk t).view.emb a) = _
  rw [h]

/-- What point t writes back is block t of G of the two arrays as the region finds them. -/
theorem flushed_eq (c : Dev nD) (t : Fin cfg0.N) :
    (dat0 V c).flushed 2 t
      = ((cfg0.win 2).blk t).view.read (Elt Ideal) (G (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  funext y
  rw [View.read_apply]
  refine point_value (V c (Pipeline.arrRef spec0 0)) (V c (Pipeline.arrRef spec0 1)) (iblk0 V c 0 t) (iblk0 V c 1 t) t.val
    ((cfg0.win 2).xinj (grid0.coords t) y) (((cfg0.win 2).blk t).view.emb y) ?_ ?_ (read0 V c t) (read1 V c t)
  · show win0_2.index t (0 : Fin 2) * 5000 + 1 * (y 0).val = 5000 * t.val + (y 0).val; rw [e4]; omega
  · show win0_2.index t (1 : Fin 2) * 128 + 1 * (y 1).val = (y 1).val; rw [e5]; omega

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Row r of the array is written back by point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- REGION 0's output array after the region: every entry (r, j) is row r of the first input array times column j
    of the second, summed over the 128 contracted positions. -/
theorem value (c : Dev nD) (X : S100000x128.Idx → EReal) (W : S128x128.Idx → EReal)
    (hX : V c (Pipeline.arrRef spec0 0) = X) (hW : V c (Pipeline.arrRef spec0 1) = W) :
    (Cert.KernelIdeal.Gen.dat0 (F := Ideal) V c).arrAt 2 cfg0.N
      = fun i : S100000x128.Idx => ∑ k : Fin 128, X (ix2 (i 0) k) * W (ix2 k (i 1)) := by
  subst hX hW
  exact (dat0 V c).arrAt_eq_of_cover 2 (G (V c (Pipeline.arrRef spec0 0)) (V c (Pipeline.arrRef spec0 1)))
    (fun t _ => flushed_eq V c t) cover

/-- The same at one entry. -/
theorem value_at (c : Dev nD) (X : S100000x128.Idx → EReal) (W : S128x128.Idx → EReal)
    (hX : V c (Pipeline.arrRef spec0 0) = X) (hW : V c (Pipeline.arrRef spec0 1) = W) (r : Fin 100000) (j : Fin 128) :
    ((Cert.KernelIdeal.Gen.dat0 (F := Ideal) V c).arrAt 2 cfg0.N : S100000x128.Idx → EReal) (ix2 r j)
      = ∑ k : Fin 128, X (ix2 r k) * W (ix2 k j) :=
  congrFun (value V c X W hX hW) (ix2 r j)

end Cert.KernelIdeal.Region0

end
-- ==== Proof.LibBlockedSum.lean ====
/-
  Sums cut into consecutive blocks, over any additive commutative monoid (so also over the extended reals, where
  addition is associative and commutative although it is not cancellative).

  * `sum_blocks`: a sum over `Fin n` with `n = a * b` is the sum over the `a` blocks of the sums over the `b`
    positions inside a block; position `j` of block `s` is the index `b * s + j`.
  * `add_sum_pair`: a start value to which each block adds two terms, one after the other, is the start value
    plus the whole first sum plus the whole second sum.
-/
import Mathlib.Algebra.BigOperators.Fin
import Mathlib.Algebra.BigOperators.Group.Finset.Basic
import Mathlib.Logic.Equiv.Fin.Basic

open scoped BigOperators

namespace BlockedSum

variable {M : Type*} [AddCommMonoid M]

/-- A sum over `a * b` consecutive naturals, taken block by block: `a` blocks of `b` positions each, position `j` of
    block `s` being `b * s + j`. The summand is a function of the natural number, so no bound proof travels. -/
theorem sum_blocks (a b n : ℕ) (h : a * b = n) (g : ℕ → M) :
    ∑ s ∈ Finset.range a, ∑ j : Fin b, g (b * s + j.val) = ∑ k : Fin n, g k.val := by
  subst h
  rw [Finset.sum_range (fun s => ∑ j : Fin b, g (b * s + j.val))]
  rw [← Equiv.sum_comp finProdFinEquiv (fun k : Fin (a * b) => g k.val), Fintype.sum_prod_type]
  refine Finset.sum_congr rfl fun s _ => Finset.sum_congr rfl fun j _ => ?_
  show g (b * s.val + j.val) = g (j.val + b * s.val)
  rw [Nat.add_comm]

/-- Adding, block after block, first the block's `A` term and then its `B` term to a start value `z` gives `z` plus
    all the `A` terms plus all the `B` terms: only associativity and commutativity of the addition are used. -/
theorem add_sum_pair (z : M) (A B : ℕ → M) (a : ℕ) :
    z + ∑ s ∈ Finset.range a, (A s + B s) = (z + ∑ s ∈ Finset.range a, A s) + ∑ s ∈ Finset.range a, B s := by
  rw [Finset.sum_add_distrib, add_assoc]

end BlockedSum
-- ==== Proof.LibBlockedSumFin.lean ====
/-
  A sum over `Fin n` taken block by block, through any indexing of the blocks.

  `sum_blocks_fin`: over any additive commutative monoid (so also over the extended reals), if `n = a * b` and
  `idx s j : Fin n` has value `b * s + j` for every block `s : Fin a` and position `j : Fin b`, then the sum over the
  `a` blocks of the sums over the `b` positions of `f (idx s j)` is the sum of `f` over all of `Fin n`.  It is the
  `Fin`-indexed form of `BlockedSum.sum_blocks`: the summand is a function of the bounded index, and the indexing
  function is the caller's own (only its value is asked), so a kernel's per-block index constructor can be used as it is.
  Only associativity and commutativity of the addition are used.
-/
import proofs.«129438_j27745488732760_1_alg».proof.Proof.LibBlockedSum

open scoped BigOperators

namespace BlockedSum

/-- A sum over `Fin n`, `n = a * b`, taken block by block through any indexing `idx s j` of value `b * s + j`. -/
theorem sum_blocks_fin {M : Type*} [AddCommMonoid M] (a b n : ℕ) (h : a * b = n) (f : Fin n → M)
    (idx : Fin a → Fin b → Fin n) (hidx : ∀ s j, (idx s j).val = b * s.val + j.val) :
    ∑ s : Fin a, ∑ j : Fin b, f (idx s j) = ∑ k : Fin n, f k := by
  classical
  let g : ℕ → M := fun v => if hv : v < n then f ⟨v, hv⟩ else 0
  have hg : ∀ k : Fin n, g k.val = f k := fun k => by simp only [g, dif_pos k.isLt, Fin.eta]
  calc ∑ s : Fin a, ∑ j : Fin b, f (idx s j)
      = ∑ s : Fin a, ∑ j : Fin b, g (b * s.val + j.val) := by
          refine Finset.sum_congr rfl fun s _ => Finset.sum_congr rfl fun j _ => ?_
          rw [← hidx s j, hg]
    _ = ∑ s ∈ Finset.range a, ∑ j : Fin b, g (b * s + j.val) :=
          (Finset.sum_range (fun s => ∑ j : Fin b, g (b * s + j.val))).symm
    _ = ∑ k : Fin n, g k.val := BlockedSum.sum_blocks a b n h g
    _ = ∑ k : Fin n, f k := Finset.sum_congr rfl fun k _ => hg k

end BlockedSum
-- ==== Proof.Region1.lean ====
/-
  Region 1 of the idealized kernel, read as values: a grid of 20 points over the 5000-row blocks of a [100000, 128]
  array A and one bias row B [1, 128]. Each point writes the biased block h = A + B (the row broadcast over the
  rows) to the first output and adds the block's column sums of h and of h * h to two [1, 128] accumulators that
  are zeroed at the first point and written back after the last. Over the extended reals addition is associative
  and commutative, so after the region the first output is h, the second is the column sums of h over all 100000
  rows and the third the column sums of h * h, each as ONE function of the input arrays.
-/
import proofs.«129438_j27745488732760_1_alg».proof.Proof.Gen.KernelIdeal.Frame
import proofs.«129438_j27745488732760_1_alg».proof.Proof.LibBlockedSumFin
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Region1

open Cert.KernelIdeal Cert.KernelIdeal.Gen

variable (V : (c : Dev nD) → (b : Ref sig .tc) → Buf (Elt Ideal) ((c : Thread nD τ).loc b))

/-! ## The specification: the three outputs as functions of the two inputs -/

/-- The region's first input array, [100000, 128], as the region finds it. -/
abbrev inA (c : Dev nD) : S100000x128.Idx → EReal := V c (Pipeline.arrRef spec1 0)
/-- The region's second input array, the bias row [1, 128], as the region finds it. -/
abbrev inB (c : Dev nD) : S1x128.Idx → EReal := V c (Pipeline.arrRef spec1 1)
/-- Row r, lane j of the first input plus lane j of the bias row. -/
def biased (c : Dev nD) (r : Fin 100000) (j : Fin 128) : EReal := inA V c (ix2 r j) + inB V c (ix2 (0 : Fin 1) j)
/-- The biased array, as a function of the index. -/
def out2 (c : Dev nD) : S100000x128.Idx → EReal := fun i => biased V c ⟨(i 0).val, idx2_lt0 i⟩ ⟨(i 1).val, idx2_lt1 i⟩
/-- Its column sums, as a [1, 128] row. -/
def out3 (c : Dev nD) : S1x128.Idx → EReal := fun i => ∑ r : Fin 100000, biased V c r ⟨(i 1).val, idx2_lt1 i⟩
/-- The column sums of its squares, as a [1, 128] row. -/
def out4 (c : Dev nD) : S1x128.Idx → EReal :=
  fun i => ∑ r : Fin 100000, biased V c r ⟨(i 1).val, idx2_lt1 i⟩ * biased V c r ⟨(i 1).val, idx2_lt1 i⟩

theorem out2_apply (c : Dev nD) (r : Fin 100000) (j : Fin 128) :
    out2 V c (ix2 r j) = inA V c (ix2 r j) + inB V c (ix2 (0 : Fin 1) j) := rfl
theorem out3_apply (c : Dev nD) (u : Fin 1) (j : Fin 128) :
    out3 V c (ix2 u j) = ∑ r : Fin 100000, (inA V c (ix2 r j) + inB V c (ix2 (0 : Fin 1) j)) := rfl
theorem out4_apply (c : Dev nD) (u : Fin 1) (j : Fin 128) :
    out4 V c (ix2 u j) = ∑ r : Fin 100000, (inA V c (ix2 r j) + inB V c (ix2 (0 : Fin 1) j))
      * (inA V c (ix2 r j) + inB V c (ix2 (0 : Fin 1) j)) := rfl

/-! ## What each control case leaves in the outputs' buffers: the stores' payloads -/

/-- Zero offsets, however the zeros are spelt. -/
theorem hz : (![0, 0] : Fin 2 → Nat) = fun _ => 0 := funext fun a => by fin_cases a <;> rfl

section Pieces
variable {F : FTy → Type} [FloatOps F]

/-- At the first point the biased block is the one store into output 2's buffer. -/
theorem out_A_2 (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : cond1_0 i) (x0 : Vec F S5000x128 .f32) (x1 : Vec F S1x128 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  sl_unfold_words
  rw [View.canon_unit_zero hz]
  simp only [View.readAt_eq_ld, h1.read_unread, h2.read_unread, View.ld_unit_zero (S := S5000x128) hz, View.ld_unit_zero (S := S1x128) hz]

/-- At a later point too. -/
theorem out_B_2 (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : ¬cond1_0 i) (x0 : Vec F S5000x128 .f32) (x1 : Vec F S1x128 .f32) (xo3 xo4 : Vec F S1x128 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  rw [View.canon_unit_zero hz]
  simp only [View.readAt_eq_ld, h1.read_unread, h2.read_unread, View.ld_unit_zero (S := S5000x128) hz, View.ld_unit_zero (S := S1x128) hz]

/-- At the first point the sum accumulator is zeroed, read back, and the block's column sums are added to it. -/
theorem out_A_3 (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : cond1_0 i) (x0 : Vec F S5000x128 .f32) (x1 : Vec F S1x128 .f32) :
    out1_A_3 c i a1 h1 a2 h2 a3 h3 a4 h4 a5 h5 hc x0 x1 = k1_pay4 x0 x1 (k1_pay1 (F := F)) := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz, View.ld_unit_zero (S := S1x128) hz]

/-- At a later point the block's column sums are added to what the point before left. -/
theorem out_B_3 (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : ¬cond1_0 i) (x0 : Vec F S5000x128 .f32) (x1 : Vec F S1x128 .f32) (xo3 xo4 : Vec F S1x128 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  rw [View.canon_unit_zero hz]
  simp only [View.readAt_eq_ld, h1.read_unread, h2.read_unread, h4.read_unread, View.ld_unit_zero (S := S5000x128) hz, View.ld_unit_zero (S := S1x128) hz]

/-- The same for the accumulator of the squares, at the first point … -/
theorem out_A_4 (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : cond1_0 i) (x0 : Vec F S5000x128 .f32) (x1 : Vec F S1x128 .f32) :
    out1_A_4 c i a1 h1 a2 h2 a3 h3 a4 h4 a5 h5 hc x0 x1 = k1_pay5 x0 x1 (k1_pay2 (F := F)) := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz, View.ld_unit_zero (S := S1x128) hz]

/-- … and at a later one. -/
theorem out_B_4 (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : ¬cond1_0 i) (x0 : Vec F S5000x128 .f32) (x1 : Vec F S1x128 .f32) (xo3 xo4 : Vec F S1x128 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  rw [View.canon_unit_zero hz]
  simp only [View.readAt_eq_ld, h1.read_unread, h2.read_unread, h5.read_unread, View.ld_unit_zero (S := S5000x128) hz, View.ld_unit_zero (S := S1x128) hz]

end Pieces

/-! ## The payloads read at an index, over the extended reals -/

section Payloads

/-- The biased block at (p, q): the block's entry plus the bias row's lane q. -/
theorem pay3_apply (x0 : FVec Ideal S5000x128 .f32) (x1 : FVec Ideal S1x128 .f32) (p : Fin 5000) (q : Fin 128) :
    k1_pay3 (F := Ideal) x0 x1 (ix2 p q) = x0 (ix2 p q) + x1 (ix2 (0 : Fin 1) q) := by
  unfold k1_pay3
  refine (addf_apply _ _ _).trans ?_
  rw [shapeCast_self, shapeCast_self, broadcastTo_1b_ab_apply]

/-- The column sum of a [5000, 128] block at lane q, cast to a [1, 128] row: the sum over the 5000 rows. -/
theorem colsum_apply (v : FVec Ideal S5000x128 .f32) (hr : S5000x128.Reduces [0] S128) (hφ : FKind.Formats .f32)
    (hacc : (0x00000000#32 : BitVec 32) = FKind.add.neutral .f32 hφ) (hs : S128.ShapeCasts S1x128) (q : Fin 128) :
    shapeCast S1x128 (multiReduction .add [0] S128 v 0x00000000#32 hr hφ hacc) hs (ix2 (0 : Fin 1) q)
      = ∑ p : Fin 5000, v (ix2 p q) := by
  refine (shapeCast_a_1a_apply _ _ (0 : Fin 1) q).trans ?_
  refine (Ideal.multiReduction_add_single v _ hr hφ hacc (ix1 q)).trans ?_
  refine Finset.sum_congr rfl fun p _ => ?_
  exact congrArg v (funext fun a => by match a with | ⟨0, _⟩ => rfl | ⟨1, _⟩ => rfl)

/-- The sum accumulator's new contents at lane q: the old contents plus the biased block's column sum. -/
theorem pay4_apply (x0 : FVec Ideal S5000x128 .f32) (x1 : FVec Ideal S1x128 .f32) (acc : FVec Ideal S1x128 .f32) (q : Fin 128) :
    k1_pay4 (F := Ideal) x0 x1 acc (ix2 (0 : Fin 1) q)
      = acc (ix2 (0 : Fin 1) q) + ∑ p : Fin 5000, (x0 (ix2 p q) + x1 (ix2 (0 : Fin 1) q)) := by
  unfold k1_pay4
  refine (addf_apply _ _ _).trans ?_
  rw [shapeCast_self]
  refine congrArg (acc (ix2 (0 : Fin 1) q) + ·) ?_
  refine (colsum_apply _ _ _ _ _ q).trans ?_
  exact Finset.sum_congr rfl fun p _ => pay3_apply x0 x1 p q

/-- The accumulator of the squares likewise: the old contents plus the column sum of the biased block's squares. -/
theorem pay5_apply (x0 : FVec Ideal S5000x128 .f32) (x1 : FVec Ideal S1x128 .f32) (acc : FVec Ideal S1x128 .f32) (q : Fin 128) :
    k1_pay5 (F := Ideal) x0 x1 acc (ix2 (0 : Fin 1) q)
      = acc (ix2 (0 : Fin 1) q) + ∑ p : Fin 5000, (x0 (ix2 p q) + x1 (ix2 (0 : Fin 1) q)) * (x0 (ix2 p q) + x1 (ix2 (0 : Fin 1) q)) := by
  unfold k1_pay5
  refine (addf_apply _ _ _).trans ?_
  rw [shapeCast_self]
  refine congrArg (acc (ix2 (0 : Fin 1) q) + ·) ?_
  refine (colsum_apply _ _ _ _ _ q).trans ?_
  refine Finset.sum_congr rfl fun p _ => ?_
  refine (mulf_apply _ _ _).trans ?_
  rw [pay3_apply]

/-- The two zeroing stores write the extended real 0 everywhere. -/
theorem pay1_apply (y : S1x128.Idx) : k1_pay1 (F := Ideal) y = 0 := by
  unfold k1_pay1
  exact Ideal.ofBits_zero_f32
theorem pay2_apply (y : S1x128.Idx) : k1_pay2 (F := Ideal) y = 0 := by
  unfold k1_pay2
  exact Ideal.ofBits_zero_f32

end Payloads

/-! ## The grid and the windows' blocks -/

/-- The region has 20 points. -/
theorem lt20 (t : Fin cfg1.N) : t.val < 20 := lt_of_lt_of_eq t.isLt (show cfg1.N = 20 from N_1)

/-- The printed index maps, decided over the grid: windows 0 and 2 are at block (t, 0), windows 1, 3, 4 at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row p of block s is row 5000 s + p of the whole array. -/
def row (s : Fin 20) (p : Fin 5000) : Fin 100000 := ⟨5000 * s.val + p.val, by have := s.isLt; have := p.isLt; omega⟩

/-- Block t of the first input at (p, q) is the array at (5000 t + p, q). -/
theorem blkA_apply (c : Dev nD) (t : Fin cfg1.N) (p : Fin 5000) (q : Fin 128) :
    (iblk1 V c 0 t : S5000x128.Idx → EReal) (ix2 p q) = inA V c (ix2 (row ⟨t.val, lt20 t⟩ p) q) := by
  obtain ⟨e0, e1, -⟩ := idx_facts t
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * q.val = q.val; rw [e1]; omega

/-- The bias row's block is the row itself at every point. -/
theorem blkB_apply (c : Dev nD) (t : Fin cfg1.N) (q : Fin 128) :
    (iblk1 V c 1 t : S1x128.Idx → EReal) (ix2 (0 : Fin 1) q) = inB V c (ix2 (0 : Fin 1) q) := by
  obtain ⟨-, -, e0, e1, -⟩ := idx_facts t
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 1 + 1 * 0 = 0; rw [e0]
  | ⟨1, _⟩ => show win1_1.index t (1 : Fin 2) * 128 + 1 * q.val = q.val; rw [e1]; omega

/-! ## Output 2: the biased array -/

section AnyF
variable {F : FTy → Type} [FloatOps F]
variable (W : (c : Dev nD) → (b : Ref sig .tc) → Buf (Elt F) ((c : Thread nD τ).loc b))

/-- After every point output 2's buffer holds the biased block of that point. -/
theorem out2_at (c : Dev nD) (t : Fin cfg1.N) :
    (outsAt1 W c t.val t.isLt).1 = k1_pay3 (iblk1 W c 0 t) (iblk1 W c 1 t) := by
  by_cases h0 : t.val % 20 = 0
  · rw [outsAt1_A W c t h0]
    dsimp only
    exact out_A_2 c (grid1.coords t) (ms1_0 t) (hs1_0 t) (ms1_1 t) (hs1_1 t) (ms1_2 t) (hs1_2 t) (ms1_3 t) (hs1_3 t) (ms1_4 t) (hs1_4 t) ((hcond1_0 t).mpr h0) (iblk1 W c 0 t) (iblk1 W c 1 t)
  · rw [outsAt1_B W c t h0]
    dsimp only
    exact out_B_2 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 W c 0 t) (iblk1 W c 1 t) (outsAt1 W c (t.val - 1) (Nat.lt_of_le_of_lt (Nat.sub_le _ _) t.isLt)).2.1 (outsAt1 W c (t.val - 1) (Nat.lt_of_le_of_lt (Nat.sub_le _ _) t.isLt)).2.2

end AnyF

/-- What point t writes back to output 2 is block t of the biased array. -/
theorem flushed2_eq (c : Dev nD) (t : Fin cfg1.N) :
    (dat1 V c).flushed 2 t = ((cfg1.win 2).blk t).view.read (Elt Ideal) (out2 V c) := by
  show (cfg1.win 2).cut (grid1.coords t) ((dat1 V c).after 2 t) = _
  rw [after1_2, out2_at]
  obtain ⟨-, -, -, -, e4, e5, -⟩ := idx_facts t
  funext j
  obtain ⟨p, q, rfl⟩ : ∃ (p : Fin 5000) (q : Fin 128), j = ix2 p q := ⟨j 0, j 1, eq_ix2 j⟩
  rw [View.read_apply]
  show k1_pay3 (F := Ideal) (iblk1 V c 0 t) (iblk1 V c 1 t) (ix2 p q) = out2 V c (((cfg1.win 2).blk t).view.emb (ix2 p q))
  have he : ((cfg1.win 2).blk t).view.emb (ix2 p q) = (ix2 (row ⟨t.val, lt20 t⟩ p) q : S100000x128.Idx) := by
    funext a; apply Fin.ext
    match a with
    | ⟨0, _⟩ => show win1_2.index t (0 : Fin 2) * 5000 + 1 * p.val = 5000 * t.val + p.val; rw [e4]; omega
    | ⟨1, _⟩ => show win1_2.index t (1 : Fin 2) * 128 + 1 * q.val = q.val; rw [e5]; omega
  rw [he, out2_apply]
  refine (pay3_apply (iblk1 V c 0 t) (iblk1 V c 1 t) p q).trans ?_
  rw [blkA_apply, blkB_apply]

/-- Every row lies in the block of the point its index divided by 5000 names. -/
theorem cover2 (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have hN : cfg1.N = 20 := N_1
  let t : Fin cfg1.N := ⟨(i 0).val / 5000, by rw [hN]; omega⟩
  obtain ⟨-, -, -, -, e4, e5, -⟩ := idx_facts t
  have e4' : win1_2.index t (0 : Fin 2) = (i 0).val / 5000 := e4
  refine ⟨t, flush1_2 t, ?_⟩
  show i ∈ ((View.whole main_v46_0).slice (win1_2.rect t)).set
  rw [View.set_slice_whole, Rect.mem_set_unit]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the first output array is the biased array: its blocks tile the array and each point writes its own. -/
theorem arr2_eq (c : Dev nD) : (Cert.KernelIdeal.Gen.dat1 (F := Ideal) V c).arrAt 2 cfg1.N = out2 V c :=
  (dat1 V c).arrAt_eq_of_cover 2 (out2 V c) (fun t _ => flushed2_eq V c t) cover2

/-! ## Output 3: the column sums -/

/-- The column sum of block s of the biased array, at lane q. -/
def blockSum (c : Dev nD) (s : Fin 20) (q : Fin 128) : EReal := ∑ p : Fin 5000, biased V c (row s p) q

/-- One point's step: the accumulator's lane q gains that point's block sum. -/
theorem step3 (c : Dev nD) (t : Fin cfg1.N) (acc : FVec Ideal S1x128 .f32) (q : Fin 128) :
    k1_pay4 (F := Ideal) (iblk1 V c 0 t) (iblk1 V c 1 t) acc (ix2 (0 : Fin 1) q)
      = acc (ix2 (0 : Fin 1) q) + blockSum V c ⟨t.val, lt20 t⟩ q := by
  refine (pay4_apply (iblk1 V c 0 t) (iblk1 V c 1 t) acc q).trans ?_
  refine congrArg (acc (ix2 (0 : Fin 1) q) + ·) ?_
  refine Finset.sum_congr rfl fun p _ => ?_
  exact congrArg₂ (· + ·) (blkA_apply V c t p q) (blkB_apply V c t q)

/-- THE INVARIANT: after point n the accumulator's lane q is the sum of the block sums of points 0 … n. -/
theorem inv3 (c : Dev nD) : ∀ (n : ℕ) (hn : n < cfg1.N) (q : Fin 128),
    ((outsAt1 V c n hn).2.1 : S1x128.Idx → EReal) (ix2 (0 : Fin 1) q)
      = ∑ s : Fin (n + 1), blockSum V c ⟨s.val, by have := lt_of_lt_of_eq hn (show cfg1.N = 20 from N_1); have := s.isLt; omega⟩ q
  | 0, hn, q => by
    rw [outsAt1_A V c ⟨0, hn⟩ rfl]
    dsimp only
    rw [out_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr rfl) (iblk1 V c 0 ⟨0, hn⟩) (iblk1 V c 1 ⟨0, hn⟩)]
    refine (step3 V c ⟨0, hn⟩ _ q).trans ?_
    rw [pay1_apply, zero_add]
    exact (Fin.sum_univ_one (fun s : Fin 1 => blockSum V c ⟨s.val, by have := s.isLt; omega⟩ q)).symm
  | n + 1, hn, q => by
    have h20 : n + 1 < 20 := lt_of_lt_of_eq hn (show cfg1.N = 20 from N_1)
    have hB : ¬(⟨n + 1, hn⟩ : Fin cfg1.N).val % 20 = 0 := by dsimp only; omega
    rw [outsAt1_B V c ⟨n + 1, hn⟩ hB]
    dsimp only
    rw [out_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => hB ((hcond1_0 ⟨n + 1, hn⟩).mp h)) (iblk1 V c 0 ⟨n + 1, hn⟩) (iblk1 V c 1 ⟨n + 1, hn⟩)]
    refine (step3 V c ⟨n + 1, hn⟩ _ q).trans ?_
    rw [Fin.sum_univ_castSucc]
    refine congrArg₂ (· + ·) ?_ rfl
    exact inv3 c n (Nat.lt_of_succ_lt hn) q

/-- The 20 block sums of 5000 rows are the one sum over the 100000 rows. -/
theorem total3 (c : Dev nD) (q : Fin 128) :
    ∑ s : Fin 20, blockSum V c s q = ∑ r : Fin 100000, biased V c r q :=
  BlockedSum.sum_blocks_fin 20 5000 100000 rfl (fun r => biased V c r q) row (fun _ _ => rfl)

/-- At the last point, n = 19, the invariant's sum runs over all 20 blocks, hence over all 100000 rows. -/
theorem last3 (c : Dev nD) (n : ℕ) (hn : n < cfg1.N) (e : n = 19) (q : Fin 128) :
    ((outsAt1 V c n hn).2.1 : S1x128.Idx → EReal) (ix2 (0 : Fin 1) q) = ∑ r : Fin 100000, biased V c r q := by
  rw [inv3 V c n hn q]
  subst e
  exact total3 V c q

/-- The window's one block is the whole [1, 128] row: read through it, a row is itself. -/
theorem read_blk3 (t : Fin cfg1.N) (G : S1x128.Idx → EReal) (q : Fin 128) :
    ((cfg1.win 3).blk t).view.read (Elt Ideal) G (ix2 (0 : Fin 1) q) = G (ix2 (0 : Fin 1) q) := by
  obtain ⟨-, -, -, -, -, -, e6, e7, -⟩ := idx_facts t
  rw [View.read_apply]
  show G (((cfg1.win 3).blk t).view.emb (ix2 (0 : Fin 1) q)) = G (ix2 (0 : Fin 1) q)
  refine congrArg G (funext fun a => Fin.ext ?_)
  match a with
  | ⟨0, _⟩ => show win1_3.index t (0 : Fin 2) * 1 + 1 * 0 = 0; rw [e6]
  | ⟨1, _⟩ => show win1_3.index t (1 : Fin 2) * 128 + 1 * q.val = q.val; rw [e7]; omega

/-- The last point writes back the accumulator: the column sums over all rows. -/
theorem flushed3_eq (c : Dev nD) (t : Fin cfg1.N) (hf : (cfg1.win 3).flush t = true) :
    (dat1 V c).flushed 3 t = ((cfg1.win 3).blk t).view.read (Elt Ideal) (out3 V c) := by
  have h19 : t.val = 19 := by have := (flush1_3 t).mp hf; have := lt20 t; omega
  show (cfg1.win 3).cut (grid1.coords t) ((dat1 V c).after 3 t) = _
  rw [after1_3]
  funext j
  obtain ⟨u, q, rfl⟩ : ∃ (u : Fin 1) (q : Fin 128), j = ix2 u q := ⟨j 0, j 1, eq_ix2 j⟩
  obtain rfl : u = 0 := Subsingleton.elim _ _
  refine Eq.trans ?_ (read_blk3 t (out3 V c) q).symm
  show ((outsAt1 V c t.val t.isLt).2.1 : S1x128.Idx → EReal) (ix2 (0 : Fin 1) q) = _
  rw [out3_apply]
  exact last3 V c t.val t.isLt h19 q

/-- The one block of the [1, 128] row covers it. -/
theorem cover3 (i : S1x128.Idx) :
    ∃ t : Fin cfg1.N, (cfg1.win 3).flush t = true ∧ i ∈ ((cfg1.win 3).blk t).view.set := by
  have hi0 : (i 0).val < 1 := idx2_lt0 i
  have hi1 : (i 1).val < 128 := idx2_lt1 i
  have hN : cfg1.N = 20 := N_1
  let t : Fin cfg1.N := ⟨19, by rw [hN]; omega⟩
  obtain ⟨-, -, -, -, -, -, e6, e7, -⟩ := idx_facts t
  refine ⟨t, (flush1_3 t).mpr rfl, ?_⟩
  show i ∈ ((View.whole main_v46_1).slice (win1_3.rect t)).set
  rw [View.set_slice_whole, Rect.mem_set_unit]
  intro a
  match a with
  | ⟨0, _⟩ => show win1_3.index t (0 : Fin 2) * 1 ≤ (i 0).val ∧ (i 0).val < win1_3.index t (0 : Fin 2) * 1 + 1; omega
  | ⟨1, _⟩ => show win1_3.index t (1 : Fin 2) * 128 ≤ (i 1).val ∧ (i 1).val < win1_3.index t (1 : Fin 2) * 128 + 128; omega

/-- After the region the second output is the row of column sums of the biased array over all 100000 rows. -/
theorem arr3_eq (c : Dev nD) : (Cert.KernelIdeal.Gen.dat1 (F := Ideal) V c).arrAt 3 cfg1.N = out3 V c :=
  (dat1 V c).arrAt_eq_of_cover 3 (out3 V c) (flushed3_eq V c) cover3

/-! ## Output 4: the column sums of the squares -/

/-- The column sum of block s of the squares of the biased array, at lane q. -/
def blockSumSq (c : Dev nD) (s : Fin 20) (q : Fin 128) : EReal := ∑ p : Fin 5000, biased V c (row s p) q * biased V c (row s p) q

/-- One point's step: the accumulator's lane q gains that point's block sum. -/
theorem step4 (c : Dev nD) (t : Fin cfg1.N) (acc : FVec Ideal S1x128 .f32) (q : Fin 128) :
    k1_pay5 (F := Ideal) (iblk1 V c 0 t) (iblk1 V c 1 t) acc (ix2 (0 : Fin 1) q)
      = acc (ix2 (0 : Fin 1) q) + blockSumSq V c ⟨t.val, lt20 t⟩ q := by
  refine (pay5_apply (iblk1 V c 0 t) (iblk1 V c 1 t) acc q).trans ?_
  refine congrArg (acc (ix2 (0 : Fin 1) q) + ·) ?_
  refine Finset.sum_congr rfl fun p _ => ?_
  exact congrArg₂ (· * ·) (congrArg₂ (· + ·) (blkA_apply V c t p q) (blkB_apply V c t q)) (congrArg₂ (· + ·) (blkA_apply V c t p q) (blkB_apply V c t q))

/-- THE INVARIANT: after point n the accumulator's lane q is the sum of the block sums of points 0 … n. -/
theorem inv4 (c : Dev nD) : ∀ (n : ℕ) (hn : n < cfg1.N) (q : Fin 128),
    ((outsAt1 V c n hn).2.2 : S1x128.Idx → EReal) (ix2 (0 : Fin 1) q)
      = ∑ s : Fin (n + 1), blockSumSq V c ⟨s.val, by have := lt_of_lt_of_eq hn (show cfg1.N = 20 from N_1); have := s.isLt; omega⟩ q
  | 0, hn, q => by
    rw [outsAt1_A V c ⟨0, hn⟩ rfl]
    dsimp only
    rw [out_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr rfl) (iblk1 V c 0 ⟨0, hn⟩) (iblk1 V c 1 ⟨0, hn⟩)]
    refine (step4 V c ⟨0, hn⟩ _ q).trans ?_
    rw [pay2_apply, zero_add]
    exact (Fin.sum_univ_one (fun s : Fin 1 => blockSumSq V c ⟨s.val, by have := s.isLt; omega⟩ q)).symm
  | n + 1, hn, q => by
    have h20 : n + 1 < 20 := lt_of_lt_of_eq hn (show cfg1.N = 20 from N_1)
    have hB : ¬(⟨n + 1, hn⟩ : Fin cfg1.N).val % 20 = 0 := by dsimp only; omega
    rw [outsAt1_B V c ⟨n + 1, hn⟩ hB]
    dsimp only
    rw [out_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => hB ((hcond1_0 ⟨n + 1, hn⟩).mp h)) (iblk1 V c 0 ⟨n + 1, hn⟩) (iblk1 V c 1 ⟨n + 1, hn⟩)]
    refine (step4 V c ⟨n + 1, hn⟩ _ q).trans ?_
    rw [Fin.sum_univ_castSucc]
    refine congrArg₂ (· + ·) ?_ rfl
    exact inv4 c n (Nat.lt_of_succ_lt hn) q

/-- The 20 block sums of 5000 rows are the one sum over the 100000 rows. -/
theorem total4 (c : Dev nD) (q : Fin 128) :
    ∑ s : Fin 20, blockSumSq V c s q = ∑ r : Fin 100000, biased V c r q * biased V c r q :=
  BlockedSum.sum_blocks_fin 20 5000 100000 rfl (fun r => biased V c r q * biased V c r q) row (fun _ _ => rfl)

/-- At the last point, n = 19, the invariant's sum runs over all 20 blocks, hence over all 100000 rows. -/
theorem last4 (c : Dev nD) (n : ℕ) (hn : n < cfg1.N) (e : n = 19) (q : Fin 128) :
    ((outsAt1 V c n hn).2.2 : S1x128.Idx → EReal) (ix2 (0 : Fin 1) q) = ∑ r : Fin 100000, biased V c r q * biased V c r q := by
  rw [inv4 V c n hn q]
  subst e
  exact total4 V c q

/-- The window's one block is the whole [1, 128] row: read through it, a row is itself. -/
theorem read_blk4 (t : Fin cfg1.N) (G : S1x128.Idx → EReal) (q : Fin 128) :
    ((cfg1.win 4).blk t).view.read (Elt Ideal) G (ix2 (0 : Fin 1) q) = G (ix2 (0 : Fin 1) q) := by
  obtain ⟨-, -, -, -, -, -, -, -, e6, e7⟩ := idx_facts t
  rw [View.read_apply]
  show G (((cfg1.win 4).blk t).view.emb (ix2 (0 : Fin 1) q)) = G (ix2 (0 : Fin 1) q)
  refine congrArg G (funext fun a => Fin.ext ?_)
  match a with
  | ⟨0, _⟩ => show win1_4.index t (0 : Fin 2) * 1 + 1 * 0 = 0; rw [e6]
  | ⟨1, _⟩ => show win1_4.index t (1 : Fin 2) * 128 + 1 * q.val = q.val; rw [e7]; omega

/-- The last point writes back the accumulator: the column sums over all rows. -/
theorem flushed4_eq (c : Dev nD) (t : Fin cfg1.N) (hf : (cfg1.win 4).flush t = true) :
    (dat1 V c).flushed 4 t = ((cfg1.win 4).blk t).view.read (Elt Ideal) (out4 V c) := by
  have h19 : t.val = 19 := by have := (flush1_4 t).mp hf; have := lt20 t; omega
  show (cfg1.win 4).cut (grid1.coords t) ((dat1 V c).after 4 t) = _
  rw [after1_4]
  funext j
  obtain ⟨u, q, rfl⟩ : ∃ (u : Fin 1) (q : Fin 128), j = ix2 u q := ⟨j 0, j 1, eq_ix2 j⟩
  obtain rfl : u = 0 := Subsingleton.elim _ _
  refine Eq.trans ?_ (read_blk4 t (out4 V c) q).symm
  show ((outsAt1 V c t.val t.isLt).2.2 : S1x128.Idx → EReal) (ix2 (0 : Fin 1) q) = _
  rw [out4_apply]
  exact last4 V c t.val t.isLt h19 q

/-- The one block of the [1, 128] row covers it. -/
theorem cover4 (i : S1x128.Idx) :
    ∃ t : Fin cfg1.N, (cfg1.win 4).flush t = true ∧ i ∈ ((cfg1.win 4).blk t).view.set := by
  have hi0 : (i 0).val < 1 := idx2_lt0 i
  have hi1 : (i 1).val < 128 := idx2_lt1 i
  have hN : cfg1.N = 20 := N_1
  let t : Fin cfg1.N := ⟨19, by rw [hN]; omega⟩
  obtain ⟨-, -, -, -, -, -, -, -, e6, e7⟩ := idx_facts t
  refine ⟨t, (flush1_4 t).mpr rfl, ?_⟩
  show i ∈ ((View.whole main_v46_2).slice (win1_4.rect t)).set
  rw [View.set_slice_whole, Rect.mem_set_unit]
  intro a
  match a with
  | ⟨0, _⟩ => show win1_4.index t (0 : Fin 2) * 1 ≤ (i 0).val ∧ (i 0).val < win1_4.index t (0 : Fin 2) * 1 + 1; omega
  | ⟨1, _⟩ => show win1_4.index t (1 : Fin 2) * 128 ≤ (i 1).val ∧ (i 1).val < win1_4.index t (1 : Fin 2) * 128 + 128; omega

/-- After the region the third output is the row of column sums of the squares of the biased array. -/
theorem arr4_eq (c : Dev nD) : (Cert.KernelIdeal.Gen.dat1 (F := Ideal) V c).arrAt 4 cfg1.N = out4 V c :=
  (dat1 V c).arrAt_eq_of_cover 4 (out4 V c) (flushed4_eq V c) cover4

end Cert.KernelIdeal.Region1
end
-- ==== Proof.Region2Pay.lean ====
/-
  Region 2 of the idealized kernel, part one: the arithmetic.

  The region's body, at each of its 20 grid points, takes a block of 5000 rows of a 100000×128 array `H`, one row of
  scales `SC`, one row of shifts `SH`, a 128×64 matrix `W` and a bias row `B`, and computes
      o (r, j) = (Σ_k max (H (r,k) · SC k + SH k) 0 · W (k, j)) + B j
  for the rows of the block; it also keeps, in two carried rows, the running column sums of `o` and of `o²`.
  This module states `o` and reads each value the body stores at an index over the extended reals: the product into a
  zero accumulator is the plain sum over the contracted lane, the reduction down the rows is the plain sum of the column,
  casts between float formats and casts of a shape to itself are the identity, and a row broadcast down the block reads
  its one row.
-/
import proofs.«129438_j27745488732760_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx
open scoped BigOperators

namespace Cert.KernelIdeal.Region2

open Cert.KernelIdeal Cert.KernelIdeal.Gen

/-- One entry of the region's main output, from the five input arrays: row `r` of `H` is scaled by `SC` and shifted by
    `SH` lane by lane, clamped below at zero, multiplied into column `j` of `W`, and the bias `B j` added. -/
def oOf (H : S100000x128.Idx → EReal) (SC SH : S1x128.Idx → EReal) (W : S128x64.Idx → EReal) (B : S1x64.Idx → EReal)
    (r : Fin 100000) (j : Fin 64) : EReal :=
  (∑ k : Fin 128, max (H (ix2 r k) * SC (ix2 (0 : Fin 1) k) + SH (ix2 (0 : Fin 1) k)) 0 * W (ix2 k j)) + B (ix2 (0 : Fin 1) j)

variable (V : (c : Dev nD) → (b : Ref sig .tc) → Buf (Elt Ideal) ((c : Thread nD τ).loc b))

/-- The same entry, of the region's arrays as it finds them. -/
def o (c : Dev nD) (r : Fin 100000) (j : Fin 64) : EReal :=
  oOf (V c (Pipeline.arrRef spec2 0)) (V c (Pipeline.arrRef spec2 1)) (V c (Pipeline.arrRef spec2 2))
    (V c (Pipeline.arrRef spec2 3)) (V c (Pipeline.arrRef spec2 4)) r j

/-! ## The body's arithmetic, read at an index over the extended reals -/

/-- The product of a 5000×128 block with a 128×64 matrix into a zero accumulator, at `(p, j)`: the sum over the
    contracted lane of the entries' products. -/
theorem matmul_at (l : FVec Ideal S5000x128 .bf16) (r : FVec Ideal S128x64 .bf16) (p : Fin 5000) (j : Fin 64) :
    matmul dot_S5000x128_S128x64_S5000x64_1_0_0_1_n_n none l r (constant S5000x64 .f32 0x00000000#32) (ix2 p j)
      = ∑ k : Fin 128, l (ix2 p k) * r (ix2 k j) := by
  refine (Ideal.matmul_constant_zero_apply dot_S5000x128_S128x64_S5000x64_1_0_0_1_n_n none l r (ix2 p j)).trans ?_
  rw [← Equiv.sum_comp (contrEquiv1 dot_S5000x128_S128x64_S5000x64_1_0_0_1_n_n 128 rfl rfl).symm]
  refine Finset.sum_congr rfl fun k _ => ?_
  have ck := contrEquiv1_symm_val dot_S5000x128_S128x64_S5000x64_1_0_0_1_n_n 128 rfl rfl k
  have hl : dot_S5000x128_S128x64_S5000x64_1_0_0_1_n_n.lhsIdx (ix2 p j)
      ((contrEquiv1 dot_S5000x128_S128x64_S5000x64_1_0_0_1_n_n 128 rfl rfl).symm k) = ix2 p k := by
    funext ax; apply Fin.ext
    match ax with
    | ⟨0, _⟩ => simp [DotDims.lhsIdx, dot_S5000x128_S128x64_S5000x64_1_0_0_1_n_n]; rfl
    | ⟨1, _⟩ => simp [DotDims.lhsIdx, dot_S5000x128_S128x64_S5000x64_1_0_0_1_n_n]; exact ck
  have hr : dot_S5000x128_S128x64_S5000x64_1_0_0_1_n_n.rhsIdx (ix2 p j)
      ((contrEquiv1 dot_S5000x128_S128x64_S5000x64_1_0_0_1_n_n 128 rfl rfl).symm k) = ix2 k j := by
    funext ax; apply Fin.ext
    match ax with
    | ⟨0, _⟩ => simp [DotDims.rhsIdx, dot_S5000x128_S128x64_S5000x64_1_0_0_1_n_n]; exact ck
    | ⟨1, _⟩ => simp [DotDims.rhsIdx, dot_S5000x128_S128x64_S5000x64_1_0_0_1_n_n]; rfl
  rw [hl, hr]

/-- The sum of a 5000×64 block down its rows, from the zero word, at lane `j`: the sum of the column's entries. -/
theorem colsum_at (src : FVec Ideal S5000x64 .f32) (j : Fin 64) :
    multiReduction .add [0] S64 src 0x00000000#32 reduces_S5000x64_S64 (.inl rfl) rfl (ix1 j)
      = ∑ p : Fin 5000, src (ix2 p j) := by
  refine (Ideal.multiReduction_add_single src 0x00000000#32 reduces_S5000x64_S64 (.inl rfl) rfl (ix1 j)).trans ?_
  refine Finset.sum_congr rfl fun p _ => congrArg src ?_
  funext a
  match a with
  | ⟨0, _⟩ => rfl
  | ⟨1, _⟩ => rfl

/-- The block of the main output, at `(p, j)`: row `p` of the loaded block scaled and shifted lane by lane, clamped below
    at zero, multiplied into column `j` of the weights, plus the bias at `j` (a change of float format is the identity). -/
theorem pay4_at (x0 : Vec Ideal S5000x128 .f32) (x1 x2 : Vec Ideal S1x128 .f32) (x3 : Vec Ideal S128x64 .f32)
    (x4 : Vec Ideal S1x64 .f32) (p : Fin 5000) (j : Fin 64) :
    k2_pay4 (F := Ideal) x0 x1 x2 x3 x4 (ix2 p j)
      = (∑ k : Fin 128, max (x0 (ix2 p k) * x1 (ix2 (0 : Fin 1) k) + x2 (ix2 (0 : Fin 1) k)) 0 * x3 (ix2 k j))
        + x4 (ix2 (0 : Fin 1) j) := by
  unfold k2_pay4
  simp only [shapeCast_self]
  show matmul (F := Ideal) dot_S5000x128_S128x64_S5000x64_1_0_0_1_n_n none _ _ (constant (F := Ideal) S5000x64 .f32 0x00000000#32) (ix2 p j)
      + broadcastTo S5000x64 x4 broadcasts_S1x64_S5000x64 (ix2 p j) = _
  rw [matmul_at, broadcastTo_1b_ab_apply]
  refine congrArg (· + x4 (ix2 (0 : Fin 1) j)) (Finset.sum_congr rfl fun k _ => ?_)
  show max (x0 (ix2 p k) * broadcastTo S5000x128 x1 broadcasts_S1x128_S5000x128 (ix2 p k)
      + broadcastTo S5000x128 x2 broadcasts_S1x128_S5000x128 (ix2 p k)) (Ideal.ofBits .f32 0x00000000#32) * x3 (ix2 k j) = _
  rw [broadcastTo_1b_ab_apply, broadcastTo_1b_ab_apply, Ideal.ofBits_zero_f32]

/-- The squared block, entry by entry. -/
theorem pay7_at (x0 : Vec Ideal S5000x128 .f32) (x1 x2 : Vec Ideal S1x128 .f32) (x3 : Vec Ideal S128x64 .f32)
    (x4 : Vec Ideal S1x64 .f32) (p : Fin 5000) (j : Fin 64) :
    k2_pay7 (F := Ideal) x0 x1 x2 x3 x4 (ix2 p j)
      = k2_pay4 (F := Ideal) x0 x1 x2 x3 x4 (ix2 p j) * k2_pay4 (F := Ideal) x0 x1 x2 x3 x4 (ix2 p j) := rfl

/-- The running column sums after a point: what they held before plus the block's column sums. -/
theorem pay5_at (x0 : Vec Ideal S5000x128 .f32) (x1 x2 : Vec Ideal S1x128 .f32) (x3 : Vec Ideal S128x64 .f32)
    (x4 : Vec Ideal S1x64 .f32) (v24 : Vec Ideal S1x64 .f32) (u : Fin 1) (j : Fin 64) :
    k2_pay5 (F := Ideal) x0 x1 x2 x3 x4 v24 (ix2 u j)
      = v24 (ix2 u j) + ∑ p : Fin 5000, k2_pay4 (F := Ideal) x0 x1 x2 x3 x4 (ix2 p j) := by
  unfold k2_pay5
  simp only [shapeCast_self]
  show v24 (ix2 u j) + shapeCast S1x64 (multiReduction (F := Ideal) .add [0] S64 (k2_pay4 (F := Ideal) x0 x1 x2 x3 x4) 0x00000000#32
      reduces_S5000x64_S64 (.inl rfl) rfl) shapeCasts_S64_S1x64 (ix2 u j) = _
  rw [shapeCast_a_1a_apply, colsum_at]

/-- The same for the running sums of squares, over any block `v32` of summands. -/
theorem pay1_at (v31 : FVec Ideal S1x64 .f32) (v32 : FVec Ideal S5000x64 .f32) (u : Fin 1) (j : Fin 64) :
    k2_pay1 (F := Ideal) v31 v32 (ix2 u j) = v31 (ix2 u j) + ∑ p : Fin 5000, v32 (ix2 p j) := by
  unfold k2_pay1
  show v31 (ix2 u j) + shapeCast S1x64 (multiReduction (F := Ideal) .add [0] S64 v32 0x00000000#32
      reduces_S5000x64_S64 (.inl rfl) rfl) shapeCasts_S64_S1x64 (ix2 u j) = _
  rw [shapeCast_a_1a_apply, colsum_at]

/-- The carried sums of squares pass through a cast to their own shape unchanged (any float values). -/
theorem pay6_eq {F : FTy → Type} [FloatOps F] (v30 : Vec F S1x64 .f32) : k2_pay6 v30 = v30 := by
  unfold k2_pay6
  exact shapeCast_self _ _

/-- The two resets store the zero row. -/
theorem pay2_at (u : Fin 1) (j : Fin 64) : k2_pay2 (F := Ideal) (ix2 u j) = 0 := by
  unfold k2_pay2
  show Ideal.ofBits .f32 0x00000000#32 = 0
  exact Ideal.ofBits_zero_f32
theorem pay3_at (u : Fin 1) (j : Fin 64) : k2_pay3 (F := Ideal) (ix2 u j) = 0 := by
  unfold k2_pay3
  show Ideal.ofBits .f32 0x00000000#32 = 0
  exact Ideal.ofBits_zero_f32

/-- So the block at `(p, j)` is `oOf` at row `r` of whole arrays, once the loaded blocks read those arrays where row
    `r` says: the block of `H` at `(r, ·)`, the four small blocks the whole of their arrays. -/
theorem pay4_of_reads (x0 : Vec Ideal S5000x128 .f32) (x1 x2 : Vec Ideal S1x128 .f32) (x3 : Vec Ideal S128x64 .f32)
    (x4 : Vec Ideal S1x64 .f32) (H : S100000x128.Idx → EReal) (SC SH : S1x128.Idx → EReal) (W : S128x64.Idx → EReal)
    (B : S1x64.Idx → EReal) (p : Fin 5000) (j : Fin 64) (r : Fin 100000)
    (h0 : ∀ k : Fin 128, x0 (ix2 p k) = H (ix2 r k))
    (h1 : ∀ k : Fin 128, x1 (ix2 (0 : Fin 1) k) = SC (ix2 (0 : Fin 1) k))
    (h2 : ∀ k : Fin 128, x2 (ix2 (0 : Fin 1) k) = SH (ix2 (0 : Fin 1) k))
    (h3 : ∀ k : Fin 128, x3 (ix2 k j) = W (ix2 k j))
    (h4 : x4 (ix2 (0 : Fin 1) j) = B (ix2 (0 : Fin 1) j)) :
    k2_pay4 (F := Ideal) x0 x1 x2 x3 x4 (ix2 p j) = oOf H SC SH W B r j := by
  rw [pay4_at, h4]
  unfold oOf
  refine congrArg (· + B (ix2 (0 : Fin 1) j)) (Finset.sum_congr rfl fun k _ => ?_)
  rw [h0 k, h1 k, h2 k, h3 k]

end Cert.KernelIdeal.Region2
-- ==== Proof.Region2Pieces.lean ====
/-
  Region 2 of the idealized kernel, part two: what the body leaves.

  The body runs in two cases. At the first grid point it first stores the zero row into the two carried outputs (the
  running column sums of the main output and of its squares); at every other point it finds there what the point before
  left. In both cases it then stores the block of the main output, adds the block's column sums to the first carried
  row and the squared block's column sums to the second. This module identifies, for each case and each output, the
  contents the body leaves with the value the body stores last, as a function of the input blocks (and, after the first
  point, of the carried rows) — for any float values.
-/
import proofs.«129438_j27745488732760_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Region2

open Cert.KernelIdeal Cert.KernelIdeal.Gen

variable {F : FTy → Type} [FloatOps F]

theorem hz : (![0, 0] : Fin 2 → Nat) = fun _ => 0 := funext fun a => by fin_cases a <;> rfl

/-! ## What each case of the body leaves in each output's staging buffer

Each output's buffer is covered by the body's last store to it, so what it holds afterwards is that store's payload;
the loads the payload is computed from read whole buffers, so they are the buffers' contents; and where the body, at
the first grid point, stores the zero row and reads it back before accumulating, the read-back is the zero row. -/

/-- After any point but the first: the main output's block. -/
theorem piece_B_5 (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S128x64 .f32) (h4 : a4.IsWhole) (a5 : Memref sig .tc .vmem S1x64 .f32) (h5 : a5.IsWhole)
    (a6 : Memref sig .tc .vmem S5000x64 .f32) (h6 : a6.IsWhole) (a7 : Memref sig .tc .vmem S1x64 .f32) (h7 : a7.IsWhole)
    (a8 : Memref sig .tc .vmem S1x64 .f32) (h8 : a8.IsWhole) (hc : ¬cond2_0 i)
    (x0 : Vec F S5000x128 .f32) (x1 x2 : Vec F S1x128 .f32) (x3 : Vec F S128x64 .f32) (x4 : Vec F S1x64 .f32) (xo6 xo7 : Vec F S1x64 .f32) :
    out2_B_5 c i a1 h1 a2 h2 a3 h3 a4 h4 a5 h5 a6 h6 a7 h7 a8 h8 hc x0 x1 x2 x3 x4 xo6 xo7 = k2_pay4 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, View.ld_unit_zero (S := S5000x128) hz, View.ld_unit_zero (S := S1x128) hz, View.ld_unit_zero (S := S128x64) hz, View.ld_unit_zero (S := S1x64) hz]

/-- After any point but the first: the carried column sums `xo6`, the block's column sums added. -/
theorem piece_B_6 (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S128x64 .f32) (h4 : a4.IsWhole) (a5 : Memref sig .tc .vmem S1x64 .f32) (h5 : a5.IsWhole)
    (a6 : Memref sig .tc .vmem S5000x64 .f32) (h6 : a6.IsWhole) (a7 : Memref sig .tc .vmem S1x64 .f32) (h7 : a7.IsWhole)
    (a8 : Memref sig .tc .vmem S1x64 .f32) (h8 : a8.IsWhole) (hc : ¬cond2_0 i)
    (x0 : Vec F S5000x128 .f32) (x1 x2 : Vec F S1x128 .f32) (x3 : Vec F S128x64 .f32) (x4 : Vec F S1x64 .f32) (xo6 xo7 : Vec F S1x64 .f32) :
    out2_B_6 c i a1 h1 a2 h2 a3 h3 a4 h4 a5 h5 a6 h6 a7 h7 a8 h8 hc x0 x1 x2 x3 x4 xo6 xo7 = k2_pay5 x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, h7.read_unread, View.ld_unit_zero (S := S5000x128) hz, View.ld_unit_zero (S := S1x128) hz, View.ld_unit_zero (S := S128x64) hz, View.ld_unit_zero (S := S1x64) hz]

/-- After any point but the first: the carried sums of squares `xo7`, the squared block's column sums added. -/
theorem piece_B_7 (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S128x64 .f32) (h4 : a4.IsWhole) (a5 : Memref sig .tc .vmem S1x64 .f32) (h5 : a5.IsWhole)
    (a6 : Memref sig .tc .vmem S5000x64 .f32) (h6 : a6.IsWhole) (a7 : Memref sig .tc .vmem S1x64 .f32) (h7 : a7.IsWhole)
    (a8 : Memref sig .tc .vmem S1x64 .f32) (h8 : a8.IsWhole) (hc : ¬cond2_0 i)
    (x0 : Vec F S5000x128 .f32) (x1 x2 : Vec F S1x128 .f32) (x3 : Vec F S128x64 .f32) (x4 : Vec F S1x64 .f32) (xo6 xo7 : Vec F S1x64 .f32) :
    out2_B_7 c i a1 h1 a2 h2 a3 h3 a4 h4 a5 h5 a6 h6 a7 h7 a8 h8 hc x0 x1 x2 x3 x4 xo6 xo7 = k2_pay1 (k2_pay6 xo7) (k2_pay7 x0 x1 x2 x3 x4) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h8.read_unread, View.ld_unit_zero (S := S5000x128) hz, View.ld_unit_zero (S := S1x128) hz, View.ld_unit_zero (S := S128x64) hz, View.ld_unit_zero (S := S1x64) hz]

/-- After the first point: the main output's block. -/
theorem piece_A_5 (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S128x64 .f32) (h4 : a4.IsWhole) (a5 : Memref sig .tc .vmem S1x64 .f32) (h5 : a5.IsWhole)
    (a6 : Memref sig .tc .vmem S5000x64 .f32) (h6 : a6.IsWhole) (a7 : Memref sig .tc .vmem S1x64 .f32) (h7 : a7.IsWhole)
    (a8 : Memref sig .tc .vmem S1x64 .f32) (h8 : a8.IsWhole) (hc : cond2_0 i)
    (x0 : Vec F S5000x128 .f32) (x1 x2 : Vec F S1x128 .f32) (x3 : Vec F S128x64 .f32) (x4 : Vec F S1x64 .f32) :
    out2_A_5 c i a1 h1 a2 h2 a3 h3 a4 h4 a5 h5 a6 h6 a7 h7 a8 h8 hc x0 x1 x2 x3 x4 = k2_pay4 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  rw [View.canon_unit_zero hz]
  simp only [View.readAt_eq_ld, h1.read_unread, h2.read_unread, h3.read_unread, h4.read_unread, h5.read_unread, View.ld_unit_zero (S := S5000x128) hz, View.ld_unit_zero (S := S1x128) hz, View.ld_unit_zero (S := S128x64) hz, View.ld_unit_zero (S := S1x64) hz]

/-- After the first point: the zero row, the block's column sums added. -/
theorem piece_A_6 (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S128x64 .f32) (h4 : a4.IsWhole) (a5 : Memref sig .tc .vmem S1x64 .f32) (h5 : a5.IsWhole)
    (a6 : Memref sig .tc .vmem S5000x64 .f32) (h6 : a6.IsWhole) (a7 : Memref sig .tc .vmem S1x64 .f32) (h7 : a7.IsWhole)
    (a8 : Memref sig .tc .vmem S1x64 .f32) (h8 : a8.IsWhole) (hc : cond2_0 i)
    (x0 : Vec F S5000x128 .f32) (x1 x2 : Vec F S1x128 .f32) (x3 : Vec F S128x64 .f32) (x4 : Vec F S1x64 .f32) :
    out2_A_6 c i a1 h1 a2 h2 a3 h3 a4 h4 a5 h5 a6 h6 a7 h7 a8 h8 hc x0 x1 x2 x3 x4 = k2_pay5 x0 x1 x2 x3 x4 k2_pay2 := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, View.ld_unit_zero (S := S5000x128) hz, View.ld_unit_zero (S := S1x128) hz, View.ld_unit_zero (S := S128x64) hz, View.ld_unit_zero (S := S1x64) hz]

/-- After the first point: the zero row, the squared block's column sums added. -/
theorem piece_A_7 (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S128x64 .f32) (h4 : a4.IsWhole) (a5 : Memref sig .tc .vmem S1x64 .f32) (h5 : a5.IsWhole)
    (a6 : Memref sig .tc .vmem S5000x64 .f32) (h6 : a6.IsWhole) (a7 : Memref sig .tc .vmem S1x64 .f32) (h7 : a7.IsWhole)
    (a8 : Memref sig .tc .vmem S1x64 .f32) (h8 : a8.IsWhole) (hc : cond2_0 i)
    (x0 : Vec F S5000x128 .f32) (x1 x2 : Vec F S1x128 .f32) (x3 : Vec F S128x64 .f32) (x4 : Vec F S1x64 .f32) :
    out2_A_7 c i a1 h1 a2 h2 a3 h3 a4 h4 a5 h5 a6 h6 a7 h7 a8 h8 hc x0 x1 x2 x3 x4 = k2_pay1 (k2_pay6 k2_pay3) (k2_pay7 x0 x1 x2 x3 x4) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, View.ld_unit_zero (S := S5000x128) hz, View.ld_unit_zero (S := S1x128) hz, View.ld_unit_zero (S := S128x64) hz, View.ld_unit_zero (S := S1x64) hz]

end Cert.KernelIdeal.Region2
-- ==== Proof.Region2.lean ====
/-
  Region 2 of the idealized kernel, part three: the three output arrays as functions of the input arrays.

  With `H` [100000×128], `SC`, `SH` [1×128], `W` [128×64] and `B` [1×64] the arrays the region finds in its windows
  0 … 4, and
      o (r, j) = (Σ_k max (H (r,k) · SC k + SH k) 0 · W (k, j)) + B j,
  the region leaves
      window 5 [100000×64] at (r, j) :  o (r, j)
      window 6 [1×64]      at (0, j) :  0 + Σ_r o (r, j)
      window 7 [1×64]      at (0, j) :  0 + Σ_r o (r, j)²
  for any contents of the arrays: over the extended reals addition is associative and commutative, and nothing else is
  used to join the twenty per-block sums to the one sum over all rows.

  The road: each input block is read off its array (block `t` of `H` is rows `5000·t … 5000·t + 4999`; the four small
  windows always hold their whole array); by induction on the grid point the main output's buffer holds block `t` of `o`
  and the carried rows hold the sums over the blocks so far; each write-back writes the matching block of the final
  function, and the written blocks cover each array.
-/
import proofs.«129438_j27745488732760_1_alg».proof.Proof.Gen.KernelIdeal.Frame
import proofs.«129438_j27745488732760_1_alg».proof.Proof.Region2Pay
import proofs.«129438_j27745488732760_1_alg».proof.Proof.Region2Pieces
import proofs.«129438_j27745488732760_1_alg».proof.Proof.LibBlockedSum
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Region2

open Cert.KernelIdeal Cert.KernelIdeal.Gen

variable (V : (c : Dev nD) → (b : Ref sig .tc) → Buf (Elt Ideal) ((c : Thread nD τ).loc b))

/-! ## The windows' block indices, decided over the grid

Windows 0 and 5 move with the grid point: block `t` is rows `5000·t … 5000·t + 4999`. Every other window stays at
block `(0, 0)`, which is its whole array. -/

theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-! ## The input blocks, read off the arrays -/

/-- Row `p` of block `t` of the first input is row `5000·t + p` of its array. -/
theorem blk0_at (c : Dev nD) (t : Fin cfg2.N) (p : Fin 5000) (k : Fin 128) (hr : 5000 * t.val + p.val < 100000) :
    iblk2 V c 0 t (ix2 p k) = V c (Pipeline.arrRef spec2 0) (ix2 (⟨5000 * t.val + p.val, hr⟩ : Fin 100000) k) := by
  obtain ⟨e0, e1, -⟩ := idx_facts t
  unfold iblk2
  rw [View.read_apply]
  refine congrArg (V c (Pipeline.arrRef spec2 0)) ?_
  funext a; apply Fin.ext
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- The scale row's one block is its array. -/
theorem blk1_at (c : Dev nD) (t : Fin cfg2.N) (k : Fin 128) :
    iblk2 V c 1 t (ix2 (0 : Fin 1) k) = V c (Pipeline.arrRef spec2 1) (ix2 (0 : Fin 1) k) := by
  obtain ⟨-, -, e0, e1, -⟩ := idx_facts t
  unfold iblk2
  rw [View.read_apply]
  refine congrArg (V c (Pipeline.arrRef spec2 1)) ?_
  funext a; apply Fin.ext
  match a with
  | ⟨0, _⟩ => show win2_1.index t (0 : Fin 2) * 1 + 1 * 0 = 0; rw [e0]
  | ⟨1, _⟩ => show win2_1.index t (1 : Fin 2) * 128 + 1 * k.val = k.val; rw [e1]; omega

/-- The shift row's one block is its array. -/
theorem blk2_at (c : Dev nD) (t : Fin cfg2.N) (k : Fin 128) :
    iblk2 V c 2 t (ix2 (0 : Fin 1) k) = V c (Pipeline.arrRef spec2 2) (ix2 (0 : Fin 1) k) := by
  obtain ⟨-, -, -, -, e0, e1, -⟩ := idx_facts t
  unfold iblk2
  rw [View.read_apply]
  refine congrArg (V c (Pipeline.arrRef spec2 2)) ?_
  funext a; apply Fin.ext
  match a with
  | ⟨0, _⟩ => show win2_2.index t (0 : Fin 2) * 1 + 1 * 0 = 0; rw [e0]
  | ⟨1, _⟩ => show win2_2.index t (1 : Fin 2) * 128 + 1 * k.val = k.val; rw [e1]; omega

/-- The weight matrix's one block is its array. -/
theorem blk3_at (c : Dev nD) (t : Fin cfg2.N) (k : Fin 128) (j : Fin 64) :
    iblk2 V c 3 t (ix2 k j) = V c (Pipeline.arrRef spec2 3) (ix2 k j) := by
  obtain ⟨-, -, -, -, -, -, e0, e1, -⟩ := idx_facts t
  unfold iblk2
  rw [View.read_apply]
  refine congrArg (V c (Pipeline.arrRef spec2 3)) ?_
  funext a; apply Fin.ext
  match a with
  | ⟨0, _⟩ => show win2_3.index t (0 : Fin 2) * 128 + 1 * k.val = k.val; rw [e0]; omega
  | ⟨1, _⟩ => show win2_3.index t (1 : Fin 2) * 64 + 1 * j.val = j.val; rw [e1]; omega

/-- The bias row's one block is its array. -/
theorem blk4_at (c : Dev nD) (t : Fin cfg2.N) (j : Fin 64) :
    iblk2 V c 4 t (ix2 (0 : Fin 1) j) = V c (Pipeline.arrRef spec2 4) (ix2 (0 : Fin 1) j) := by
  obtain ⟨-, -, -, -, -, -, -, -, e0, e1, -⟩ := idx_facts t
  unfold iblk2
  rw [View.read_apply]
  refine congrArg (V c (Pipeline.arrRef spec2 4)) ?_
  funext a; apply Fin.ext
  match a with
  | ⟨0, _⟩ => show win2_4.index t (0 : Fin 2) * 1 + 1 * 0 = 0; rw [e0]
  | ⟨1, _⟩ => show win2_4.index t (1 : Fin 2) * 64 + 1 * j.val = j.val; rw [e1]; omega

/-! ## The block of the main output at a point -/

/-- `o` at a row given by its number (zero past the array): the form in which sums over blocks of rows are taken. -/
def oN (c : Dev nD) (v : ℕ) (j : Fin 64) : EReal := if hv : v < 100000 then o V c ⟨v, hv⟩ j else 0

theorem oN_val (c : Dev nD) (r : Fin 100000) (j : Fin 64) : oN V c r.val j = o V c r j := by
  unfold oN; rw [dif_pos r.isLt]

/-- The value the body stores into the main output's block at point `t`, at `(p, j)`, is `o` at row `5000·t + p`. -/
theorem blk_o (c : Dev nD) (t : Fin cfg2.N) (p : Fin 5000) (j : Fin 64) :
    k2_pay4 (F := Ideal) (iblk2 V c 0 t) (iblk2 V c 1 t) (iblk2 V c 2 t) (iblk2 V c 3 t) (iblk2 V c 4 t) (ix2 p j)
      = oN V c (5000 * t.val + p.val) j := by
  have hN : t.val < 20 := lt_of_lt_of_eq t.isLt (show cfg2.N = 20 from N_2)
  have hr : 5000 * t.val + p.val < 100000 := by have := p.isLt; omega
  unfold oN; rw [dif_pos hr]; unfold o
  exact pay4_of_reads (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2))
    (V c (Pipeline.arrRef spec2 3)) (V c (Pipeline.arrRef spec2 4)) p j ⟨5000 * t.val + p.val, hr⟩
    (fun k => blk0_at V c t p k hr) (fun k => blk1_at V c t k) (fun k => blk2_at V c t k)
    (fun k => blk3_at V c t k j) (blk4_at V c t j)

/-! ## The outputs after each point

By induction on the point: after point `n` the main output's staging buffer holds block `n` of `o`, and the two
carried rows hold zero plus the column sums of `o`, and of its squares, over the rows of blocks `0 … n`. The first
point starts the sums from the zero row it stores; every later point adds its block's sums to what the point before
left. -/

theorem outsAt_eq (c : Dev nD) : ∀ (n : ℕ) (h : n < cfg2.N),
    (∀ (p : Fin 5000) (j : Fin 64), (outsAt2 V c n h).1 (ix2 p j) = oN V c (5000 * n + p.val) j)
    ∧ (∀ (u : Fin 1) (j : Fin 64), (outsAt2 V c n h).2.1 (ix2 u j)
        = 0 + ∑ t ∈ Finset.range (n + 1), ∑ p : Fin 5000, oN V c (5000 * t + p.val) j)
    ∧ (∀ (u : Fin 1) (j : Fin 64), (outsAt2 V c n h).2.2 (ix2 u j)
        = 0 + ∑ t ∈ Finset.range (n + 1), ∑ p : Fin 5000, oN V c (5000 * t + p.val) j * oN V c (5000 * t + p.val) j)
  | 0, h => by
    rw [outsAt2_A V c ⟨0, h⟩ rfl]
    dsimp only
    refine ⟨fun p j => ?_, fun u j => ?_, fun u j => ?_⟩
    · exact (congrFun (piece_A_5 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) _ (iblk2 V c 0 ⟨0, h⟩) (iblk2 V c 1 ⟨0, h⟩) (iblk2 V c 2 ⟨0, h⟩) (iblk2 V c 3 ⟨0, h⟩) (iblk2 V c 4 ⟨0, h⟩)) (ix2 p j)).trans (blk_o V c ⟨0, h⟩ p j)
    · refine (congrFun (piece_A_6 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) _ (iblk2 V c 0 ⟨0, h⟩) (iblk2 V c 1 ⟨0, h⟩) (iblk2 V c 2 ⟨0, h⟩) (iblk2 V c 3 ⟨0, h⟩) (iblk2 V c 4 ⟨0, h⟩)) (ix2 u j)).trans ?_
      refine (pay5_at (iblk2 V c 0 ⟨0, h⟩) (iblk2 V c 1 ⟨0, h⟩) (iblk2 V c 2 ⟨0, h⟩) (iblk2 V c 3 ⟨0, h⟩) (iblk2 V c 4 ⟨0, h⟩) (k2_pay2 (F := Ideal)) u j).trans ?_
      rw [pay2_at]
      simp only [Finset.sum_range_succ, Finset.sum_range_zero, zero_add]
      exact Finset.sum_congr rfl fun p _ => blk_o V c ⟨0, h⟩ p j
    · refine (congrFun (piece_A_7 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) _ (iblk2 V c 0 ⟨0, h⟩) (iblk2 V c 1 ⟨0, h⟩) (iblk2 V c 2 ⟨0, h⟩) (iblk2 V c 3 ⟨0, h⟩) (iblk2 V c 4 ⟨0, h⟩)) (ix2 u j)).trans ?_
      refine (pay1_at _ _ u j).trans ?_
      rw [pay6_eq, pay3_at]
      simp only [Finset.sum_range_succ, Finset.sum_range_zero, zero_add]
      refine Finset.sum_congr rfl fun p _ => ?_
      refine (pay7_at (iblk2 V c 0 ⟨0, h⟩) (iblk2 V c 1 ⟨0, h⟩) (iblk2 V c 2 ⟨0, h⟩) (iblk2 V c 3 ⟨0, h⟩) (iblk2 V c 4 ⟨0, h⟩) p j).trans ?_
      rw [blk_o V c ⟨0, h⟩ p j]
  | n + 1, h => by
    have hN : cfg2.N = 20 := N_2
    have hB : ¬(⟨n + 1, h⟩ : Fin cfg2.N).val % 20 = 0 := by dsimp only; omega
    obtain ⟨-, ih6, ih7⟩ := outsAt_eq c n (Nat.lt_of_succ_lt h)
    rw [outsAt2_B V c ⟨n + 1, h⟩ hB]
    dsimp only
    refine ⟨fun p j => ?_, fun u j => ?_, fun u j => ?_⟩
    · exact (congrFun (piece_B_5 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) _ (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _ _) (ix2 p j)).trans (blk_o V c ⟨n + 1, h⟩ p j)
    · refine (congrFun (piece_B_6 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) _ (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _ _) (ix2 u j)).trans ?_
      refine (pay5_at (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _ u j).trans ?_
      rw [Finset.sum_range_succ _ (n + 1), ← add_assoc]
      exact congr (congrArg HAdd.hAdd (ih6 u j)) (Finset.sum_congr rfl fun p _ => blk_o V c ⟨n + 1, h⟩ p j)
    · refine (congrFun (piece_B_7 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) _ (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _ _) (ix2 u j)).trans ?_
      refine (pay1_at _ _ u j).trans ?_
      rw [pay6_eq, Finset.sum_range_succ _ (n + 1), ← add_assoc]
      refine congr (congrArg HAdd.hAdd (ih7 u j)) (Finset.sum_congr rfl fun p _ => ?_)
      refine (pay7_at (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) p j).trans ?_
      rw [blk_o V c ⟨n + 1, h⟩ p j]

/-! ## The arrays after the run

Every point writes its block of the main output back, and the blocks tile the array; the two carried rows are written
back once, after the last point, and their one block is their whole array. Twenty blocks of 5000 rows are all 100000
rows, so the carried sums over the blocks are the sums over all rows. -/

/-- Twenty block sums of 5000 consecutive rows are one sum over the 100000 rows. -/
theorem sum_rows (g : ℕ → EReal) :
    ∑ t ∈ Finset.range 20, ∑ p : Fin 5000, g (5000 * t + p.val) = ∑ k : Fin 100000, g k.val :=
  BlockedSum.sum_blocks 20 5000 100000 rfl g

/-- What the main output's array ends holding: `o`, entry by entry. -/
def G5 (c : Dev nD) : S100000x64.Idx → EReal := fun i => oN V c (i 0).val ⟨(i 1).val, idx2_lt1 i⟩
/-- What the first carried row ends holding: zero plus the column sums of `o` over all rows. -/
def G6 (c : Dev nD) : S1x64.Idx → EReal := fun i => 0 + ∑ r : Fin 100000, o V c r ⟨(i 1).val, idx2_lt1 i⟩
/-- What the second carried row ends holding: zero plus the column sums of `o²` over all rows. -/
def G7 (c : Dev nD) : S1x64.Idx → EReal :=
  fun i => 0 + ∑ r : Fin 100000, o V c r ⟨(i 1).val, idx2_lt1 i⟩ * o V c r ⟨(i 1).val, idx2_lt1 i⟩

/-- What point `t` writes back of the main output is block `t` of `G5`. -/
theorem flushed5 (c : Dev nD) (t : Fin cfg2.N) :
    (dat2 V c).flushed 5 t = ((cfg2.win 5).blk t).view.read (Elt Ideal) (G5 V c) := by
  have hN : t.val < 20 := lt_of_lt_of_eq t.isLt (show cfg2.N = 20 from N_2)
  obtain ⟨-, -, -, -, -, -, -, -, -, -, e0, e1, -⟩ := idx_facts t
  show (cfg2.win 5).cut (grid2.coords t) ((dat2 V c).after 5 t) = _
  rw [after2_5]
  funext y
  obtain ⟨p, j, rfl⟩ : ∃ (p : Fin 5000) (j : Fin 64), y = ix2 p j := ⟨y 0, y 1, eq_ix2 (n0 := 5000) (n1 := 64) y⟩
  have hr : 5000 * t.val + p.val < 100000 := by have := p.isLt; omega
  show (outsAt2 V c t.val t.isLt).1 (ix2 p j) = G5 V c (((cfg2.win 5).blk t).view.emb (ix2 p j))
  have e : ((cfg2.win 5).blk t).view.emb (ix2 p j) = (ix2 (⟨5000 * t.val + p.val, hr⟩ : Fin 100000) j : S100000x64.Idx) := by
    funext a; apply Fin.ext
    match a with
    | ⟨0, _⟩ => show win2_5.index t (0 : Fin 2) * 5000 + 1 * p.val = 5000 * t.val + p.val; rw [e0]; omega
    | ⟨1, _⟩ => show win2_5.index t (1 : Fin 2) * 64 + 1 * j.val = j.val; rw [e1]; omega
  rw [e]
  exact (outsAt_eq V c t.val t.isLt).1 p j

/-- Every row of the main output's array lies in the block of the point its number divided by 5000 names. -/
theorem cover5 (i : S100000x64.Idx) :
    ∃ t : Fin cfg2.N, (cfg2.win 5).flush t = true ∧ i ∈ ((cfg2.win 5).blk t).view.set := by
  have hi0 : (i 0).val < 100000 := idx2_lt0 i
  have hi1 : (i 1).val < 64 := idx2_lt1 i
  obtain ⟨t, ht⟩ : ∃ t : Fin cfg2.N, t.val = (i 0).val / 5000 :=
    ⟨⟨(i 0).val / 5000, lt_of_lt_of_eq (by omega) N_2.symm⟩, rfl⟩
  obtain ⟨-, -, -, -, -, -, -, -, -, -, e0, e1, -⟩ := idx_facts t
  refine ⟨t, flush2_5 t, ?_⟩
  show i ∈ ((View.whole main_v62_0).slice (win2_5.rect t)).set
  rw [View.set_slice_whole, Rect.mem_set_unit]
  intro a
  match a with
  | ⟨0, _⟩ =>
    show win2_5.index t (0 : Fin 2) * 5000 ≤ (i 0).val ∧ (i 0).val < win2_5.index t (0 : Fin 2) * 5000 + 5000
    rw [e0]; omega
  | ⟨1, _⟩ =>
    show win2_5.index t (1 : Fin 2) * 64 ≤ (i 1).val ∧ (i 1).val < win2_5.index t (1 : Fin 2) * 64 + 64
    rw [e1]; omega

/-- So the main output's array ends holding `G5`. -/
theorem arr5_fun (c : Dev nD) : (Cert.KernelIdeal.Gen.dat2 (F := Ideal) V c).arrAt 5 cfg2.N = G5 V c :=
  (dat2 V c).arrAt_eq_of_cover 5 (G5 V c) (fun t _ => flushed5 V c t) cover5

/-- The one write-back of window 6, after the last point, writes block `(0, 0)` — the whole row — of `G6`: the
    carried row then holds the sums over the rows of all twenty blocks, which are all the rows of the array. -/
theorem flushed6 (c : Dev nD) (t : Fin cfg2.N) (hf : (cfg2.win 6).flush t = true) :
    (dat2 V c).flushed 6 t = ((cfg2.win 6).blk t).view.read (Elt Ideal) (G6 V c) := by
  have hN : t.val < 20 := lt_of_lt_of_eq t.isLt (show cfg2.N = 20 from N_2)
  have h19 : t.val = 19 := by have := (flush2_6 t).mp hf; omega
  obtain ⟨-, -, -, -, -, -, -, -, -, -, -, -, e0, e1, -⟩ := idx_facts t
  show (cfg2.win 6).cut (grid2.coords t) ((dat2 V c).after 6 t) = _
  rw [after2_6]
  funext y
  obtain ⟨u, j, rfl⟩ : ∃ (u : Fin 1) (j : Fin 64), y = ix2 u j := ⟨y 0, y 1, eq_ix2 (n0 := 1) (n1 := 64) y⟩
  show (outsAt2 V c t.val t.isLt).2.1 (ix2 u j) = G6 V c (((cfg2.win 6).blk t).view.emb (ix2 u j))
  have e : ((cfg2.win 6).blk t).view.emb (ix2 u j) = (ix2 (0 : Fin 1) j : S1x64.Idx) := by
    funext a; apply Fin.ext
    match a with
    | ⟨0, _⟩ => show win2_6.index t (0 : Fin 2) * 1 + 1 * u.val = 0; rw [e0]; omega
    | ⟨1, _⟩ => show win2_6.index t (1 : Fin 2) * 64 + 1 * j.val = j.val; rw [e1]; omega
  refine ((outsAt_eq V c t.val t.isLt).2.1 u j).trans ?_
  rw [e, h19]
  refine congrArg (0 + ·) ?_
  exact (sum_rows (fun v => oN V c v j)).trans
    (Finset.sum_congr rfl fun r _ => by exact oN_val V c r j)

/-- The last point's block covers window 6's array. -/
theorem cover6 (i : S1x64.Idx) :
    ∃ t : Fin cfg2.N, (cfg2.win 6).flush t = true ∧ i ∈ ((cfg2.win 6).blk t).view.set := by
  have hi0 : (i 0).val < 1 := idx2_lt0 i
  have hi1 : (i 1).val < 64 := idx2_lt1 i
  obtain ⟨t, ht⟩ : ∃ t : Fin cfg2.N, t.val = 19 := ⟨⟨19, lt_of_lt_of_eq (by omega) N_2.symm⟩, rfl⟩
  obtain ⟨-, -, -, -, -, -, -, -, -, -, -, -, e0, e1, -⟩ := idx_facts t
  refine ⟨t, (flush2_6 t).mpr (by rw [ht]), ?_⟩
  show i ∈ ((View.whole main_v62_1).slice (win2_6.rect t)).set
  rw [View.set_slice_whole, Rect.mem_set_unit]
  intro a
  match a with
  | ⟨0, _⟩ =>
    show win2_6.index t (0 : Fin 2) * 1 ≤ (i 0).val ∧ (i 0).val < win2_6.index t (0 : Fin 2) * 1 + 1
    rw [e0]; omega
  | ⟨1, _⟩ =>
    show win2_6.index t (1 : Fin 2) * 64 ≤ (i 1).val ∧ (i 1).val < win2_6.index t (1 : Fin 2) * 64 + 64
    rw [e1]; omega

/-- So window 6's array ends holding `G6`. -/
theorem arr6_fun (c : Dev nD) : (Cert.KernelIdeal.Gen.dat2 (F := Ideal) V c).arrAt 6 cfg2.N = G6 V c :=
  (dat2 V c).arrAt_eq_of_cover 6 (G6 V c) (flushed6 V c) cover6

/-- The one write-back of window 7, after the last point, writes block `(0, 0)` — the whole row — of `G7`: the
    carried row then holds the sums over the rows of all twenty blocks, which are all the rows of the array. -/
theorem flushed7 (c : Dev nD) (t : Fin cfg2.N) (hf : (cfg2.win 7).flush t = true) :
    (dat2 V c).flushed 7 t = ((cfg2.win 7).blk t).view.read (Elt Ideal) (G7 V c) := by
  have hN : t.val < 20 := lt_of_lt_of_eq t.isLt (show cfg2.N = 20 from N_2)
  have h19 : t.val = 19 := by have := (flush2_7 t).mp hf; omega
  obtain ⟨-, -, -, -, -, -, -, -, -, -, -, -, -, -, e0, e1⟩ := idx_facts t
  show (cfg2.win 7).cut (grid2.coords t) ((dat2 V c).after 7 t) = _
  rw [after2_7]
  funext y
  obtain ⟨u, j, rfl⟩ : ∃ (u : Fin 1) (j : Fin 64), y = ix2 u j := ⟨y 0, y 1, eq_ix2 (n0 := 1) (n1 := 64) y⟩
  show (outsAt2 V c t.val t.isLt).2.2 (ix2 u j) = G7 V c (((cfg2.win 7).blk t).view.emb (ix2 u j))
  have e : ((cfg2.win 7).blk t).view.emb (ix2 u j) = (ix2 (0 : Fin 1) j : S1x64.Idx) := by
    funext a; apply Fin.ext
    match a with
    | ⟨0, _⟩ => show win2_7.index t (0 : Fin 2) * 1 + 1 * u.val = 0; rw [e0]; omega
    | ⟨1, _⟩ => show win2_7.index t (1 : Fin 2) * 64 + 1 * j.val = j.val; rw [e1]; omega
  refine ((outsAt_eq V c t.val t.isLt).2.2 u j).trans ?_
  rw [e, h19]
  refine congrArg (0 + ·) ?_
  exact (sum_rows (fun v => oN V c v j * oN V c v j)).trans
    (Finset.sum_congr rfl fun r _ => by show oN V c r.val j * oN V c r.val j = _; rw [oN_val V c r j])

/-- The last point's block covers window 7's array. -/
theorem cover7 (i : S1x64.Idx) :
    ∃ t : Fin cfg2.N, (cfg2.win 7).flush t = true ∧ i ∈ ((cfg2.win 7).blk t).view.set := by
  have hi0 : (i 0).val < 1 := idx2_lt0 i
  have hi1 : (i 1).val < 64 := idx2_lt1 i
  obtain ⟨t, ht⟩ : ∃ t : Fin cfg2.N, t.val = 19 := ⟨⟨19, lt_of_lt_of_eq (by omega) N_2.symm⟩, rfl⟩
  obtain ⟨-, -, -, -, -, -, -, -, -, -, -, -, -, -, e0, e1⟩ := idx_facts t
  refine ⟨t, (flush2_7 t).mpr (by rw [ht]), ?_⟩
  show i ∈ ((View.whole main_v62_2).slice (win2_7.rect t)).set
  rw [View.set_slice_whole, Rect.mem_set_unit]
  intro a
  match a with
  | ⟨0, _⟩ =>
    show win2_7.index t (0 : Fin 2) * 1 ≤ (i 0).val ∧ (i 0).val < win2_7.index t (0 : Fin 2) * 1 + 1
    rw [e0]; omega
  | ⟨1, _⟩ =>
    show win2_7.index t (1 : Fin 2) * 64 ≤ (i 1).val ∧ (i 1).val < win2_7.index t (1 : Fin 2) * 64 + 64
    rw [e1]; omega

/-- So window 7's array ends holding `G7`. -/
theorem arr7_fun (c : Dev nD) : (Cert.KernelIdeal.Gen.dat2 (F := Ideal) V c).arrAt 7 cfg2.N = G7 V c :=
  (dat2 V c).arrAt_eq_of_cover 7 (G7 V c) (flushed7 V c) cover7

/-! ## The region's three outputs, entry by entry -/

/-- The main output at `(r, j)` is `o (r, j)`. -/
theorem arr5 (c : Dev nD) (r : Fin 100000) (j : Fin 64) :
    (Cert.KernelIdeal.Gen.dat2 (F := Ideal) V c).arrAt 5 cfg2.N (ix2 r j) = o V c r j :=
  (congrFun (arr5_fun V c) (ix2 r j)).trans (oN_val V c r j)

/-- The first carried output at lane `j` is zero plus the sum of `o (r, j)` over all rows `r`. -/
theorem arr6 (c : Dev nD) (u : Fin 1) (j : Fin 64) :
    (Cert.KernelIdeal.Gen.dat2 (F := Ideal) V c).arrAt 6 cfg2.N (ix2 u j) = 0 + ∑ r : Fin 100000, o V c r j :=
  congrFun (arr6_fun V c) (ix2 u j)

/-- The second carried output at lane `j` is zero plus the sum of `o (r, j)²` over all rows `r`. -/
theorem arr7 (c : Dev nD) (u : Fin 1) (j : Fin 64) :
    (Cert.KernelIdeal.Gen.dat2 (F := Ideal) V c).arrAt 7 cfg2.N (ix2 u j) = 0 + ∑ r : Fin 100000, o V c r j * o V c r j :=
  congrFun (arr7_fun V c) (ix2 u j)

end Cert.KernelIdeal.Region2
-- ==== Proof.Region3.lean ====
/-
  Region 3 of the idealized kernel, read as a whole-array function. The region takes a [100000,64] array H, three
  one-row arrays SC, SH, B of 64 columns and a [64,64] array W, 5000 rows per grid point: point t loads rows
  5000·t … 5000·t + 4999 of H and all of the other four, scales and shifts each column (h · sc + sh), cuts the result
  below at zero, multiplies by W and adds B to every row, and stores the block into the same rows of the output. All
  of this is row by row, so the output array ends holding, at (r, j),
  (sum over the 64 contracted positions k of max(H(r,k) · SC(0,k) + SH(0,k), 0) · W(k,j)) + B(0,j).
  The steps: the stored block at an entry (the pointwise operations and the matrix product read at an index), each
  loaded block as rows of its array, what a point writes back as a block of the whole-array function, the 20 blocks
  covering the array (row r belongs to point r / 5000), and the array after the last point.
-/
import proofs.«129438_j27745488732760_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The dimension numbers of the body's one matrix product: [5000,64] times [64,64], contracting the first
    operand's columns against the second's rows. -/
abbrev D3 : DotDims S5000x64 S64x64 S5000x64 := dot_S5000x64_S64x64_S5000x64_1_0_0_1_n_n

/-- The first operand's row is the output's row, -/
theorem lhs_0 (i : S5000x64.Idx) (q : D3.contr.Idx) : (D3.lhsIdx i q 0).val = (i 0).val := by
  unfold DotDims.lhsIdx
  rw [dif_neg (show ¬(0 : Fin S5000x64.rank) ∈ D3.lhsBatch by decide),
    dif_pos (show (0 : Fin S5000x64.rank) ∈ D3.lhsNonContracting by decide)]
  rfl

/-- its column the contracted position; -/
theorem lhs_1 (i : S5000x64.Idx) (q : D3.contr.Idx) : (D3.lhsIdx i q 1).val = (q ⟨0, by decide⟩).val :=
  D3.lhsIdx_val_of_single rfl i q

/-- the second operand's row is the contracted position, -/
theorem rhs_0 (i : S5000x64.Idx) (q : D3.contr.Idx) : (D3.rhsIdx i q 0).val = (q ⟨0, by decide⟩).val :=
  D3.rhsIdx_val_of_single rfl i q

/-- its column the output's column. -/
theorem rhs_1 (i : S5000x64.Idx) (q : D3.contr.Idx) : (D3.rhsIdx i q 1).val = (i 1).val := by
  unfold DotDims.rhsIdx
  rw [dif_neg (show ¬(1 : Fin S64x64.rank) ∈ D3.rhsBatch by decide),
    dif_pos (show (1 : Fin S64x64.rank) ∈ D3.rhsNonContracting by decide)]
  rfl

/-- The body's stored value as one term of its five loads: the shape casts are between equal shapes. -/
theorem payload_eq (x0 : Vec Ideal S5000x64 .f32) (x1 x2 : Vec Ideal S1x64 .f32) (x3 : Vec Ideal S64x64 .f32) (x4 : Vec Ideal S1x64 .f32) :
    k3_pay1 x0 x1 x2 x3 x4
      = addf (matmul D3 none
              (truncf .bf16 (maximumf (addf (mulf x0 (broadcastTo S5000x64 x1 broadcasts_S1x64_S5000x64))
                  (broadcastTo S5000x64 x2 broadcasts_S1x64_S5000x64))
                (broadcast S5000x64 (Scalar.ofBits (F := Ideal) .f32 0x00000000#32))) bitsLt_bf16_f32)
              (truncf .bf16 x3 bitsLt_bf16_f32) (constant S5000x64 .f32 0x00000000#32))
          (broadcastTo S5000x64 x4 broadcasts_S1x64_S5000x64) := by
  unfold k3_pay1
  simp only [shapeCast_self]

/-- The body's stored value at row p, column q of its block: row p of the first loaded block, scaled and shifted
    column by column by the two loaded rows and cut below at zero, times column q of the loaded square block, summed
    over the 64 contracted positions, plus the last loaded row at q (a change of float format is the identity on
    extended reals, the accumulator is the zero splat, and the zero literal is the extended real 0). -/
theorem payload_apply (x0 : Vec Ideal S5000x64 .f32) (x1 x2 : Vec Ideal S1x64 .f32) (x3 : Vec Ideal S64x64 .f32) (x4 : Vec Ideal S1x64 .f32)
    (p : Fin 5000) (q : Fin 64) :
    k3_pay1 x0 x1 x2 x3 x4 (ix2 p q)
      = (∑ k : Fin 64, max (x0 (ix2 p k) * x1 (ix2 (0 : Fin 1) k) + x2 (ix2 (0 : Fin 1) k)) 0 * x3 (ix2 k q))
          + x4 (ix2 (0 : Fin 1) q) := by
  rw [payload_eq, addf_apply, broadcastTo_1b_ab_apply x4 broadcasts_S1x64_S5000x64 p q]
  refine congrArg (· + x4 (ix2 (0 : Fin 1) q)) ?_
  refine (Ideal.matmul_constant_zero_apply D3 none _ _ (ix2 p q)).trans ?_
  rw [← Equiv.sum_comp (contrEquiv1 D3 64 rfl rfl).symm]
  refine Finset.sum_congr rfl fun k _ => ?_
  have hk := contrEquiv1_symm_val D3 64 rfl rfl k
  have el : D3.lhsIdx (ix2 p q) ((contrEquiv1 D3 64 rfl rfl).symm k) = ix2 p k := funext fun a => Fin.ext (by
    match a with
    | ⟨0, _⟩ => exact lhs_0 _ _
    | ⟨1, _⟩ => exact (lhs_1 _ _).trans hk)
  have er : D3.rhsIdx (ix2 p q) ((contrEquiv1 D3 64 rfl rfl).symm k) = ix2 k q := funext fun a => Fin.ext (by
    match a with
    | ⟨0, _⟩ => exact (rhs_0 _ _).trans hk
    | ⟨1, _⟩ => exact rhs_1 _ _)
  rw [el, er]
  show max (x0 (ix2 p k) * broadcastTo S5000x64 x1 broadcasts_S1x64_S5000x64 (ix2 p k)
        + broadcastTo S5000x64 x2 broadcasts_S1x64_S5000x64 (ix2 p k)) (Ideal.ofBits .f32 0x00000000#32) * x3 (ix2 k q) = _
  rw [broadcastTo_1b_ab_apply x1 broadcasts_S1x64_S5000x64 p k, broadcastTo_1b_ab_apply x2 broadcasts_S1x64_S5000x64 p k,
    Ideal.ofBits_zero_f32]

/-- The whole-array value: entry (r, j) is row r of H, scaled by SC and shifted by SH column by column and cut below
    at zero, times column j of W, plus B at j. -/
def G (H : S100000x64.Idx → EReal) (SC SH : S1x64.Idx → EReal) (W : S64x64.Idx → EReal) (B : S1x64.Idx → EReal) :
    S100000x64.Idx → EReal :=
  fun i => (∑ k : Fin 64, max (H (ix2 (i 0) k) * SC (ix2 (0 : Fin 1) k) + SH (ix2 (0 : Fin 1) k)) 0 * W (ix2 k (i 1)))
    + B (ix2 (0 : Fin 1) (i 1))

/-- One grid point's work, over plain variables: if the first loaded block is rows 5000·t … 5000·t + 4999 of H and
    the other four are all of SC, SH, W and B, then the stored block's entry j is G's entry i whenever i is j moved
    down by 5000·t rows. -/
theorem point_value (H : S100000x64.Idx → EReal) (SC SH : S1x64.Idx → EReal) (W : S64x64.Idx → EReal) (B : S1x64.Idx → EReal)
    (x0 : Vec Ideal S5000x64 .f32) (x1 x2 : Vec Ideal S1x64 .f32) (x3 : Vec Ideal S64x64 .f32) (x4 : Vec Ideal S1x64 .f32) (t : Nat)
    (j : S5000x64.Idx) (i : S100000x64.Idx)
    (hi0 : (i 0).val = 5000 * t + (j 0).val) (hi1 : (i 1).val = (j 1).val)
    (h0 : ∀ (a : S5000x64.Idx) (b : S100000x64.Idx), (b 0).val = 5000 * t + (a 0).val → (b 1).val = (a 1).val → x0 a = H b)
    (h1 : ∀ (a b : S1x64.Idx), (b 0).val = (a 0).val → (b 1).val = (a 1).val → x1 a = SC b)
    (h2 : ∀ (a b : S1x64.Idx), (b 0).val = (a 0).val → (b 1).val = (a 1).val → x2 a = SH b)
    (h3 : ∀ (a b : S64x64.Idx), (b 0).val = (a 0).val → (b 1).val = (a 1).val → x3 a = W b)
    (h4 : ∀ (a b : S1x64.Idx), (b 0).val = (a 0).val → (b 1).val = (a 1).val → x4 a = B b) :
    k3_pay1 x0 x1 x2 x3 x4 j = G H SC SH W B i := by
  obtain ⟨p, q, rfl⟩ : ∃ (p : Fin 5000) (q : Fin 64), j = ix2 p q := ⟨j 0, j 1, eq_ix2 j⟩
  obtain ⟨r, s, rfl⟩ : ∃ (r : Fin 100000) (s : Fin 64), i = ix2 r s := ⟨i 0, i 1, eq_ix2 i⟩
  rw [payload_apply]
  show _ = (∑ k : Fin 64, max (H (ix2 r k) * SC (ix2 (0 : Fin 1) k) + SH (ix2 (0 : Fin 1) k)) 0 * W (ix2 k s))
    + B (ix2 (0 : Fin 1) s)
  rw [h4 (ix2 (0 : Fin 1) q) (ix2 (0 : Fin 1) s) rfl hi1]
  refine congrArg (· + B (ix2 (0 : Fin 1) s)) (Finset.sum_congr rfl fun k _ => ?_)
  rw [h0 (ix2 p k) (ix2 r k) hi0 rfl, h1 (ix2 (0 : Fin 1) k) (ix2 (0 : Fin 1) k) rfl rfl,
    h2 (ix2 (0 : Fin 1) k) (ix2 (0 : Fin 1) k) rfl rfl, h3 (ix2 k q) (ix2 k s) rfl hi1]

/-- The printed index maps, decided over the 20 grid points: windows 0 and 5 are at row block t, column block 0;
    windows 1 to 4 are each the one whole block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Window 0's block at point t is rows 5000·t … 5000·t + 4999 of its array. -/
theorem read0 (c : Dev nD) (t : Fin cfg3.N) (a : S5000x64.Idx) (b : S100000x64.Idx)
    (h0 : (b 0).val = 5000 * t.val + (a 0).val) (h1 : (b 1).val = (a 1).val) :
    (iblk3 V c 0 t : Vec Ideal S5000x64 .f32) a = (V c (Pipeline.arrRef spec3 0) : S100000x64.Idx → EReal) b := by
  obtain ⟨e0, e1, -⟩ := idx_facts t
  have h : ((cfg3.win 0).blk t).view.emb a = b := by
    funext ax; apply Fin.ext
    match ax with
    | ⟨0, _⟩ => show win3_0.index t (0 : Fin 2) * 5000 + 1 * (a 0).val = (b 0).val; rw [e0, h0]; omega
    | ⟨1, _⟩ => show win3_0.index t (1 : Fin 2) * 64 + 1 * (a 1).val = (b 1).val; rw [e1, h1]; omega
  unfold iblk3
  rw [View.read_apply]
  show (V c (Pipeline.arrRef spec3 0) : S100000x64.Idx → EReal) (((cfg3.win 0).blk t).view.emb a) = _
  rw [h]

/-- Window 1's block at every point is its whole array. -/
theorem read1 (c : Dev nD) (t : Fin cfg3.N) (a b : S1x64.Idx)
    (h0 : (b 0).val = (a 0).val) (h1 : (b 1).val = (a 1).val) :
    (iblk3 V c 1 t : Vec Ideal S1x64 .f32) a = (V c (Pipeline.arrRef spec3 1) : S1x64.Idx → EReal) b := by
  obtain ⟨-, -, e0, e1, -⟩ := idx_facts t
  have h : ((cfg3.win 1).blk t).view.emb a = b := by
    funext ax; apply Fin.ext
    match ax with
    | ⟨0, _⟩ => show win3_1.index t (0 : Fin 2) * 1 + 1 * (a 0).val = (b 0).val; rw [e0, h0]; omega
    | ⟨1, _⟩ => show win3_1.index t (1 : Fin 2) * 64 + 1 * (a 1).val = (b 1).val; rw [e1, h1]; omega
  unfold iblk3
  rw [View.read_apply]
  show (V c (Pipeline.arrRef spec3 1) : S1x64.Idx → EReal) (((cfg3.win 1).blk t).view.emb a) = _
  rw [h]

/-- Window 2's block at every point is its whole array. -/
theorem read2 (c : Dev nD) (t : Fin cfg3.N) (a b : S1x64.Idx)
    (h0 : (b 0).val = (a 0).val) (h1 : (b 1).val = (a 1).val) :
    (iblk3 V c 2 t : Vec Ideal S1x64 .f32) a = (V c (Pipeline.arrRef spec3 2) : S1x64.Idx → EReal) b := by
  obtain ⟨-, -, -, -, e0, e1, -⟩ := idx_facts t
  have h : ((cfg3.win 2).blk t).view.emb a = b := by
    funext ax; apply Fin.ext
    match ax with
    | ⟨0, _⟩ => show win3_2.index t (0 : Fin 2) * 1 + 1 * (a 0).val = (b 0).val; rw [e0, h0]; omega
    | ⟨1, _⟩ => show win3_2.index t (1 : Fin 2) * 64 + 1 * (a 1).val = (b 1).val; rw [e1, h1]; omega
  unfold iblk3
  rw [View.read_apply]
  show (V c (Pipeline.arrRef spec3 2) : S1x64.Idx → EReal) (((cfg3.win 2).blk t).view.emb a) = _
  rw [h]

/-- Window 3's block at every point is its whole array. -/
theorem read3 (c : Dev nD) (t : Fin cfg3.N) (a b : S64x64.Idx)
    (h0 : (b 0).val = (a 0).val) (h1 : (b 1).val = (a 1).val) :
    (iblk3 V c 3 t : Vec Ideal S64x64 .f32) a = (V c (Pipeline.arrRef spec3 3) : S64x64.Idx → EReal) b := by
  obtain ⟨-, -, -, -, -, -, e0, e1, -⟩ := idx_facts t
  have h : ((cfg3.win 3).blk t).view.emb a = b := by
    funext ax; apply Fin.ext
    match ax with
    | ⟨0, _⟩ => show win3_3.index t (0 : Fin 2) * 64 + 1 * (a 0).val = (b 0).val; rw [e0, h0]; omega
    | ⟨1, _⟩ => show win3_3.index t (1 : Fin 2) * 64 + 1 * (a 1).val = (b 1).val; rw [e1, h1]; omega
  unfold iblk3
  rw [View.read_apply]
  show (V c (Pipeline.arrRef spec3 3) : S64x64.Idx → EReal) (((cfg3.win 3).blk t).view.emb a) = _
  rw [h]

/-- Window 4's block at every point is its whole array. -/
theorem read4 (c : Dev nD) (t : Fin cfg3.N) (a b : S1x64.Idx)
    (h0 : (b 0).val = (a 0).val) (h1 : (b 1).val = (a 1).val) :
    (iblk3 V c 4 t : Vec Ideal S1x64 .f32) a = (V c (Pipeline.arrRef spec3 4) : S1x64.Idx → EReal) b := by
  obtain ⟨-, -, -, -, -, -, -, -, e0, e1, -⟩ := idx_facts t
  have h : ((cfg3.win 4).blk t).view.emb a = b := by
    funext ax; apply Fin.ext
    match ax with
    | ⟨0, _⟩ => show win3_4.index t (0 : Fin 2) * 1 + 1 * (a 0).val = (b 0).val; rw [e0, h0]; omega
    | ⟨1, _⟩ => show win3_4.index t (1 : Fin 2) * 64 + 1 * (a 1).val = (b 1).val; rw [e1, h1]; omega
  unfold iblk3
  rw [View.read_apply]
  show (V c (Pipeline.arrRef spec3 4) : S1x64.Idx → EReal) (((cfg3.win 4).blk t).view.emb a) = _
  rw [h]

set_option maxHeartbeats 1000000 in
/-- What point t writes back is block t of G of the five arrays as the region finds them. -/
theorem flushed_eq (c : Dev nD) (t : Fin cfg3.N) :
    (dat3 V c).flushed 5 t
      = ((cfg3.win 5).blk t).view.read (Elt Ideal) (G (V c (Pipeline.arrRef spec3 0)) (V c (Pipeline.arrRef spec3 1))
          (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S5000x64) hz, View.ld_unit_zero (S := S1x64) hz, View.ld_unit_zero (S := S64x64) hz]
  obtain ⟨-, -, -, -, -, -, -, -, -, -, e4, e5⟩ := idx_facts t
  funext y
  rw [View.read_apply]
  refine point_value (V c (Pipeline.arrRef spec3 0)) (V c (Pipeline.arrRef spec3 1)) (V c (Pipeline.arrRef spec3 2))
    (V c (Pipeline.arrRef spec3 3)) (V c (Pipeline.arrRef spec3 4))
    (iblk3 V c 0 t) (iblk3 V c 1 t) (iblk3 V c 2 t) (iblk3 V c 3 t) (iblk3 V c 4 t) t.val
    ((cfg3.win 5).xinj (grid3.coords t) y) (((cfg3.win 5).blk t).view.emb y) ?_ ?_
    (read0 V c t) (read1 V c t) (read2 V c t) (read3 V c t) (read4 V c t)
  · show win3_5.index t (0 : Fin 2) * 5000 + 1 * (y 0).val = 5000 * t.val + (y 0).val; rw [e4]; omega
  · show win3_5.index t (1 : Fin 2) * 64 + 1 * (y 1).val = (y 1).val; rw [e5]; omega

/-- An index of the array is in point t's block iff each coordinate is in the block's range on its axis. -/
theorem mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v78).slice (win3_5.rect t)).set ↔ _
  rw [View.set_slice_whole, Rect.mem_set_unit]
  exact Iff.rfl

/-- Row r of the array is written back by point r / 5000. -/
theorem cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  have ht : t.val = (i 0).val / 5000 := rfl
  obtain ⟨-, -, -, -, -, -, -, -, -, -, e4, e5⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; rw [e4, ht]; omega
  | ⟨1, _⟩ => show win3_5.index t (1 : Fin 2) * 64 ≤ (i 1).val ∧ (i 1).val < win3_5.index t (1 : Fin 2) * 64 + 64; rw [e5]; omega

/-- REGION 3's output array after the region: every entry (r, j) is row r of the first input array, scaled and
    shifted column by column by the second and third arrays' one row and cut below at zero, times column j of the
    fourth array, summed over the 64 contracted positions, plus the fifth array's one row at j. -/
theorem value (c : Dev nD) (H : S100000x64.Idx → EReal) (SC SH : S1x64.Idx → EReal) (W : S64x64.Idx → EReal) (B : S1x64.Idx → EReal)
    (hH : V c (Pipeline.arrRef spec3 0) = H) (hSC : V c (Pipeline.arrRef spec3 1) = SC) (hSH : V c (Pipeline.arrRef spec3 2) = SH)
    (hW : V c (Pipeline.arrRef spec3 3) = W) (hB : V c (Pipeline.arrRef spec3 4) = B) :
    (Cert.KernelIdeal.Gen.dat3 (F := Ideal) V c).arrAt 5 cfg3.N
      = fun i : S100000x64.Idx => (∑ k : Fin 64, max (H (ix2 (i 0) k) * SC (ix2 (0 : Fin 1) k) + SH (ix2 (0 : Fin 1) k)) 0 * W (ix2 k (i 1)))
                  + B (ix2 (0 : Fin 1) (i 1)) := by
  subst hH hSC hSH hW hB
  exact (dat3 V c).arrAt_eq_of_cover 5 (G (V c (Pipeline.arrRef spec3 0)) (V c (Pipeline.arrRef spec3 1))
      (V c (Pipeline.arrRef spec3 2)) (V c (Pipeline.arrRef spec3 3)) (V c (Pipeline.arrRef spec3 4)))
    (fun t _ => flushed_eq V c t) cover

/-- The same at one entry. -/
theorem value_at (c : Dev nD) (H : S100000x64.Idx → EReal) (SC SH : S1x64.Idx → EReal) (W : S64x64.Idx → EReal) (B : S1x64.Idx → EReal)
    (hH : V c (Pipeline.arrRef spec3 0) = H) (hSC : V c (Pipeline.arrRef spec3 1) = SC) (hSH : V c (Pipeline.arrRef spec3 2) = SH)
    (hW : V c (Pipeline.arrRef spec3 3) = W) (hB : V c (Pipeline.arrRef spec3 4) = B) (r : Fin 100000) (j : Fin 64) :
    ((Cert.KernelIdeal.Gen.dat3 (F := Ideal) V c).arrAt 5 cfg3.N : S100000x64.Idx → EReal) (ix2 r j)
      = (∑ k : Fin 64, max (H (ix2 r k) * SC (ix2 (0 : Fin 1) k) + SH (ix2 (0 : Fin 1) k)) 0 * W (ix2 k j))
          + B (ix2 (0 : Fin 1) j) :=
  congrFun (value V c H SC SH W B hH hSC hSH hW hB) (ix2 r j)

end Cert.KernelIdeal.Region3

end
-- ==== Proof.BNMath.lean ====
/-
  Extended-real arithmetic behind a batch normalisation, with no program in sight.

  An extended real is FINITE when it is (the image of) a real number. Finite values are closed under sums,
  products, differences, maxima and finite sums, and on them the exact operations of the ideal reading are the
  real ones: a quotient by a nonzero real is the real quotient, the reciprocal square root of a positive real is
  the real `(√x)⁻¹`.

  The law proved here: for a finite column `h` of `n > 0` entries, with mean `μ = (∑ h) / n`,
      h r · (γ · ρ(q / n − μ·μ + ε)) + (β − μ · (γ · ρ(q / n − μ·μ + ε)))     (q = ∑ h·h)
    = ((h r − μ) · ρ((∑ (h − μ)·(h − μ)) / n + ε)) · γ + β,
  where `ρ` is the reciprocal square root and `ε > 0`: the variance as "mean of squares minus square of the mean"
  is the variance as "mean of squared deviations" (expand the square and use `∑ h = n μ`), it is nonnegative, so
  `ρ` of it plus `ε` is a real number, and then both sides are the same real polynomial. Finiteness is what makes
  the expansion and the distributive law valid: on the extended reals they fail at the infinities.
-/
import Idealize.ShloMosaic.PureOps.Ideal

open scoped BigOperators

namespace BNMath

open Idealize.ShloMosaic

/-- An extended real that is a real number. -/
def IsR (x : EReal) : Prop := ∃ r : ℝ, x = (r : EReal)

theorem isR_coe (r : ℝ) : IsR (r : EReal) := ⟨r, rfl⟩
theorem isR_zero : IsR (0 : EReal) := ⟨0, rfl⟩
theorem isR_one : IsR (1 : EReal) := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.max {x y : EReal} (hx : IsR x) (hy : IsR y) : IsR (max x y) := by
  rcases max_choice x y with h | h <;> rw [h] <;> assumption

/-- The coercion of a finite sum of reals. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

theorem isR_sum {ι : Type*} (s : Finset ι) (f : ι → EReal) (hf : ∀ i ∈ s, IsR (f i)) : IsR (∑ i ∈ s, f i) := by
  classical
  induction s using Finset.induction_on with
  | empty => simpa using isR_zero
  | insert a s ha ih =>
    rw [Finset.sum_insert ha]
    exact (hf a (Finset.mem_insert_self a s)).add (ih fun i hi => hf i (Finset.mem_insert_of_mem hi))

/-- A quotient by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsR.div_coe {x : EReal} (hx : IsR x) {b : ℝ} (hb : b ≠ 0) : IsR (Ideal.div x (b : EReal)) := by
  obtain ⟨a, rfl⟩ := hx; exact ⟨a / b, div_coe_coe a hb⟩

/-- The reciprocal square root of a positive real is the real `(√x)⁻¹`. -/
theorem rsqrt_coe_pos {x : ℝ} (hx : 0 < x) : Ideal.rsqrt (x : EReal) = (((Real.sqrt x)⁻¹ : ℝ) : EReal) := by
  show (if x < 0 then (⊥ : EReal) else if x = 0 then ⊤ else ((Real.sqrt x)⁻¹ : ℝ)) = _
  rw [if_neg (not_lt.mpr hx.le), if_neg hx.ne']

/-- Mean of squares minus square of the mean is the mean of the squared deviations. -/
theorem var_forms {n : ℕ} (hn : 0 < n) (h : Fin n → ℝ) :
    (∑ i, h i * h i) / (n : ℝ) - (∑ i, h i) / (n : ℝ) * ((∑ i, h i) / (n : ℝ))
      = (∑ i, (h i - (∑ i, h i) / (n : ℝ)) * (h i - (∑ i, h i) / (n : ℝ))) / (n : ℝ) := by
  have hn' : (n : ℝ) ≠ 0 := by exact_mod_cast hn.ne'
  set μ := (∑ i, h i) / (n : ℝ) with hμ
  have hS : ∑ i, h i = (n : ℝ) * μ := by rw [hμ]; field_simp
  have expand : ∑ i, (h i - μ) * (h i - μ) = (∑ i, h i * h i) - 2 * μ * (∑ i, h i) + (n : ℝ) * (μ * μ) := by
    have : ∀ i, (h i - μ) * (h i - μ) = h i * h i - 2 * μ * h i + μ * μ := fun i => by ring
    simp only [this, Finset.sum_add_distrib, Finset.sum_sub_distrib, ← Finset.mul_sum, Finset.sum_const,
      Finset.card_univ, Fintype.card_fin, nsmul_eq_mul]
    ring
  rw [expand, hS]
  field_simp
  ring

theorem var_nonneg {n : ℕ} (h : Fin n → ℝ) (μ : ℝ) : 0 ≤ (∑ i, (h i - μ) * (h i - μ)) / (n : ℝ) :=
  div_nonneg (Finset.sum_nonneg fun i _ => mul_self_nonneg _) (Nat.cast_nonneg n)

/-- The two normalisation forms agree on a finite column (see the header). -/
theorem bn_forms {n : ℕ} (hn : 0 < n) (h : Fin n → EReal) (hh : ∀ i, IsR (h i)) (γ β ε : EReal)
    (hγ : IsR γ) (hβ : IsR β) (hε : ∃ e : ℝ, 0 < e ∧ ε = (e : EReal)) (r : Fin n) :
    h r * (γ * Ideal.rsqrt ((Ideal.div (∑ i, h i * h i) ((n : ℝ) : EReal)
          - Ideal.div (∑ i, h i) ((n : ℝ) : EReal) * Ideal.div (∑ i, h i) ((n : ℝ) : EReal)) + ε))
        + (β - Ideal.div (∑ i, h i) ((n : ℝ) : EReal) * (γ * Ideal.rsqrt ((Ideal.div (∑ i, h i * h i) ((n : ℝ) : EReal)
          - Ideal.div (∑ i, h i) ((n : ℝ) : EReal) * Ideal.div (∑ i, h i) ((n : ℝ) : EReal)) + ε)))
      = ((h r - Ideal.div (∑ i, h i) ((n : ℝ) : EReal))
          * Ideal.rsqrt (Ideal.div (∑ i, (h i - Ideal.div (∑ i, h i) ((n : ℝ) : EReal))
              * (h i - Ideal.div (∑ i, h i) ((n : ℝ) : EReal))) ((n : ℝ) : EReal) + ε)) * γ + β := by
  have hn' : (n : ℝ) ≠ 0 := by exact_mod_cast hn.ne'
  choose f hf using hh
  obtain ⟨g, rfl⟩ := hγ; obtain ⟨b, rfl⟩ := hβ; obtain ⟨e, he, rfl⟩ := hε
  have hfun : h = fun i => (f i : EReal) := funext hf
  subst hfun
  have hsum : (∑ i, (f i : EReal)) = ((∑ i, f i : ℝ) : EReal) := (coe_sum _ _).symm
  have hsq : (∑ i, (f i : EReal) * (f i : EReal)) = ((∑ i, f i * f i : ℝ) : EReal) := by
    rw [coe_sum]; exact Finset.sum_congr rfl fun i _ => (EReal.coe_mul _ _).symm
  rw [hsq, hsum, div_coe_coe _ hn', div_coe_coe _ hn']
  set μ : ℝ := (∑ i, f i) / (n : ℝ) with hμ
  have hdev : (∑ i, ((f i : EReal) - (μ : EReal)) * ((f i : EReal) - (μ : EReal)))
      = ((∑ i, (f i - μ) * (f i - μ) : ℝ) : EReal) := by
    rw [coe_sum]; exact Finset.sum_congr rfl fun i _ => by rw [← EReal.coe_sub, ← EReal.coe_mul]
  rw [hdev, div_coe_coe _ hn', ← EReal.coe_mul, ← EReal.coe_sub, ← EReal.coe_add, ← EReal.coe_add,
    var_forms hn f, ← hμ]
  have hpos : 0 < (∑ i, (f i - μ) * (f i - μ)) / (n : ℝ) + e := add_pos_of_nonneg_of_pos (var_nonneg f μ) he
  rw [rsqrt_coe_pos hpos]
  set ρ : ℝ := (Real.sqrt ((∑ i, (f i - μ) * (f i - μ)) / (n : ℝ) + e))⁻¹
  rw [← EReal.coe_mul, ← EReal.coe_mul, ← EReal.coe_mul, ← EReal.coe_sub, ← EReal.coe_add, ← EReal.coe_sub,
    ← EReal.coe_mul, ← EReal.coe_mul, ← EReal.coe_add]
  congr 1
  ring

end BNMath
-- ==== Proof.RefReadA.lean ====
/-
  The reference's float words, dense layers and row broadcasts read at an index, at the exact extended reals.

  The node count's float word is the real 100000 and the word added to a variance is a positive real. A dense
  layer at `(r, j)` is the sum over the contracted coordinate `k` of the left operand at `(r, k)` times the right
  operand at `(k, j)`: the contraction index of a one-axis contraction is its one coordinate, and the operand
  indices are read off the dimension numbers axis by axis. A vector repeated on every row reads, at `(r, j)`, the
  vector at `j`.
-/
import proofs.«129438_j27745488732760_1_alg».proof.Proof.RefRunDefs
import proofs.«129438_j27745488732760_1_alg».proof.Proof.BNMath
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx

/-- The mean of column `j` of an array of 100000 rows: the column's sum divided by 100000. -/
abbrev colMean {c : Nat} (h : (⟨2, ![100000, c]⟩ : Shape).Idx → EReal) (j : Fin c) : EReal :=
  Ideal.div (∑ r : Fin 100000, h (ix2 r j)) ((100000 : ℝ) : EReal)

/-- The variance of column `j`: the mean of the squared deviations from the column's mean. -/
abbrev colVar {c : Nat} (h : (⟨2, ![100000, c]⟩ : Shape).Idx → EReal) (j : Fin c) : EReal :=
  Ideal.div (∑ r : Fin 100000, (h (ix2 r j) - colMean h j) * (h (ix2 r j) - colMean h j)) ((100000 : ℝ) : EReal)

/-! ## The float words of the program -/

/-- The float word of the node count is the real number 100000: exponent field 143, fraction field 4411392,
    so `(2^23 + 4411392) · 2^(143 − 127 − 23) = 12800000 / 128`. -/
theorem nodes_val : Ideal.ofBits .f32 0x47C35000#32 = ((100000 : ℝ) : EReal) := by
  simp [Ideal.ofBits, Ideal.ieee, -EReal.coe_mul]; norm_num

/-- The float word added to a variance is a positive real number: exponent field 110, fraction field 2606508,
    so `(2^23 + 2606508) · 2^(110 − 127 − 23) = 10995116 · 2^(−40)`. -/
theorem eps_pos : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul] <;> norm_num

/-- The divisor of the variance is 100000: the node count minus the integer zero read as a float. -/
theorem cnt_val : RefRun.cnt ix0 = ((100000 : ℝ) : EReal) := by
  show Ideal.ofBits .f32 0x47C35000#32 - (((0#32 : BitVec 32).toInt : ℝ) : EReal) = _
  rw [nodes_val]
  simp

/-! ## The dense layers: a contraction is the sum of the products over the contracted coordinate

For each of the three contractions, the operand indices at result index `i` and contraction index `q`: the left
operand is read at `(i 0, q)`, the right one at `(q, i 1)`. -/

theorem lhs_proj_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
theorem lhs_proj_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_proj_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_proj_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The projection at `(r, j)`: row `r` of the features against column `j` of the weights. -/
theorem proj_apply (x : FVec Ideal S100000x128 .f32) (Wg : FVec Ideal S128x128 .f32) (r : Fin 100000) (j : Fin 128) :
    RefRun.proj x Wg (ix2 r j) = ∑ k : Fin 128, x (ix2 r k) * Wg (ix2 k j) := by
  unfold RefRun.proj
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r j) ((contrEquiv1 dot_S100000x128_S128x128_S100000x128_1_0_0_1_n_n 128 rfl rfl).symm k) = ix2 r k :=
    funext fun a => Fin.ext (by
      match a with
      | ⟨0, _⟩ => exact lhs_proj_0 _ _
      | ⟨1, _⟩ => exact (lhs_proj_1 _ _).trans hk)
  have er : dot_S100000x128_S128x128_S100000x128_1_0_0_1_n_n.rhsIdx (ix2 r j) ((contrEquiv1 dot_S100000x128_S128x128_S100000x128_1_0_0_1_n_n 128 rfl rfl).symm k) = ix2 k j :=
    funext fun a => Fin.ext (by
      match a with
      | ⟨0, _⟩ => exact (rhs_proj_0 _ _).trans hk
      | ⟨1, _⟩ => exact rhs_proj_1 _ _)
  rw [el, er]

/-! ## A vector repeated on every row -/

/-- A vector laid out as one row reads, at `(0, j)`, the vector at `j`. -/
theorem oneRow_apply {n : Nat} {α : Type} (h1 : (⟨1, ![n]⟩ : Shape).BroadcastsInDim ⟨2, ![1, n]⟩ ![1])
    (v : (⟨1, ![n]⟩ : Shape).Idx → α) (j : Fin n) :
    broadcastInDim ⟨2, ![1, n]⟩ ![1] h1 v (ix2 (0 : Fin 1) j) = v (ix1 j) :=
  broadcastInDim_apply ![1] h1 v (ix2 (0 : Fin 1) j) (ix1 j) (fun a => match a with
    | ⟨0, _⟩ => by
      show j.val = if n = 1 then 0 else j.val
      split
      · have := j.isLt; omega
      · rfl)

/-- A vector laid out as one row and repeated down `m` rows reads, at `(r, j)`, the vector at `j`. -/
theorem rowsBcast_apply {m n : Nat} {α : Type} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (r : Fin m) (j : Fin n) :
    broadcastInDim ⟨2, ![m, n]⟩ ![0, 1] h2 (broadcastInDim ⟨2, ![1, n]⟩ ![1] h1 v) (ix2 r j) = v (ix1 j) := by
  rw [broadcastInDim_oneRow_apply, oneRow_apply]

theorem rows128_apply (v : FVec Ideal S128 .f32) (r : Fin 100000) (j : Fin 128) : RefRun.rows128 v (ix2 r j) = v (ix1 j) :=
  rowsBcast_apply bcast_S128_S1x128_1 bcast_S1x128_S100000x128_0_1 v r j

theorem rows64_apply (v : FVec Ideal S64 .f32) (r : Fin 100000) (j : Fin 64) : RefRun.rows64 v (ix2 r j) = v (ix1 j) :=
  rowsBcast_apply bcast_S64_S1x64_1 bcast_S1x64_S100000x64_0_1 v r j

/-- The biased sum at `(r, j)`. -/
theorem h1_apply (a : FVec Ideal S100000x128 .f32) (b : FVec Ideal S128 .f32) (r : Fin 100000) (j : Fin 128) :
    RefRun.h1 a b (ix2 r j) = a (ix2 r j) + b (ix1 j) := by
  unfold RefRun.h1
  rw [addf_apply, rows128_apply]

theorem lhs_h2_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide),
    dif_pos (show (0 : Fin S100000x128.rank) ∈ dot_S100000x128_S128x64_S100000x64_1_0_0_1_n_n.lhsNonContracting by decide)]
  rfl
theorem lhs_h2_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs_h2_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs_h2_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide),
    dif_pos (show (1 : Fin S128x64.rank) ∈ dot_S100000x128_S128x64_S100000x64_1_0_0_1_n_n.rhsNonContracting by decide)]
  rfl

/-- The first dense layer at `(r, j)`. -/
theorem h2_apply (a : FVec Ideal S100000x128 .f32) (W1 : FVec Ideal S128x64 .f32) (b1 : FVec Ideal S64 .f32)
    (r : Fin 100000) (j : Fin 64) :
    RefRun.h2 a W1 b1 (ix2 r j) = (∑ k : Fin 128, a (ix2 r k) * W1 (ix2 k j)) + b1 (ix1 j) := by
  unfold RefRun.h2
  rw [addf_apply, rows64_apply]
  congr 1
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 r j) ((contrEquiv1 dot_S100000x128_S128x64_S100000x64_1_0_0_1_n_n 128 rfl rfl).symm k) = ix2 r k :=
    funext fun a => Fin.ext (by
      match a with
      | ⟨0, _⟩ => exact lhs_h2_0 _ _
      | ⟨1, _⟩ => exact (lhs_h2_1 _ _).trans hk)
  have er : dot_S100000x128_S128x64_S100000x64_1_0_0_1_n_n.rhsIdx (ix2 r j) ((contrEquiv1 dot_S100000x128_S128x64_S100000x64_1_0_0_1_n_n 128 rfl rfl).symm k) = ix2 k j :=
    funext fun a => Fin.ext (by
      match a with
      | ⟨0, _⟩ => exact (rhs_h2_0 _ _).trans hk
      | ⟨1, _⟩ => exact rhs_h2_1 _ _)
  rw [el, er]

theorem lhs_out_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
theorem lhs_out_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_out_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_out_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The last dense layer at `(r, j)`. -/
theorem out_apply (a : FVec Ideal S100000x64 .f32) (W2 : FVec Ideal S64x64 .f32) (b2 : FVec Ideal S64 .f32)
    (r : Fin 100000) (j : Fin 64) :
    RefRun.out a W2 b2 (ix2 r j) = (∑ k : Fin 64, a (ix2 r k) * W2 (ix2 k j)) + b2 (ix1 j) := by
  unfold RefRun.out
  rw [addf_apply, rows64_apply]
  congr 1
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r j) ((contrEquiv1 dot_S100000x64_S64x64_S100000x64_1_0_0_1_n_n 64 rfl rfl).symm k) = ix2 r k :=
    funext fun a => Fin.ext (by
      match a with
      | ⟨0, _⟩ => exact lhs_out_0 _ _
      | ⟨1, _⟩ => exact (lhs_out_1 _ _).trans hk)
  have er : dot_S100000x64_S64x64_S100000x64_1_0_0_1_n_n.rhsIdx (ix2 r j) ((contrEquiv1 dot_S100000x64_S64x64_S100000x64_1_0_0_1_n_n 64 rfl rfl).symm k) = ix2 k j :=
    funext fun a => Fin.ext (by
      match a with
      | ⟨0, _⟩ => exact (rhs_out_0 _ _).trans hk
      | ⟨1, _⟩ => exact rhs_out_1 _ _)
  rw [el, er]

end Cert.ReferenceIdeal.RefRead

end
-- ==== Proof.RefReadB.lean ====
/-
  The reference's column statistics and normalisations read at an index, at the exact extended reals.

  The host's sum over the rows of a matrix, from the zero word, is the sum of the column's entries; a column mean
  is that sum divided by 100000; a deviation is the entry minus its column's mean; the variance's divisor 100000 is
  positive, so the guarded quotient is the quotient, the mean of the squared deviations; and the normalisation at
  `(r, j)` is the deviation times the reciprocal square root of the variance plus the small positive word, scaled,
  shifted and clamped below at zero.
-/
import proofs.«129438_j27745488732760_1_alg».proof.Proof.RefReadA
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx

/-! ## Column sums, means and variances -/

/-- The host's sum over the FIRST axis of a matrix at column `j`: the initial value plus the sum over the rows. -/
theorem hostReduceAdd_first2 {a b : Nat} {φ : FTy} (X : FVec Ideal ⟨2, ![a, b]⟩ φ) (init : FVec Ideal ⟨0, ![]⟩ φ)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (j : Fin b) :
    Host.reduceAdd X init h' hu (ix1 j) = init ix0 + ∑ k : Fin a, X (ix2 k j) := by
  rw [hostReduceAdd_apply, Ideal.hostReduceAdd_single h' h, eq_ix0 (Shape.Idx.first hu)]
  congr 1
  refine Finset.sum_congr rfl fun k _ => congrArg X ?_
  funext x; apply Fin.ext
  fin_cases x <;> rfl

/-- The host's reciprocal square root at an index. -/
theorem hostRsqrt_apply {s : Shape} {φ : FTy} (x : FVec Ideal s φ) (i : s.Idx) :
    Host.rsqrt (F := Ideal) x i = Ideal.rsqrt (x i) := rfl

/-- The zero scalar is the extended real zero. -/
theorem zeroS_val : RefRun.zeroS ix0 = 0 := Ideal.ofBits_zero_f32

/-- The node-count scalar is 100000. -/
theorem nodesS_val : RefRun.nodesS ix0 = ((100000 : ℝ) : EReal) := nodes_val

/-- The comparison "the divisor of the variance is positive" holds. -/
theorem cnt_pos_bit : FloatOps.cmpf (F := Ideal) (φ := .f32) .ogt (((100000 : ℝ) : EReal)) (0 : EReal) = 1#1 := by
  show BitVec.ofBool (decide ((0 : EReal) < ((100000 : ℝ) : EReal))) = 1#1
  rw [decide_eq_true (EReal.coe_pos.mpr (by norm_num))]
  rfl

/-- A column's sum from zero (128 columns). -/
theorem colSum128 (h : FVec Ideal S100000x128 .f32) (j : Fin 128) :
    Host.reduceAdd (F := Ideal) h RefRun.zeroS reducesTo_S100000x128_S128_d0 h_S_ (ix1 j) = ∑ r : Fin 100000, h (ix2 r j) := by
  rw [hostReduceAdd_first2 h RefRun.zeroS reducesTo_S100000x128_S128_d0 (by decide) h_S_ j, zeroS_val, zero_add]

/-- The column mean at `j` (128 columns). -/
theorem mean1_apply (h : FVec Ideal S100000x128 .f32) (j : Fin 128) :
    RefRun.mean1 h (ix1 j) = Ideal.div (∑ r : Fin 100000, h (ix2 r j)) ((100000 : ℝ) : EReal) := by
  unfold RefRun.mean1
  rw [hostDivf_apply, colSum128, broadcastInDim_scalar_apply, nodesS_val]

/-- The deviation from the column mean at `(r, j)` (128 columns). -/
theorem dev1_apply (h : FVec Ideal S100000x128 .f32) (r : Fin 100000) (j : Fin 128) :
    RefRun.dev1 h (ix2 r j) = h (ix2 r j) - colMean h j := by
  unfold RefRun.dev1
  rw [subf_apply, broadcastInDim_oneRow_apply, hostDivf_apply, oneRow_apply, colSum128, broadcastInDim_scalar_apply, nodesS_val]

/-- The column variance at `j` (128 columns): the divisor is positive, so the select takes the quotient. -/
theorem var1_apply (h : FVec Ideal S100000x128 .f32) (j : Fin 128) : RefRun.var1 h (ix1 j) = colVar h j := by
  unfold RefRun.var1
  rw [select_apply, broadcastInDim_scalar_apply, cmpf_apply, cnt_val, zeroS_val, cnt_pos_bit, select_one, hostDivf_apply,
    colSum128, broadcastInDim_scalar_apply, cnt_val]
  refine congrArg (fun s => Ideal.div s ((100000 : ℝ) : EReal)) (Finset.sum_congr rfl fun r _ => ?_)
  rw [mulf_apply, dev1_apply]

/-- The normalisation and clamp at `(r, j)` (128 columns). -/
theorem act1_apply (h : FVec Ideal S100000x128 .f32) (γ β : FVec Ideal S128 .f32) (r : Fin 100000) (j : Fin 128) :
    RefRun.act1 h γ β (ix2 r j)
      = max (((h (ix2 r j) - colMean h j) * Ideal.rsqrt (colVar h j + Ideal.ofBits .f32 0x3727C5AC#32)) * γ (ix1 j)
          + β (ix1 j)) 0 := by
  unfold RefRun.act1
  rw [maximumf_apply, addf_apply, mulf_apply, mulf_apply, subf_apply]
  simp only [rows128_apply]
  rw [mean1_apply, hostRsqrt_apply, addf_apply, var1_apply, broadcastInDim_scalar_apply, broadcastInDim_scalar_apply, zeroS_val]
  rfl

/-- A column's sum from zero (64 columns). -/
theorem colSum64 (h : FVec Ideal S100000x64 .f32) (j : Fin 64) :
    Host.reduceAdd (F := Ideal) h RefRun.zeroS reducesTo_S100000x64_S64_d0 h_S_ (ix1 j) = ∑ r : Fin 100000, h (ix2 r j) := by
  rw [hostReduceAdd_first2 h RefRun.zeroS reducesTo_S100000x64_S64_d0 (by decide) h_S_ j, zeroS_val, zero_add]

/-- The column mean at `j` (64 columns). -/
theorem mean2_apply (h : FVec Ideal S100000x64 .f32) (j : Fin 64) :
    RefRun.mean2 h (ix1 j) = Ideal.div (∑ r : Fin 100000, h (ix2 r j)) ((100000 : ℝ) : EReal) := by
  unfold RefRun.mean2
  rw [hostDivf_apply, colSum64, broadcastInDim_scalar_apply, nodesS_val]

/-- The deviation from the column mean at `(r, j)` (64 columns). -/
theorem dev2_apply (h : FVec Ideal S100000x64 .f32) (r : Fin 100000) (j : Fin 64) :
    RefRun.dev2 h (ix2 r j) = h (ix2 r j) - colMean h j := by
  unfold RefRun.dev2
  rw [subf_apply, broadcastInDim_oneRow_apply, hostDivf_apply, oneRow_apply, colSum64, broadcastInDim_scalar_apply, nodesS_val]

/-- The column variance at `j` (64 columns): the divisor is positive, so the select takes the quotient. -/
theorem var2_apply (h : FVec Ideal S100000x64 .f32) (j : Fin 64) : RefRun.var2 h (ix1 j) = colVar h j := by
  unfold RefRun.var2
  rw [select_apply, broadcastInDim_scalar_apply, cmpf_apply, cnt_val, zeroS_val, cnt_pos_bit, select_one, hostDivf_apply,
    colSum64, broadcastInDim_scalar_apply, cnt_val]
  refine congrArg (fun s => Ideal.div s ((100000 : ℝ) : EReal)) (Finset.sum_congr rfl fun r _ => ?_)
  rw [mulf_apply, dev2_apply]

/-- The normalisation and clamp at `(r, j)` (64 columns). -/
theorem act2_apply (h : FVec Ideal S100000x64 .f32) (γ β : FVec Ideal S64 .f32) (r : Fin 100000) (j : Fin 64) :
    RefRun.act2 h γ β (ix2 r j)
      = max (((h (ix2 r j) - colMean h j) * Ideal.rsqrt (colVar h j + Ideal.ofBits .f32 0x3727C5AC#32)) * γ (ix1 j)
          + β (ix1 j)) 0 := by
  unfold RefRun.act2
  rw [maximumf_apply, addf_apply, mulf_apply, mulf_apply, subf_apply]
  simp only [rows64_apply]
  rw [mean2_apply, hostRsqrt_apply, addf_apply, var2_apply, broadcastInDim_scalar_apply, broadcastInDim_scalar_apply, zeroS_val]
  rfl

end Cert.ReferenceIdeal.RefRead

end
-- ==== Proof.LibIndexReads.lean ====
/-
  Layout operations and host sums read at an index, over arrays of literal rank written with `ix1`, `ix2`, `ix3`.

  A slice at `(a, b, c)` is the operand at the offsets plus `(a, b, c)`; a reshape `[a, b, c] → [a, b·c]` at `(i, j)` is the
  operand at `(i, p, q)` with `p·c + q = j`; dropping or adding a trailing unit axis changes nothing; a broadcast that adds
  a trailing unit axis reads the operand at the leading coordinates; a host sum over the last axis is the initial value
  plus the sum over that axis's coordinates.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section
namespace Cert.Lib.IndexReads
open Idealize.ShloMosaic Idealize.ShloMosaic.ValueIdx

variable {α : Type}

/-- A slice of a rank-3 array at `(a, b, c)`: the operand at `(k0, k1, k2)`, each the offset plus the coordinate. -/
theorem slice3_apply {n0 n1 n2 m0 m1 m2 : Nat} (o0 o1 o2 : Nat) (X : (⟨3, ![n0, n1, n2]⟩ : Shape).Idx → α)
    (h : (⟨3, ![n0, n1, n2]⟩ : Shape).Slices ![o0, o1, o2] ⟨3, ![m0, m1, m2]⟩)
    (a : Fin m0) (b : Fin m1) (c : Fin m2) (k0 : Fin n0) (k1 : Fin n1) (k2 : Fin n2)
    (e0 : k0.val = o0 + a.val) (e1 : k1.val = o1 + b.val) (e2 : k2.val = o2 + c.val) :
    extractStridedSlice ⟨3, ![m0, m1, m2]⟩ ![o0, o1, o2] X h (ix3 a b c) = X (ix3 k0 k1 k2) :=
  extractStridedSlice_apply _ X h _ _ (fun x => match x with | ⟨0, _⟩ => e0 | ⟨1, _⟩ => e1 | ⟨2, _⟩ => e2)

/-- A slice of a rank-2 array at `(a, b)`. -/
theorem slice2_apply {n0 n1 m0 m1 : Nat} (o0 o1 : Nat) (X : (⟨2, ![n0, n1]⟩ : Shape).Idx → α)
    (h : (⟨2, ![n0, n1]⟩ : Shape).Slices ![o0, o1] ⟨2, ![m0, m1]⟩)
    (a : Fin m0) (b : Fin m1) (k0 : Fin n0) (k1 : Fin n1)
    (e0 : k0.val = o0 + a.val) (e1 : k1.val = o1 + b.val) :
    extractStridedSlice ⟨2, ![m0, m1]⟩ ![o0, o1] X h (ix2 a b) = X (ix2 k0 k1) :=
  extractStridedSlice_apply _ X h _ _ (fun x => match x with | ⟨0, _⟩ => e0 | ⟨1, _⟩ => e1)

/-- A slice of a vector at `a`. -/
theorem slice1_apply {n0 m0 : Nat} (o0 : Nat) (X : (⟨1, ![n0]⟩ : Shape).Idx → α)
    (h : (⟨1, ![n0]⟩ : Shape).Slices ![o0] ⟨1, ![m0]⟩) (a : Fin m0) (k0 : Fin n0) (e0 : k0.val = o0 + a.val) :
    extractStridedSlice ⟨1, ![m0]⟩ ![o0] X h (ix1 a) = X (ix1 k0) :=
  extractStridedSlice_apply _ X h _ _ (fun x => match x with | ⟨0, _⟩ => e0)

/-- Merging the last two axes: `[a, b, c] → [a, m]` with `m = b·c`, at `(i, j)`, is the operand at `(i, p, q)` when
    `p·c + q = j`. -/
theorem reshape32_apply {a b c m : Nat} (X : (⟨3, ![a, b, c]⟩ : Shape).Idx → α)
    (h : (⟨3, ![a, b, c]⟩ : Shape).ShapeCasts ⟨2, ![a, m]⟩) (hm : m = b * c)
    (i : Fin a) (j : Fin m) (p : Fin b) (q : Fin c) (e : p.val * c + q.val = j.val) :
    shapeCast ⟨2, ![a, m]⟩ X h (ix2 i j) = X (ix3 i p q) := by
  refine shapeCast_apply X h _ _ ?_
  rw [Shape.rowMajor_val_three, Shape.rowMajor_val_two]
  show (i.val * b + p.val) * c + q.val = i.val * m + j.val
  subst hm; rw [← e]; ring

/-- Dropping a trailing unit axis: `[a, b, 1] → [a, b]` at `(i, j)` is the operand at `(i, j, 0)`. -/
theorem reshape_ab1_ab_apply {a b : Nat} (X : (⟨3, ![a, b, 1]⟩ : Shape).Idx → α)
    (h : (⟨3, ![a, b, 1]⟩ : Shape).ShapeCasts ⟨2, ![a, b]⟩) (i : Fin a) (j : Fin b) :
    shapeCast ⟨2, ![a, b]⟩ X h (ix2 i j) = X (ix3 i j 0) := by
  refine shapeCast_apply X h _ _ ?_
  rw [Shape.rowMajor_val_three, Shape.rowMajor_val_two]
  show (i.val * b + j.val) * 1 + 0 = i.val * b + j.val
  omega

/-- The one entry of a `[1, 1]` array as a rank-0 array. -/
theorem reshape_11_scalar_apply (X : (⟨2, ![1, 1]⟩ : Shape).Idx → α)
    (h : (⟨2, ![1, 1]⟩ : Shape).ShapeCasts ⟨0, ![]⟩) (j : (⟨0, ![]⟩ : Shape).Idx) :
    shapeCast ⟨0, ![]⟩ X h j = X (ix2 0 0) := by
  refine shapeCast_apply X h _ _ ?_
  rw [Shape.rowMajor_val_two]
  have h1 := ((⟨0, ![]⟩ : Shape).rowMajor j).isLt
  have h2 : (⟨0, ![]⟩ : Shape).numel = 1 := by decide
  show 0 * 1 + 0 = _
  omega

/-- A broadcast adding a trailing unit axis, `[a, b] → [a, b, 1]` on dimensions `[0, 1]`, at `(i, j, u)`: the operand at `(i, j)`. -/
theorem bcast_ab_ab1_apply {a b : Nat} (X : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h X (ix3 i j u) = X (ix2 i j) :=
  broadcastInDim_apply _ h X _ _ (fun x => match x with
    | ⟨0, _⟩ => by show i.val = if a = 1 then 0 else i.val; split <;> omega
    | ⟨1, _⟩ => by show j.val = if b = 1 then 0 else j.val; split <;> omega)

/-- A broadcast of a vector to a column, `[a] → [a, 1]` on dimension `[0]`, at `(i, u)`: the operand at `i`. -/
theorem bcast_a_a1_apply {a : Nat} (X : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h X (ix2 i u) = X (ix1 i) :=
  broadcastInDim_apply _ h X _ _ (fun x => match x with
    | ⟨0, _⟩ => by show i.val = if a = 1 then 0 else i.val; split <;> omega)

/-- The host's sum over the LAST axis of a rank-3 array at `(i, j)`: the initial value plus the sum over that axis. -/
theorem hostReduceAdd_last3 {a b c : Nat} {φ : FTy} (X : FVec Ideal ⟨3, ![a, b, c]⟩ φ) (init : FVec Ideal ⟨0, ![]⟩ φ)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (i : Fin a) (j : Fin b) :
    Host.reduceAdd X init h' hu (ix2 i j) = init ix0 + ∑ k : Fin c, X (ix3 i j k) := by
  rw [hostReduceAdd_apply, Ideal.hostReduceAdd_single h' h, eq_ix0 (Shape.Idx.first hu)]
  congr 1
  refine Finset.sum_congr rfl fun k _ => congrArg X ?_
  funext x; apply Fin.ext
  fin_cases x <;> rfl

/-- The host's sum over the last axis of a matrix at row `i`. -/
theorem hostReduceAdd_last2 {a b : Nat} {φ : FTy} (X : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd X init h' hu (ix1 i) = init ix0 + ∑ k : Fin b, X (ix2 i k) := by
  rw [hostReduceAdd_apply, Ideal.hostReduceAdd_single h' h, eq_ix0 (Shape.Idx.first hu)]
  congr 1
  refine Finset.sum_congr rfl fun k _ => congrArg X ?_
  funext x; apply Fin.ext
  fin_cases x <;> rfl

end Cert.Lib.IndexReads
-- ==== Proof.LibGatherRows.lean ====
/-
  Row gathers read at an index.

  A row gather reads, for edge `e` of an `[E, 1]` array of start indices, row `idx e` of an `[N, C]` operand
  (the index read as a signed integer and clamped into `[0, N − 1]`, as a gather clamps every start index so that
  its slice fits), column by column: the result at `(e, c)` is the operand at `(clampRow (idx e), c)`. The same for a
  one-dimensional operand: the result at `e` is the operand at `clampRow (idx e)`.
-/
import Idealize.ShloMosaic.PureOps.Ideal
import Idealize.ShloMosaic.Lib.ValueIdx

noncomputable section
namespace Cert.Lib.GatherRows
open Idealize.ShloMosaic Idealize.ShloMosaic.ValueIdx

variable {N E C w : Nat}

/-- The row a gather reads for a start index: the index as a signed integer, clamped into `[0, N − 1]`. -/
def clampRow (N : Nat) (hN : 0 < N) (v : BitVec w) : Fin N := ⟨min v.toInt.toNat (N - 1), by omega⟩

/-- A start index that already is a row number, read signed, is its own clamped row. -/
theorem clampRow_of_toInt (hN : 0 < N) (v : BitVec w) (r : Fin N) (h : v.toInt = (r.val : Int)) :
    clampRow N hN v = r := by
  apply Fin.ext
  show min v.toInt.toNat (N - 1) = r.val
  have := r.isLt
  rw [h]; simp; omega

/-- A row gather at `(e, c)`: the operand at the clamped row of edge `e`'s start index, column `c`. -/
theorem gather_rows_apply (hN : 0 < N)
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    {α : Type} (x : (⟨2, ![N, C]⟩ : Shape).Idx → α) (idx : IVec (⟨2, ![E, 1]⟩ : Shape) w) (e : Fin E) (c : Fin C) :
    Host.gather d x idx (ix2 e c) = x (ix2 (clampRow N hN (idx (ix2 e 0))) c) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  let d : GatherDims (⟨2, ![N, C]⟩ : Shape) (⟨2, ![E, 1]⟩ : Shape) (⟨2, ![E, C]⟩ : Shape) := ⟨[1], [0], [], [], [0], 1, ![1, C], wf⟩
  show d.start (ix2 e c) idx a + d.batchCoord (ix2 e c) a + d.offCoord (ix2 e c) a = _
  rw [d.batchCoord_eq_zero _ _ List.not_mem_nil]
  match a with
  | ⟨0, h0⟩ =>
    rw [d.offCoord_eq_zero (ix2 e c) ⟨0, h0⟩ (fun h => ((d.mem_sKept _).mp h).1 (List.mem_singleton.mpr rfl))]
    simp only [Nat.add_zero]
    unfold GatherDims.start
    rw [dif_pos (show (⟨0, h0⟩ : Fin 2) ∈ d.startIndexMap from List.mem_singleton.mpr rfl)]
    have hsi : d.siIdx (ix2 e c) ⟨List.idxOf (⟨0, h0⟩ : Fin 2) d.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, h1'⟩ =>
    have hs : d.start (ix2 e c) idx ⟨1, h1'⟩ = 0 := by
      unfold GatherDims.start
      rw [dif_neg (show (⟨1, h1'⟩ : Fin 2) ∉ d.startIndexMap from
        fun h => absurd (congrArg Fin.val (List.mem_singleton.mp h)) Nat.one_ne_zero)]
    rw [hs]
    show 0 + 0 + d.offCoord (ix2 e c) ⟨1, h1'⟩ = c.val
    unfold GatherDims.offCoord
    rw [dif_pos (show (⟨1, h1'⟩ : Fin 2) ∈ d.sKept from (d.mem_sKept _).mpr
      ⟨fun h => absurd (congrArg Fin.val (List.mem_singleton.mp h)) Nat.one_ne_zero, List.not_mem_nil⟩)]
    simp only [Nat.zero_add]
    rfl

/-- A gather from a vector at `e`: the operand at the clamped row of edge `e`'s start index. -/
theorem gather_vec_apply (hN : 0 < N)
    (d : GatherDims (⟨1, ![N]⟩ : Shape) (⟨2, ![E, 1]⟩ : Shape) (⟨1, ![E]⟩ : Shape))
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    {α : Type} (x : (⟨1, ![N]⟩ : Shape).Idx → α) (idx : IVec (⟨2, ![E, 1]⟩ : Shape) w) (e : Fin E) :
    Host.gather d x idx (ix1 e) = x (ix1 (clampRow N hN (idx (ix2 e 0)))) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  let d : GatherDims (⟨1, ![N]⟩ : Shape) (⟨2, ![E, 1]⟩ : Shape) (⟨1, ![E]⟩ : Shape) := ⟨[], [0], [], [], [0], 1, ![1], wf⟩
  show d.start (ix1 e) idx a + d.batchCoord (ix1 e) a + d.offCoord (ix1 e) a = _
  rw [d.batchCoord_eq_zero _ _ List.not_mem_nil]
  match a with
  | ⟨0, h0⟩ =>
    rw [d.offCoord_eq_zero (ix1 e) ⟨0, h0⟩ (fun h => ((d.mem_sKept _).mp h).1 (List.mem_singleton.mpr rfl))]
    simp only [Nat.add_zero]
    unfold GatherDims.start
    rw [dif_pos (show (⟨0, h0⟩ : Fin 1) ∈ d.startIndexMap from List.mem_singleton.mpr rfl)]
    have hsi : d.siIdx (ix1 e) ⟨List.idxOf (⟨0, h0⟩ : Fin 1) d.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.Lib.GatherRows
-- ==== Proof.LibScatterRows.lean ====
/-
  Row scatters read at an index.

  A row scatter sends update row `e` of an `[E, C]` array to row `idx e` of an `[N, C]` operand (the index read
  as a signed integer, an update whose row falls outside `[0, N)` dropped), column by column. Three facts:
  * the result index of update `(e, c)` is `(idx e, c)` exactly when `0 ≤ idx e < N`;
  * an accumulating scatter over the extended reals holds, at `(r, c)`, the operand plus the sum of `upd (e, c)`
    over the edges `e` with `idx e = r` — and the same for a one-dimensional operand;
  * an overwriting scatter (the updates applied in row-major order) holds, at `(r, c)`, the update `(e₀, c)` of
    the LAST edge `e₀` with `idx e₀ = r`, and the operand where no edge has that row. The winning edge depends
    on the row only, not on the column or on the number of columns.
-/
import Idealize.ShloMosaic.PureOps.Ideal
import Idealize.ShloMosaic.Lib.ValueIdx

noncomputable section
namespace Cert.Lib.ScatterRows
open Idealize.ShloMosaic Idealize.ShloMosaic.ValueIdx

variable {N E C w : Nat}

/-- Any valid position of a one-element list holds that element. -/
theorem getElem_of_eq_singleton {α : Type} (l : List α) (a : α) (hl : l = [a]) (k : Nat) (h : k < l.length) :
    l[k]'h = a := by
  subst hl
  have : k = 0 := by simpa using h
  subst this; rfl

/-- The row edge `e` is sent to: its scatter index, read as a signed integer. -/
def rowOf (idx : IVec (⟨2, ![E, 1]⟩ : Shape) w) (e : Fin E) : Int := (idx (ix2 e 0)).toInt

/-- The window of update `j` starts at row `rowOf idx (j 0)`, column `0`, and `j` sits in it at column `j 1`. -/
theorem start0 (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) (idx : IVec (⟨2, ![E, 1]⟩ : Shape) w) (j : (⟨2, ![E, C]⟩ : Shape).Idx) :
    d.start j idx 0 = rowOf idx (j 0) ∧ d.start j idx 1 = 0 ∧ d.window j 0 = 0 ∧ d.window j 1 = (j 1).val := by
  obtain ⟨uw, iw, sd, iv, wf⟩ := d
  dsimp only at h1 h2 h3 h4
  subst h1 h2 h3 h4
  have hk : (⟨[1], [0], [0], 1, wf⟩ : ScatterDims (⟨2, ![N, C]⟩ : Shape) (⟨2, ![E, 1]⟩ : Shape) (⟨2, ![E, C]⟩ : Shape)).sKept = [1] := rfl
  have hu : (⟨[1], [0], [0], 1, wf⟩ : ScatterDims (⟨2, ![N, C]⟩ : Shape) (⟨2, ![E, 1]⟩ : Shape) (⟨2, ![E, C]⟩ : Shape)).uScatter = [0] := rfl
  have hs : (⟨[1], [0], [0], 1, wf⟩ : ScatterDims (⟨2, ![N, C]⟩ : Shape) (⟨2, ![E, 1]⟩ : Shape) (⟨2, ![E, C]⟩ : Shape)).siKept = [0] := rfl
  refine ⟨?_, ?_, ?_, ?_⟩
  · unfold ScatterDims.start
    simp
    unfold rowOf
    congr 2
    funext b
    apply Fin.ext
    match b with
    | ⟨0, h0⟩ =>
      have hne : ¬ ((⟨0, h0⟩ : Fin (⟨2, ![E, 1]⟩ : Shape).rank).val = 1) := Nat.zero_ne_one
      unfold ScatterDims.siIdx
      rw [dif_neg hne]
      unfold ScatterDims.siCoord
      show (j _).val = (j 0).val
      rw [getElem_of_eq_singleton _ (0 : Fin 2) hu]
    | ⟨1, _⟩ =>
      simp [ScatterDims.siIdx]
  · unfold ScatterDims.start
    simp
  · unfold ScatterDims.window
    simp [hk]
  · unfold ScatterDims.window
    simp [hk]
    rw [getElem_of_eq_singleton ([1] : List (Fin 2)) 1 rfl]

/-- Update `j` lands on `i` exactly when `j`'s edge is sent to `i`'s row and the columns agree. -/
theorem resultIdx?_eq_some_iff (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) (idx : IVec (⟨2, ![E, 1]⟩ : Shape) w) (j : (⟨2, ![E, C]⟩ : Shape).Idx)
    (i : (⟨2, ![N, C]⟩ : Shape).Idx) :
    d.resultIdx? j idx = some i ↔ rowOf idx (j 0) = ((i 0).val : Int) ∧ (j 1).val = (i 1).val := by
  obtain ⟨s0, s1, w0, w1⟩ := start0 d h1 h2 h3 h4 idx j
  unfold ScatterDims.resultIdx?
  split
  · rename_i h
    rw [Option.some.injEq]
    constructor
    · intro hi
      subst hi
      refine ⟨?_, ?_⟩
      · show rowOf idx (j 0) = (((d.start j idx 0 + d.window j 0).toNat : Nat) : Int)
        have := (h 0).1
        rw [s0, w0] at this ⊢
        omega
      · show (j 1).val = (d.start j idx 1 + d.window j 1).toNat
        rw [s1, w1]; simp
    · rintro ⟨hr, hc⟩
      funext a
      apply Fin.ext
      revert a
      refine Fin.forall_fin_two.2 ⟨?_, ?_⟩
      · show (d.start j idx 0 + d.window j 0).toNat = (i 0).val
        rw [s0, w0, hr]; simp
      · show (d.start j idx 1 + d.window j 1).toNat = (i 1).val
        rw [s1, w1, ← hc]; simp
  · rename_i h
    constructor
    · intro hh; cases hh
    · rintro ⟨hr, hc⟩
      exfalso; apply h
      refine Fin.forall_fin_two.2 ⟨?_, ?_⟩
      · rw [s0, w0, hr]
        have := (i 0).isLt
        exact ⟨by omega, by simpa using this⟩
      · rw [s1, w1, hc]
        have := (i 1).isLt
        exact ⟨by omega, by simpa using this⟩

/-- An accumulating row scatter at `(r, c)`: the operand plus the sum of column `c` over the edges sent to row `r`. -/
theorem hostScatterAdd_rows_apply (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) (x : (⟨2, ![N, C]⟩ : Shape).Idx → EReal) (idx : IVec (⟨2, ![E, 1]⟩ : Shape) w)
    (upd : (⟨2, ![E, C]⟩ : Shape).Idx → EReal) (r : Fin N) (c : Fin C) :
    Ideal.hostScatterAdd d x idx upd (ix2 r c)
      = x (ix2 r c) + ∑ e ∈ Finset.univ.filter (fun e => rowOf idx e = (r.val : Int)), upd (ix2 e c) := by
  unfold Ideal.hostScatterAdd
  congr 1
  rw [Finset.sum_filter, sum_idx2, Finset.sum_filter]
  refine Finset.sum_congr rfl fun e _ => ?_
  simp only [resultIdx?_eq_some_iff d h1 h2 h3 h4]
  show (∑ b : Fin C, if rowOf idx e = (r.val : Int) ∧ b.val = c.val then upd (ix2 e b) else 0) = _
  by_cases hr : rowOf idx e = (r.val : Int)
  · simp only [hr, true_and, if_true]
    rw [Finset.sum_eq_single c]
    · simp
    · intro b _ hb
      rw [if_neg (fun h => hb (Fin.ext h))]
    · intro h; exact absurd (Finset.mem_univ c) h
  · simp only [hr, false_and, if_false]
    exact Finset.sum_const_zero

/-! ### One-dimensional operand: updates `[E]` into `[N]` -/

/-- One-dimensional operand: update `j` goes to position `rowOf idx (j 0)`. -/
theorem start1 (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1) (idx : IVec (⟨2, ![E, 1]⟩ : Shape) w) (j : (⟨1, ![E]⟩ : Shape).Idx) :
    d.start j idx 0 = rowOf idx (j 0) ∧ d.window j 0 = 0 := by
  obtain ⟨uw, iw, sd, iv, wf⟩ := d
  dsimp only at h1 h2 h3 h4
  subst h1 h2 h3 h4
  have hk : (⟨[], [0], [0], 1, wf⟩ : ScatterDims (⟨1, ![N]⟩ : Shape) (⟨2, ![E, 1]⟩ : Shape) (⟨1, ![E]⟩ : Shape)).sKept = [] := rfl
  have hu : (⟨[], [0], [0], 1, wf⟩ : ScatterDims (⟨1, ![N]⟩ : Shape) (⟨2, ![E, 1]⟩ : Shape) (⟨1, ![E]⟩ : Shape)).uScatter = [0] := rfl
  refine ⟨?_, ?_⟩
  · unfold ScatterDims.start
    simp
    unfold rowOf
    congr 2
    funext b
    apply Fin.ext
    match b with
    | ⟨0, h0⟩ =>
      have hne : ¬ ((⟨0, h0⟩ : Fin (⟨2, ![E, 1]⟩ : Shape).rank).val = 1) := Nat.zero_ne_one
      unfold ScatterDims.siIdx
      rw [dif_neg hne]
      unfold ScatterDims.siCoord
      show (j _).val = (j 0).val
      rw [getElem_of_eq_singleton _ (0 : Fin 1) hu]
    | ⟨1, _⟩ =>
      simp [ScatterDims.siIdx]
  · unfold ScatterDims.window
    simp [hk]

/-- One-dimensional operand: update `j` lands on `i` exactly when `j`'s edge is sent to `i`. -/
theorem resultIdx?_eq_some_iff1 (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1) (idx : IVec (⟨2, ![E, 1]⟩ : Shape) w) (j : (⟨1, ![E]⟩ : Shape).Idx)
    (i : (⟨1, ![N]⟩ : Shape).Idx) :
    d.resultIdx? j idx = some i ↔ rowOf idx (j 0) = ((i 0).val : Int) := by
  obtain ⟨s0, w0⟩ := start1 d h1 h2 h3 h4 idx j
  unfold ScatterDims.resultIdx?
  split
  · rename_i h
    rw [Option.some.injEq]
    constructor
    · intro hi
      subst hi
      show rowOf idx (j 0) = (((d.start j idx 0 + d.window j 0).toNat : Nat) : Int)
      have := (h 0).1
      rw [s0, w0] at this ⊢
      omega
    · intro hr
      funext a
      apply Fin.ext
      revert a
      refine (Fin.forall_fin_one).2 ?_
      show (d.start j idx 0 + d.window j 0).toNat = (i 0).val
      rw [s0, w0, hr]; simp
  · rename_i h
    constructor
    · intro hh; cases hh
    · intro hr
      exfalso; apply h
      refine (Fin.forall_fin_one).2 ?_
      rw [s0, w0, hr]
      have := (i 0).isLt
      exact ⟨by omega, by simpa using this⟩

/-- An accumulating scatter into a vector at `r`: the operand plus the sum of the updates of the edges sent to `r`. -/
theorem hostScatterAdd_vec_apply (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1) (x : (⟨1, ![N]⟩ : Shape).Idx → EReal) (idx : IVec (⟨2, ![E, 1]⟩ : Shape) w)
    (upd : (⟨1, ![E]⟩ : Shape).Idx → EReal) (r : Fin N) :
    Ideal.hostScatterAdd d x idx upd (ix1 r)
      = x (ix1 r) + ∑ e ∈ Finset.univ.filter (fun e => rowOf idx e = (r.val : Int)), upd (ix1 e) := by
  unfold Ideal.hostScatterAdd
  congr 1
  rw [Finset.sum_filter, Finset.sum_filter]
  simp only [resultIdx?_eq_some_iff1 d h1 h2 h3 h4]
  let eqv : (⟨1, ![E]⟩ : Shape).Idx ≃ Fin E :=
    { toFun := fun j => j 0, invFun := fun a => ix1 a, left_inv := fun j => (eq_ix1 j).symm, right_inv := fun _ => rfl }
  refine Fintype.sum_equiv eqv _ _ fun j => ?_
  have hj : upd j = upd (ix1 (j 0)) := congrArg upd (eq_ix1 j)
  show (if rowOf idx (j 0) = (r.val : Int) then upd j else 0) = if rowOf idx (j 0) = (r.val : Int) then upd (ix1 (j 0)) else 0
  rw [hj]

/-! ### Overwriting scatter: the last update in the fold's order wins -/

section Overwrite
variable {ι κ α : Type} [DecidableEq κ] (k : ι → Option κ) (v : ι → α)

/-- One step of an overwriting fold: update `n` replaces the element at its key, if it has one. -/
def owStep (r : κ → α) (n : ι) : κ → α :=
  match k n with
  | some i => fun i' => if i' = i then v n else r i'
  | none => r

/-- A step whose key is `i'` leaves its own value there. -/
theorem owStep_hit (r : κ → α) (n : ι) (i' : κ) (h : k n = some i') : owStep k v r n i' = v n := by
  unfold owStep; rw [h]; simp

/-- A step whose key is not `i'` leaves `i'` as it was. -/
theorem owStep_miss (r : κ → α) (n : ι) (i' : κ) (h : k n ≠ some i') : owStep k v r n i' = r i' := by
  unfold owStep
  cases hk : k n with
  | none => rfl
  | some i =>
    have : i' ≠ i := fun e => h (by rw [hk, e])
    simp [this]

/-- Steps none of which has key `i'` leave `i'` as it was. -/
theorem foldl_ow_miss (l : List ι) (x : κ → α) (i' : κ) (h : ∀ n ∈ l, k n ≠ some i') :
    (l.foldl (owStep k v) x) i' = x i' := by
  induction l generalizing x with
  | nil => rfl
  | cons a l ih =>
    rw [List.foldl_cons, ih _ (fun n hn => h n (List.mem_cons_of_mem _ hn)),
      owStep_miss k v x a i' (h a List.mem_cons_self)]

/-- If `n₀` has key `i'` and no later step has, the fold leaves `n₀`'s value at `i'`. -/
theorem foldl_ow_last (l₁ l₂ : List ι) (n₀ : ι) (x : κ → α) (i' : κ) (h0 : k n₀ = some i')
    (h : ∀ m ∈ l₂, k m ≠ some i') : ((l₁ ++ n₀ :: l₂).foldl (owStep k v) x) i' = v n₀ := by
  rw [List.foldl_append, List.foldl_cons, foldl_ow_miss k v l₂ _ i' h, owStep_hit k v _ n₀ i' h0]

end Overwrite

/-- An overwriting scatter is the overwriting fold over the updates in row-major order. -/
theorem scatter_set_eq_foldl {s si u : Shape} {α : Type} (d : ScatterDims s si u) (x : s.Idx → α) (idx : IVec si w)
    (upd : u.Idx → α) :
    Host.scatter d (fun _ b => b) x idx upd
      = (List.finRange u.numel).foldl
          (owStep (fun n => d.resultIdx? (u.rowMajor.symm n) idx) (fun n => upd (u.rowMajor.symm n))) x := by
  unfold Host.scatter
  congr 1
  funext r n
  unfold owStep
  beta_reduce
  cases d.resultIdx? (u.rowMajor.symm n) idx with
  | none => rfl
  | some i => rfl

/-- A row no edge is sent to keeps the operand. -/
theorem scatter_set_rows_miss (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) {α : Type} (x : (⟨2, ![N, C]⟩ : Shape).Idx → α) (idx : IVec (⟨2, ![E, 1]⟩ : Shape) w)
    (upd : (⟨2, ![E, C]⟩ : Shape).Idx → α) (r : Fin N) (c : Fin C)
    (hnone : ∀ e, rowOf idx e ≠ (r.val : Int)) :
    Host.scatter d (fun _ b => b) x idx upd (ix2 r c) = x (ix2 r c) := by
  rw [scatter_set_eq_foldl]
  apply foldl_ow_miss
  intro n _ hk
  have hk' := (resultIdx?_eq_some_iff d h1 h2 h3 h4 idx _ _).1 hk
  exact hnone _ hk'.1

/-- A row holds, in every column, the update row of the last edge sent to it. -/
theorem scatter_set_rows_hit (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) {α : Type} (x : (⟨2, ![N, C]⟩ : Shape).Idx → α) (idx : IVec (⟨2, ![E, 1]⟩ : Shape) w)
    (upd : (⟨2, ![E, C]⟩ : Shape).Idx → α) (r : Fin N) (c : Fin C) (e₀ : Fin E)
    (he : rowOf idx e₀ = (r.val : Int)) (hlast : ∀ e, e₀ < e → rowOf idx e ≠ (r.val : Int)) :
    Host.scatter d (fun _ b => b) x idx upd (ix2 r c) = upd (ix2 e₀ c) := by
  rw [scatter_set_eq_foldl]
  let n₀ : Fin (⟨2, ![E, C]⟩ : Shape).numel := (⟨2, ![E, C]⟩ : Shape).rowMajor (ix2 e₀ c)
  obtain ⟨l₁, l₂, hl⟩ := List.append_of_mem (List.mem_finRange n₀)
  have hpw := List.pairwise_lt_finRange (⟨2, ![E, C]⟩ : Shape).numel
  rw [hl] at hpw ⊢
  have hgt : ∀ m ∈ l₂, n₀ < m := (List.pairwise_cons.1 (List.pairwise_append.1 hpw).2.1).1
  refine (foldl_ow_last _ _ l₁ l₂ n₀ x (ix2 r c) ?_ ?_).trans ?_
  · show d.resultIdx? ((⟨2, ![E, C]⟩ : Shape).rowMajor.symm n₀) idx = some (ix2 r c)
    rw [Equiv.symm_apply_apply, resultIdx?_eq_some_iff d h1 h2 h3 h4]
    exact ⟨he, rfl⟩
  · intro m hm hk
    obtain ⟨hr, hc⟩ := (resultIdx?_eq_some_iff d h1 h2 h3 h4 idx _ _).1 hk
    have hlt : n₀.val < m.val := hgt m hm
    have hm' : m = (⟨2, ![E, C]⟩ : Shape).rowMajor ((⟨2, ![E, C]⟩ : Shape).rowMajor.symm m) :=
      (Equiv.apply_symm_apply _ _).symm
    have hle : ¬ e₀ < (((⟨2, ![E, C]⟩ : Shape).rowMajor.symm m) 0) := fun h => hlast _ h hr
    have v1 := Shape.rowMajor_val_two ((⟨2, ![E, C]⟩ : Shape).rowMajor.symm m)
    have v0 : n₀.val = _ := Shape.rowMajor_val_two (ix2 e₀ c)
    rw [hm', v1, v0] at hlt
    have hle' : ((((⟨2, ![E, C]⟩ : Shape).rowMajor.symm m) 0) : Fin E).val ≤ e₀.val := Nat.le_of_not_lt hle
    have hmul := Nat.mul_le_mul_right C hle'
    have hc' : ((((⟨2, ![E, C]⟩ : Shape).rowMajor.symm m) 1) : Fin C).val = c.val := hc
    have hlt' : e₀.val * C + c.val
        < ((((⟨2, ![E, C]⟩ : Shape).rowMajor.symm m) 0) : Fin E).val * C
          + ((((⟨2, ![E, C]⟩ : Shape).rowMajor.symm m) 1) : Fin C).val := hlt
    omega
  · show upd ((⟨2, ![E, C]⟩ : Shape).rowMajor.symm n₀) = _
    rw [Equiv.symm_apply_apply]

/-- Either no element satisfies `p`, or there is a last one that does. -/
theorem none_or_last (p : Fin E → Prop) [DecidablePred p] :
    (∀ e, ¬ p e) ∨ ∃ e₀, p e₀ ∧ ∀ e, e₀ < e → ¬ p e := by
  by_cases h : ∃ e, p e
  · right
    obtain ⟨e, he⟩ := h
    obtain ⟨e₀, he₀, hmax⟩ := Finset.exists_max_image (Finset.univ.filter p) id ⟨e, by simp [he]⟩
    refine ⟨e₀, (Finset.mem_filter.1 he₀).2, fun e' hlt hpe => ?_⟩
    have := hmax e' (by simp [hpe])
    exact absurd hlt (not_lt.2 this)
  · left; exact fun e he => h ⟨e, he⟩

end Cert.Lib.ScatterRows
-- ==== Proof.RefRead.lean ====
/-
  The reference's stages read at an index, at the exact extended reals: this module gathers the float words and
  dense layers, the column statistics and normalisations, and proves that the first layer's stages are finite on
  finite operands.
-/
import proofs.«129438_j27745488732760_1_alg».proof.Proof.RefReadA
import proofs.«129438_j27745488732760_1_alg».proof.Proof.RefReadB
import proofs.«129438_j27745488732760_1_alg».proof.Proof.LibIndexReads
import proofs.«129438_j27745488732760_1_alg».proof.Proof.LibGatherRows
import proofs.«129438_j27745488732760_1_alg».proof.Proof.LibScatterRows
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx

/-! ## Finiteness of the projection, the biased sum and the aggregate

A gather clamps its start index into the operand, so it returns an entry of the operand; an accumulating scatter
returns the operand's entry plus a finite sum of update entries. Hence, whatever the edge table holds: the degree
is zero plus a finite sum of ones; its guarded reciprocal square root is the reciprocal square root of a positive
real, or zero; an edge weight is a product of two of those; and the aggregate of a finite array is zero plus a
finite sum of products of an entry of the array and an edge weight. -/

open BNMath in
/-- Finite features and weights give a finite projection. -/
theorem proj_isR (x : FVec Ideal S100000x128 .f32) (Wg : FVec Ideal S128x128 .f32) (hx : ∀ i, BNMath.IsR (x i))
    (hW : ∀ i, BNMath.IsR (Wg i)) : ∀ i, BNMath.IsR (RefRun.proj x Wg i) := by
  intro i
  obtain ⟨r, j, rfl⟩ : ∃ (r : Fin 100000) (j : Fin 128), i = ix2 r j := ⟨i 0, i 1, eq_ix2 i⟩
  rw [proj_apply]
  exact isR_sum _ _ fun k _ => (hx _).mul (hW _)

open BNMath in
/-- A finite array and a finite bias give a finite biased sum. -/
theorem h1_isR (a : FVec Ideal S100000x128 .f32) (b : FVec Ideal S128 .f32) (ha : ∀ i, BNMath.IsR (a i))
    (hb : ∀ i, BNMath.IsR (b i)) : ∀ i, BNMath.IsR (RefRun.h1 a b i) := by
  intro i
  obtain ⟨r, j, rfl⟩ : ∃ (r : Fin 100000) (j : Fin 128), i = ix2 r j := ⟨i 0, i 1, eq_ix2 i⟩
  rw [h1_apply]
  exact (ha _).add (hb _)

/-- The host's accumulating scatter at the exact extended reals. -/
theorem hostScatterAdd_eq {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

open BNMath Cert.Lib.ScatterRows Cert.Lib.GatherRows in
/-- The degree of a node is finite: zero plus a finite sum of ones. -/
theorem deg_isR (e : IVec S2x640000 32) : ∀ i, BNMath.IsR (RefRun.deg e i) := by
  intro i
  obtain ⟨r, rfl⟩ : ∃ r : Fin 100000, i = ix1 r := ⟨i 0, eq_ix1 i⟩
  unfold RefRun.deg
  rw [hostScatterAdd_eq, hostScatterAdd_vec_apply scatter_S100000_S740000x1_S740000_n_0_0_1 rfl rfl rfl rfl]
  refine IsR.add ?_ (isR_sum _ _ fun k _ => ?_)
  · rw [broadcastInDim_scalar_apply, zeroS_val]; exact isR_zero
  · rw [broadcastInDim_scalar_apply]
    show IsR (Ideal.ofBits .f32 0x3F800000#32)
    rw [Ideal.ofBits_one_f32]; exact isR_one

open BNMath in
/-- The guarded reciprocal square root of the degree is finite. -/
theorem dinv_isR (e : IVec S2x640000 32) : ∀ i, BNMath.IsR (RefRun.dinv e i) := by
  intro i
  obtain ⟨d, hd⟩ := deg_isR e i
  unfold RefRun.dinv
  rw [select_apply, cmpf_apply, hostRsqrt_apply, broadcastInDim_scalar_apply, hd, zeroS_val]
  by_cases hpos : 0 < d
  · have hc : FloatOps.cmpf (F := Ideal) (φ := .f32) .ogt ((d : ℝ) : EReal) (0 : EReal) = 1#1 := by
      show BitVec.ofBool (decide ((0 : EReal) < ((d : ℝ) : EReal))) = 1#1
      rw [decide_eq_true (EReal.coe_pos.mpr hpos)]
      rfl
    rw [hc, select_one, rsqrt_coe_pos hpos]
    exact isR_coe _
  · have hc : FloatOps.cmpf (F := Ideal) (φ := .f32) .ogt ((d : ℝ) : EReal) (0 : EReal) = 0#1 := by
      show BitVec.ofBool (decide ((0 : EReal) < ((d : ℝ) : EReal))) = 0#1
      rw [decide_eq_false (fun h => hpos (EReal.coe_pos.mp h))]
      rfl
    rw [hc, select_zero]
    exact isR_zero

open BNMath Cert.Lib.GatherRows in
/-- The weight of an edge is finite. -/
theorem edgeNorm_isR (e : IVec S2x640000 32) : ∀ i, BNMath.IsR (RefRun.edgeNorm e i) := by
  intro i
  obtain ⟨k, rfl⟩ : ∃ k : Fin 740000, i = ix1 k := ⟨i 0, eq_ix1 i⟩
  unfold RefRun.edgeNorm
  rw [mulf_apply, gather_vec_apply (N := 100000) (by norm_num) gather_S100000_S740000x1_S740000_n_0_n_n_0_1_1 rfl rfl rfl rfl rfl rfl rfl,
    gather_vec_apply (N := 100000) (by norm_num) gather_S100000_S740000x1_S740000_n_0_n_n_0_1_1 rfl rfl rfl rfl rfl rfl rfl]
  exact (dinv_isR e _).mul (dinv_isR e _)

/-- A column repeated over `b` columns reads, at `(p, c)`, the column at row `p`. -/
theorem colsBcast_apply {a b : Nat} {α : Type} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) :=
  broadcastInDim_apply ![0, 1] h v (ix2 p c) (ix2 p (0 : Fin 1)) (fun x => match x with
    | ⟨0, _⟩ => by
      show p.val = if a = 1 then 0 else p.val
      split
      · have := p.isLt; omega
      · rfl
    | ⟨1, _⟩ => rfl)

open BNMath Cert.Lib.ScatterRows Cert.Lib.GatherRows Cert.Lib.IndexReads in
/-- A finite array has a finite aggregate, whatever the edge table holds. -/
theorem agg_isR (e : IVec S2x640000 32) (h : FVec Ideal S100000x128 .f32) (hh : ∀ i, BNMath.IsR (h i)) :
    ∀ i, BNMath.IsR (RefRun.agg e h i) := by
  intro i
  obtain ⟨r, c, rfl⟩ : ∃ (r : Fin 100000) (c : Fin 128), i = ix2 r c := ⟨i 0, i 1, eq_ix2 i⟩
  unfold RefRun.agg
  rw [hostScatterAdd_eq, hostScatterAdd_rows_apply scatter_S100000x128_S740000x1_S740000x128_1_0_0_1 rfl rfl rfl rfl]
  refine IsR.add ?_ (isR_sum _ _ fun k _ => ?_)
  · rw [broadcastInDim_scalar_apply, zeroS_val]; exact isR_zero
  · rw [mulf_apply, gather_rows_apply (N := 100000) (by norm_num) gather_S100000x128_S740000x1_S740000x128_1_0_n_n_0_1_1128 rfl rfl rfl rfl rfl rfl rfl,
      colsBcast_apply, bcast_a_a1_apply]
    exact (hh _).mul (edgeNorm_isR e _)

end Cert.ReferenceIdeal.RefRead

end
-- ==== Proof.KChain.lean ====
/-
  The idealized kernel's buffers at each boundary of its run, read back to the argument arrays: the contents the
  four regions find and leave, through the stretches of host operations between them. The projected features,
  their weighted aggregate and the first layer's pre-normalisation values are the reference's own stages of the
  argument arrays; the column sums and sums of squares the second and third regions accumulate are sums over all
  100000 rows; the scale and shift rows are the kernel's own forms of them.
-/
import proofs.«129438_j27745488732760_1_alg».proof.Proof.KHost
import proofs.«129438_j27745488732760_1_alg».proof.Proof.Region0
import proofs.«129438_j27745488732760_1_alg».proof.Proof.Region1
import proofs.«129438_j27745488732760_1_alg».proof.Proof.Region2
import proofs.«129438_j27745488732760_1_alg».proof.Proof.Region3
import proofs.«129438_j27745488732760_1_alg».proof.Proof.RefRead
import Idealize.ShloMosaic.Lib.ValueLayout

set_option maxRecDepth 16384

noncomputable section

namespace Cert.KernelIdeal.KChain

open Idealize.ShloMosaic Idealize.ShloMosaic.TcCoe Idealize.ShloMosaic.Tactic Idealize.SL.Sem Idealize.ShloMosaic.ValueIdx
open Cert.KernelIdeal Cert.KernelIdeal.Gen Cert.KernelIdeal.KHost
open scoped BigOperators

variable (m : (ℓ : Loc nD τ sig) → Buf (Elt Ideal) ℓ) (ρ : Dev nD → PrngReg) (c : Dev nD)

/-! ## The argument arrays, typed by their literal shapes -/
abbrev a0 : FVec Ideal S100000x128 .f32 := m ((c : Thread nD τ).loc main_arg0)
abbrev a1 : IVec S2x640000 32 := m ((c : Thread nD τ).loc main_arg1)
abbrev a2 : FVec Ideal S128x128 .f32 := m ((c : Thread nD τ).loc main_arg2)
abbrev a3 : FVec Ideal S128 .f32 := m ((c : Thread nD τ).loc main_arg3)
abbrev a4 : FVec Ideal S128 .f32 := m ((c : Thread nD τ).loc main_arg4)
abbrev a5 : FVec Ideal S128 .f32 := m ((c : Thread nD τ).loc main_arg5)
abbrev a6 : FVec Ideal S128x64 .f32 := m ((c : Thread nD τ).loc main_arg6)
abbrev a7 : FVec Ideal S64 .f32 := m ((c : Thread nD τ).loc main_arg7)
abbrev a8 : FVec Ideal S64 .f32 := m ((c : Thread nD τ).loc main_arg8)
abbrev a9 : FVec Ideal S64 .f32 := m ((c : Thread nD τ).loc main_arg9)
abbrev a10 : FVec Ideal S64x64 .f32 := m ((c : Thread nD τ).loc main_arg10)
abbrev a11 : FVec Ideal S64 .f32 := m ((c : Thread nD τ).loc main_arg11)

/-! ## The arguments at each boundary: no host operation and no region writes one -/
theorem W1_main_arg0 : W1 m ρ c (Proc.devRef .tc main_arg0) = a0 m c := (keep_hostOps0_main_arg0 (W0 m ρ c))
theorem W2_main_arg0 : W2 m ρ c (Proc.devRef .tc main_arg0) = a0 m c := (keep_hostOps0_1_main_arg0 (W1 m ρ c)).trans (W1_main_arg0 m ρ c)
theorem W3_main_arg0 : W3 m ρ c (Proc.devRef .tc main_arg0) = a0 m c := (keep_hostOps0_2_main_arg0 (W2 m ρ c)).trans (W2_main_arg0 m ρ c)
theorem W1_main_arg1 : W1 m ρ c (Proc.devRef .tc main_arg1) = a1 m c := (keep_hostOps0_main_arg1 (W0 m ρ c))
theorem W2_main_arg1 : W2 m ρ c (Proc.devRef .tc main_arg1) = a1 m c := (keep_hostOps0_1_main_arg1 (W1 m ρ c)).trans (W1_main_arg1 m ρ c)
theorem W3_main_arg1 : W3 m ρ c (Proc.devRef .tc main_arg1) = a1 m c := (keep_hostOps0_2_main_arg1 (W2 m ρ c)).trans (W2_main_arg1 m ρ c)
theorem W1_main_arg2 : W1 m ρ c (Proc.devRef .tc main_arg2) = a2 m c := (keep_hostOps0_main_arg2 (W0 m ρ c))
theorem W2_main_arg2 : W2 m ρ c (Proc.devRef .tc main_arg2) = a2 m c := (keep_hostOps0_1_main_arg2 (W1 m ρ c)).trans (W1_main_arg2 m ρ c)
theorem W3_main_arg2 : W3 m ρ c (Proc.devRef .tc main_arg2) = a2 m c := (keep_hostOps0_2_main_arg2 (W2 m ρ c)).trans (W2_main_arg2 m ρ c)
theorem W1_main_arg3 : W1 m ρ c (Proc.devRef .tc main_arg3) = a3 m c := (keep_hostOps0_main_arg3 (W0 m ρ c))
theorem W2_main_arg3 : W2 m ρ c (Proc.devRef .tc main_arg3) = a3 m c := (keep_hostOps0_1_main_arg3 (W1 m ρ c)).trans (W1_main_arg3 m ρ c)
theorem W3_main_arg3 : W3 m ρ c (Proc.devRef .tc main_arg3) = a3 m c := (keep_hostOps0_2_main_arg3 (W2 m ρ c)).trans (W2_main_arg3 m ρ c)
theorem W4_main_arg3 : W4 m ρ c (Proc.devRef .tc main_arg3) = a3 m c := (W4_of_ne m ρ c main_arg3 (by decide)).trans (W3_main_arg3 m ρ c)
theorem W1_main_arg4 : W1 m ρ c (Proc.devRef .tc main_arg4) = a4 m c := (keep_hostOps0_main_arg4 (W0 m ρ c))
theorem W2_main_arg4 : W2 m ρ c (Proc.devRef .tc main_arg4) = a4 m c := (keep_hostOps0_1_main_arg4 (W1 m ρ c)).trans (W1_main_arg4 m ρ c)
theorem W3_main_arg4 : W3 m ρ c (Proc.devRef .tc main_arg4) = a4 m c := (keep_hostOps0_2_main_arg4 (W2 m ρ c)).trans (W2_main_arg4 m ρ c)
theorem W4_main_arg4 : W4 m ρ c (Proc.devRef .tc main_arg4) = a4 m c := (W4_of_ne m ρ c main_arg4 (by decide)).trans (W3_main_arg4 m ρ c)
theorem W5_main_arg4 : W5 m ρ c (Proc.devRef .tc main_arg4) = a4 m c := (keep_hostOps1_main_arg4 (W4 m ρ c)).trans (W4_main_arg4 m ρ c)
theorem W6_main_arg4 : W6 m ρ c (Proc.devRef .tc main_arg4) = a4 m c := (W6_of_ne m ρ c main_arg4 (by decide)).trans (W5_main_arg4 m ρ c)
theorem W1_main_arg5 : W1 m ρ c (Proc.devRef .tc main_arg5) = a5 m c := (keep_hostOps0_main_arg5 (W0 m ρ c))
theorem W2_main_arg5 : W2 m ρ c (Proc.devRef .tc main_arg5) = a5 m c := (keep_hostOps0_1_main_arg5 (W1 m ρ c)).trans (W1_main_arg5 m ρ c)
theorem W3_main_arg5 : W3 m ρ c (Proc.devRef .tc main_arg5) = a5 m c := (keep_hostOps0_2_main_arg5 (W2 m ρ c)).trans (W2_main_arg5 m ρ c)
theorem W4_main_arg5 : W4 m ρ c (Proc.devRef .tc main_arg5) = a5 m c := (W4_of_ne m ρ c main_arg5 (by decide)).trans (W3_main_arg5 m ρ c)
theorem W5_main_arg5 : W5 m ρ c (Proc.devRef .tc main_arg5) = a5 m c := (keep_hostOps1_main_arg5 (W4 m ρ c)).trans (W4_main_arg5 m ρ c)
theorem W6_main_arg5 : W6 m ρ c (Proc.devRef .tc main_arg5) = a5 m c := (W6_of_ne m ρ c main_arg5 (by decide)).trans (W5_main_arg5 m ρ c)
theorem W1_main_arg6 : W1 m ρ c (Proc.devRef .tc main_arg6) = a6 m c := (keep_hostOps0_main_arg6 (W0 m ρ c))
theorem W2_main_arg6 : W2 m ρ c (Proc.devRef .tc main_arg6) = a6 m c := (keep_hostOps0_1_main_arg6 (W1 m ρ c)).trans (W1_main_arg6 m ρ c)
theorem W3_main_arg6 : W3 m ρ c (Proc.devRef .tc main_arg6) = a6 m c := (keep_hostOps0_2_main_arg6 (W2 m ρ c)).trans (W2_main_arg6 m ρ c)
theorem W4_main_arg6 : W4 m ρ c (Proc.devRef .tc main_arg6) = a6 m c := (W4_of_ne m ρ c main_arg6 (by decide)).trans (W3_main_arg6 m ρ c)
theorem W5_main_arg6 : W5 m ρ c (Proc.devRef .tc main_arg6) = a6 m c := (keep_hostOps1_main_arg6 (W4 m ρ c)).trans (W4_main_arg6 m ρ c)
theorem W6_main_arg6 : W6 m ρ c (Proc.devRef .tc main_arg6) = a6 m c := (W6_of_ne m ρ c main_arg6 (by decide)).trans (W5_main_arg6 m ρ c)
theorem W7_main_arg6 : W7 m ρ c (Proc.devRef .tc main_arg6) = a6 m c := (keep_hostOps2_main_arg6 (W6 m ρ c)).trans (W6_main_arg6 m ρ c)
theorem W1_main_arg7 : W1 m ρ c (Proc.devRef .tc main_arg7) = a7 m c := (keep_hostOps0_main_arg7 (W0 m ρ c))
theorem W2_main_arg7 : W2 m ρ c (Proc.devRef .tc main_arg7) = a7 m c := (keep_hostOps0_1_main_arg7 (W1 m ρ c)).trans (W1_main_arg7 m ρ c)
theorem W3_main_arg7 : W3 m ρ c (Proc.devRef .tc main_arg7) = a7 m c := (keep_hostOps0_2_main_arg7 (W2 m ρ c)).trans (W2_main_arg7 m ρ c)
theorem W4_main_arg7 : W4 m ρ c (Proc.devRef .tc main_arg7) = a7 m c := (W4_of_ne m ρ c main_arg7 (by decide)).trans (W3_main_arg7 m ρ c)
theorem W5_main_arg7 : W5 m ρ c (Proc.devRef .tc main_arg7) = a7 m c := (keep_hostOps1_main_arg7 (W4 m ρ c)).trans (W4_main_arg7 m ρ c)
theorem W6_main_arg7 : W6 m ρ c (Proc.devRef .tc main_arg7) = a7 m c := (W6_of_ne m ρ c main_arg7 (by decide)).trans (W5_main_arg7 m ρ c)
theorem W1_main_arg8 : W1 m ρ c (Proc.devRef .tc main_arg8) = a8 m c := (keep_hostOps0_main_arg8 (W0 m ρ c))
theorem W2_main_arg8 : W2 m ρ c (Proc.devRef .tc main_arg8) = a8 m c := (keep_hostOps0_1_main_arg8 (W1 m ρ c)).trans (W1_main_arg8 m ρ c)
theorem W3_main_arg8 : W3 m ρ c (Proc.devRef .tc main_arg8) = a8 m c := (keep_hostOps0_2_main_arg8 (W2 m ρ c)).trans (W2_main_arg8 m ρ c)
theorem W4_main_arg8 : W4 m ρ c (Proc.devRef .tc main_arg8) = a8 m c := (W4_of_ne m ρ c main_arg8 (by decide)).trans (W3_main_arg8 m ρ c)
theorem W5_main_arg8 : W5 m ρ c (Proc.devRef .tc main_arg8) = a8 m c := (keep_hostOps1_main_arg8 (W4 m ρ c)).trans (W4_main_arg8 m ρ c)
theorem W6_main_arg8 : W6 m ρ c (Proc.devRef .tc main_arg8) = a8 m c := (W6_of_ne m ρ c main_arg8 (by decide)).trans (W5_main_arg8 m ρ c)
theorem W7_main_arg8 : W7 m ρ c (Proc.devRef .tc main_arg8) = a8 m c := (keep_hostOps2_main_arg8 (W6 m ρ c)).trans (W6_main_arg8 m ρ c)
theorem W8_main_arg8 : W8 m ρ c (Proc.devRef .tc main_arg8) = a8 m c := (W8_of_ne m ρ c main_arg8 (by decide)).trans (W7_main_arg8 m ρ c)
theorem W1_main_arg9 : W1 m ρ c (Proc.devRef .tc main_arg9) = a9 m c := (keep_hostOps0_main_arg9 (W0 m ρ c))
theorem W2_main_arg9 : W2 m ρ c (Proc.devRef .tc main_arg9) = a9 m c := (keep_hostOps0_1_main_arg9 (W1 m ρ c)).trans (W1_main_arg9 m ρ c)
theorem W3_main_arg9 : W3 m ρ c (Proc.devRef .tc main_arg9) = a9 m c := (keep_hostOps0_2_main_arg9 (W2 m ρ c)).trans (W2_main_arg9 m ρ c)
theorem W4_main_arg9 : W4 m ρ c (Proc.devRef .tc main_arg9) = a9 m c := (W4_of_ne m ρ c main_arg9 (by decide)).trans (W3_main_arg9 m ρ c)
theorem W5_main_arg9 : W5 m ρ c (Proc.devRef .tc main_arg9) = a9 m c := (keep_hostOps1_main_arg9 (W4 m ρ c)).trans (W4_main_arg9 m ρ c)
theorem W6_main_arg9 : W6 m ρ c (Proc.devRef .tc main_arg9) = a9 m c := (W6_of_ne m ρ c main_arg9 (by decide)).trans (W5_main_arg9 m ρ c)
theorem W7_main_arg9 : W7 m ρ c (Proc.devRef .tc main_arg9) = a9 m c := (keep_hostOps2_main_arg9 (W6 m ρ c)).trans (W6_main_arg9 m ρ c)
theorem W8_main_arg9 : W8 m ρ c (Proc.devRef .tc main_arg9) = a9 m c := (W8_of_ne m ρ c main_arg9 (by decide)).trans (W7_main_arg9 m ρ c)
theorem W1_main_arg10 : W1 m ρ c (Proc.devRef .tc main_arg10) = a10 m c := (keep_hostOps0_main_arg10 (W0 m ρ c))
theorem W2_main_arg10 : W2 m ρ c (Proc.devRef .tc main_arg10) = a10 m c := (keep_hostOps0_1_main_arg10 (W1 m ρ c)).trans (W1_main_arg10 m ρ c)
theorem W3_main_arg10 : W3 m ρ c (Proc.devRef .tc main_arg10) = a10 m c := (keep_hostOps0_2_main_arg10 (W2 m ρ c)).trans (W2_main_arg10 m ρ c)
theorem W4_main_arg10 : W4 m ρ c (Proc.devRef .tc main_arg10) = a10 m c := (W4_of_ne m ρ c main_arg10 (by decide)).trans (W3_main_arg10 m ρ c)
theorem W5_main_arg10 : W5 m ρ c (Proc.devRef .tc main_arg10) = a10 m c := (keep_hostOps1_main_arg10 (W4 m ρ c)).trans (W4_main_arg10 m ρ c)
theorem W6_main_arg10 : W6 m ρ c (Proc.devRef .tc main_arg10) = a10 m c := (W6_of_ne m ρ c main_arg10 (by decide)).trans (W5_main_arg10 m ρ c)
theorem W7_main_arg10 : W7 m ρ c (Proc.devRef .tc main_arg10) = a10 m c := (keep_hostOps2_main_arg10 (W6 m ρ c)).trans (W6_main_arg10 m ρ c)
theorem W8_main_arg10 : W8 m ρ c (Proc.devRef .tc main_arg10) = a10 m c := (W8_of_ne m ρ c main_arg10 (by decide)).trans (W7_main_arg10 m ρ c)
theorem W9_main_arg10 : W9 m ρ c (Proc.devRef .tc main_arg10) = a10 m c := (keep_hostOps3_main_arg10 (W8 m ρ c)).trans (W8_main_arg10 m ρ c)
theorem W1_main_arg11 : W1 m ρ c (Proc.devRef .tc main_arg11) = a11 m c := (keep_hostOps0_main_arg11 (W0 m ρ c))
theorem W2_main_arg11 : W2 m ρ c (Proc.devRef .tc main_arg11) = a11 m c := (keep_hostOps0_1_main_arg11 (W1 m ρ c)).trans (W1_main_arg11 m ρ c)
theorem W3_main_arg11 : W3 m ρ c (Proc.devRef .tc main_arg11) = a11 m c := (keep_hostOps0_2_main_arg11 (W2 m ρ c)).trans (W2_main_arg11 m ρ c)
theorem W4_main_arg11 : W4 m ρ c (Proc.devRef .tc main_arg11) = a11 m c := (W4_of_ne m ρ c main_arg11 (by decide)).trans (W3_main_arg11 m ρ c)
theorem W5_main_arg11 : W5 m ρ c (Proc.devRef .tc main_arg11) = a11 m c := (keep_hostOps1_main_arg11 (W4 m ρ c)).trans (W4_main_arg11 m ρ c)
theorem W6_main_arg11 : W6 m ρ c (Proc.devRef .tc main_arg11) = a11 m c := (W6_of_ne m ρ c main_arg11 (by decide)).trans (W5_main_arg11 m ρ c)
theorem W7_main_arg11 : W7 m ρ c (Proc.devRef .tc main_arg11) = a11 m c := (keep_hostOps2_main_arg11 (W6 m ρ c)).trans (W6_main_arg11 m ρ c)
theorem W8_main_arg11 : W8 m ρ c (Proc.devRef .tc main_arg11) = a11 m c := (W8_of_ne m ρ c main_arg11 (by decide)).trans (W7_main_arg11 m ρ c)

/-! ## Before the first region: the two index lists, the guarded reciprocal square roots, the edge weights -/

theorem W3_v3 : W3 m ρ c (Proc.devRef .tc main_v3) = Cert.ReferenceIdeal.RefRun.idxSrc (a1 m c) :=
  (keep_hostOps0_2_main_v3 (W2 m ρ c)).trans ((keep_hostOps0_1_main_v3 (W1 m ρ c)).trans (s0_v3 (W0 m ρ c)))
theorem W3_v6 : W3 m ρ c (Proc.devRef .tc main_v6) = Cert.ReferenceIdeal.RefRun.idxDst (a1 m c) :=
  (keep_hostOps0_2_main_v6 (W2 m ρ c)).trans ((keep_hostOps0_1_main_v6 (W1 m ρ c)).trans (s0_v6 (W0 m ρ c)))
theorem W2_v15 : W2 m ρ c (Proc.devRef .tc main_v15) = Cert.ReferenceIdeal.RefRun.dinv (a1 m c) := by
  refine (s01_v15 (W1 m ρ c)).trans ?_
  rw [show W1 m ρ c (Proc.devRef .tc main_v12) = _ from s0_v12 (W0 m ρ c), show W1 m ρ c (Proc.devRef .tc main_v13) = _ from s0_v13 (W0 m ρ c),
    show W1 m ρ c (Proc.devRef .tc main_v14) = _ from s0_v14 (W0 m ρ c)]
  rfl
theorem W3_v30 : W3 m ρ c (Proc.devRef .tc main_v30) = Cert.ReferenceIdeal.RefRun.edgeNorm (a1 m c) := by
  refine (s02_v30 (W2 m ρ c)).trans ?_
  rw [W2_v15 m ρ c, show W2 m ρ c (Proc.devRef .tc main_v3) = _ from (keep_hostOps0_1_main_v3 (W1 m ρ c)).trans (s0_v3 (W0 m ρ c)),
    show W2 m ρ c (Proc.devRef .tc main_v6) = _ from (keep_hostOps0_1_main_v6 (W1 m ρ c)).trans (s0_v6 (W0 m ρ c))]
  rfl

/-! ## The first region: the projected features -/

theorem W4_v31 : (W4 m ρ c (Proc.devRef .tc main_v31) : S100000x128.Idx → EReal) = Cert.ReferenceIdeal.RefRun.proj (a0 m c) (a2 m c) := by
  funext i
  obtain ⟨r, j, rfl⟩ : ∃ (r : Fin 100000) (j : Fin 128), i = ix2 r j := ⟨i 0, i 1, eq_ix2 i⟩
  rw [show W4 m ρ c (Proc.devRef .tc main_v31) = _ from W4_arr m ρ c 2]
  exact (Region0.value_at (V3 m ρ) c _ _ (W3_main_arg0 m ρ c) (W3_main_arg2 m ρ c) r j).trans (Cert.ReferenceIdeal.RefRead.proj_apply _ _ r j).symm

/-! ## Between the first and the second region: the weighted aggregate and the bias row -/

theorem W5_v44 : W5 m ρ c (Proc.devRef .tc main_v44) = Cert.ReferenceIdeal.RefRun.agg (a1 m c) (Cert.ReferenceIdeal.RefRun.proj (a0 m c) (a2 m c)) := by
  refine (s1_v44 (W4 m ρ c)).trans ?_
  rw [W4_v31 m ρ c, show W4 m ρ c (Proc.devRef .tc main_v6) = _ from (W4_of_ne m ρ c main_v6 (by decide)).trans (W3_v6 m ρ c),
    show W4 m ρ c (Proc.devRef .tc main_v3) = _ from (W4_of_ne m ρ c main_v3 (by decide)).trans (W3_v3 m ρ c),
    show W4 m ρ c (Proc.devRef .tc main_v30) = _ from (W4_of_ne m ρ c main_v30 (by decide)).trans (W3_v30 m ρ c)]
  rfl
theorem W5_v45 : W5 m ρ c (Proc.devRef .tc main_v45) = shapeCast S1x128 (a3 m c) shapeCasts_S128_S1x128 := by
  refine (s1_v45 (W4 m ρ c)).trans ?_
  rw [W4_main_arg3 m ρ c]

/-! ## The second region: the first layer before normalisation, its column sums and sums of squares -/

/-- The first layer before normalisation, as the reference's stages of the argument arrays. -/
def H1 : FVec Ideal S100000x128 .f32 := Cert.ReferenceIdeal.RefRun.h1 (Cert.ReferenceIdeal.RefRun.agg (a1 m c) (Cert.ReferenceIdeal.RefRun.proj (a0 m c) (a2 m c))) (a3 m c)

theorem h1_at (r : Fin 100000) (j : Fin 128) :
    Region1.inA (V5 m ρ) c (ix2 r j) + Region1.inB (V5 m ρ) c (ix2 (0 : Fin 1) j) = H1 m c (ix2 r j) := by
  rw [show Region1.inA (V5 m ρ) c = _ from W5_v44 m ρ c, show Region1.inB (V5 m ρ) c = _ from W5_v45 m ρ c, shapeCast_a_1a_apply]
  exact (Cert.ReferenceIdeal.RefRead.h1_apply _ _ r j).symm

theorem W6_v46_0 : (W6 m ρ c (Proc.devRef .tc main_v46_0) : S100000x128.Idx → EReal) = H1 m c := by
  funext i
  obtain ⟨r, j, rfl⟩ : ∃ (r : Fin 100000) (j : Fin 128), i = ix2 r j := ⟨i 0, i 1, eq_ix2 i⟩
  rw [show W6 m ρ c (Proc.devRef .tc main_v46_0) = _ from W6_arr m ρ c 2, Region1.arr2_eq (V5 m ρ) c, Region1.out2_apply]
  exact h1_at m ρ c r j
theorem W6_v46_1 (u : Fin 1) (j : Fin 128) :
    (W6 m ρ c (Proc.devRef .tc main_v46_1) : S1x128.Idx → EReal) (ix2 u j) = (∑ r : Fin 100000, H1 m c (ix2 r j) : EReal) := by
  rw [show W6 m ρ c (Proc.devRef .tc main_v46_1) = _ from W6_arr m ρ c 3, Region1.arr3_eq (V5 m ρ) c, Region1.out3_apply]
  show (∑ r : Fin 100000, (Region1.inA (V5 m ρ) c (ix2 r j) + Region1.inB (V5 m ρ) c (ix2 (0 : Fin 1) j)) : EReal) = _
  exact Finset.sum_congr rfl fun r _ => h1_at m ρ c r j
theorem W6_v46_2 (u : Fin 1) (j : Fin 128) :
    (W6 m ρ c (Proc.devRef .tc main_v46_2) : S1x128.Idx → EReal) (ix2 u j) = (∑ r : Fin 100000, H1 m c (ix2 r j) * H1 m c (ix2 r j) : EReal) := by
  rw [show W6 m ρ c (Proc.devRef .tc main_v46_2) = _ from W6_arr m ρ c 4, Region1.arr4_eq (V5 m ρ) c, Region1.out4_apply]
  show (∑ r : Fin 100000, (Region1.inA (V5 m ρ) c (ix2 r j) + Region1.inB (V5 m ρ) c (ix2 (0 : Fin 1) j)) * (Region1.inA (V5 m ρ) c (ix2 r j) + Region1.inB (V5 m ρ) c (ix2 (0 : Fin 1) j)) : EReal) = _
  exact Finset.sum_congr rfl fun r _ => by rw [h1_at m ρ c r j]

/-! ## Between the second and the third region: the first scale and shift rows -/

/-- The column sums the second region leaves. -/
def S1 : FVec Ideal S1x128 .f32 := W6 m ρ c (Proc.devRef .tc main_v46_1)
/-- The column sums of squares the second region leaves. -/
def Q1 : FVec Ideal S1x128 .f32 := W6 m ρ c (Proc.devRef .tc main_v46_2)

theorem W7_v46_0 : W7 m ρ c (Proc.devRef .tc main_v46_0) = H1 m c := (keep_hostOps2_main_v46_0 (W6 m ρ c)).trans (W6_v46_0 m ρ c)
theorem W7_v57 : W7 m ρ c (Proc.devRef .tc main_v57) = scale128 (a4 m c) (S1 m ρ c) (Q1 m ρ c) := by
  refine (s2_v57 (W6 m ρ c)).trans ?_
  rw [W6_main_arg4 m ρ c]; rfl
theorem W7_v60 : W7 m ρ c (Proc.devRef .tc main_v60) = shift128 (a5 m c) (a4 m c) (S1 m ρ c) (Q1 m ρ c) := by
  refine (s2_v60 (W6 m ρ c)).trans ?_
  rw [W6_main_arg4 m ρ c, W6_main_arg5 m ρ c]; rfl
theorem W7_v61 : W7 m ρ c (Proc.devRef .tc main_v61) = shapeCast S1x64 (a7 m c) shapeCasts_S64_S1x64 := by
  refine (s2_v61 (W6 m ρ c)).trans ?_
  rw [W6_main_arg7 m ρ c]

/-! ## The third region: the second layer before normalisation, its column sums and sums of squares -/

/-- The second layer before normalisation, in the kernel's form: scale, shift, clamp, dense layer, bias. -/
def H2k (r : Fin 100000) (j : Fin 64) : EReal :=
  Region2.oOf (H1 m c) (scale128 (a4 m c) (S1 m ρ c) (Q1 m ρ c)) (shift128 (a5 m c) (a4 m c) (S1 m ρ c) (Q1 m ρ c)) (a6 m c)
    (shapeCast S1x64 (a7 m c) shapeCasts_S64_S1x64) r j

theorem o_eq (r : Fin 100000) (j : Fin 64) : Region2.o (V7 m ρ) c r j = H2k m ρ c r j := by
  unfold Region2.o H2k
  rw [show V7 m ρ c (Pipeline.arrRef spec2 0) = _ from W7_v46_0 m ρ c, show V7 m ρ c (Pipeline.arrRef spec2 1) = _ from W7_v57 m ρ c,
    show V7 m ρ c (Pipeline.arrRef spec2 2) = _ from W7_v60 m ρ c, show V7 m ρ c (Pipeline.arrRef spec2 3) = _ from W7_main_arg6 m ρ c,
    show V7 m ρ c (Pipeline.arrRef spec2 4) = _ from W7_v61 m ρ c]

theorem W8_v62_0 (r : Fin 100000) (j : Fin 64) :
    (W8 m ρ c (Proc.devRef .tc main_v62_0) : S100000x64.Idx → EReal) (ix2 r j) = H2k m ρ c r j := by
  rw [show W8 m ρ c (Proc.devRef .tc main_v62_0) = _ from W8_arr m ρ c 5, Region2.arr5 (V7 m ρ) c r j, o_eq]
theorem W8_v62_1 (u : Fin 1) (j : Fin 64) :
    (W8 m ρ c (Proc.devRef .tc main_v62_1) : S1x64.Idx → EReal) (ix2 u j) = (∑ r : Fin 100000, H2k m ρ c r j : EReal) := by
  rw [show W8 m ρ c (Proc.devRef .tc main_v62_1) = _ from W8_arr m ρ c 6, Region2.arr6 (V7 m ρ) c u j]
  show (0 + ∑ r : Fin 100000, Region2.o (V7 m ρ) c r j : EReal) = _
  rw [zero_add]
  exact Finset.sum_congr rfl fun r _ => o_eq m ρ c r j
theorem W8_v62_2 (u : Fin 1) (j : Fin 64) :
    (W8 m ρ c (Proc.devRef .tc main_v62_2) : S1x64.Idx → EReal) (ix2 u j) = (∑ r : Fin 100000, H2k m ρ c r j * H2k m ρ c r j : EReal) := by
  rw [show W8 m ρ c (Proc.devRef .tc main_v62_2) = _ from W8_arr m ρ c 7, Region2.arr7 (V7 m ρ) c u j]
  show (0 + ∑ r : Fin 100000, Region2.o (V7 m ρ) c r j * Region2.o (V7 m ρ) c r j : EReal) = _
  rw [zero_add]
  exact Finset.sum_congr rfl fun r _ => by rw [o_eq m ρ c r j]

end Cert.KernelIdeal.KChain

end
-- ==== Proof.BNFinite.lean ====
/-
  Finiteness of a normalised column. For a finite column `h` of `n > 0` entries, finite `γ`, `β` and `ε > 0`, the
  normalised entry `((h r − μ) · ρ(v + ε)) · γ + β` (`μ` the mean, `v` the mean of the squared deviations, `ρ` the
  reciprocal square root) is a real number: `v ≥ 0`, so `v + ε > 0` and `ρ` of it is the real `(√(v+ε))⁻¹`.
-/
import proofs.«129438_j27745488732760_1_alg».proof.Proof.BNMath

open scoped BigOperators

namespace BNMath

open Idealize.ShloMosaic

theorem bn_ref_isR {n : ℕ} (hn : 0 < n) (h : Fin n → EReal) (hh : ∀ i, IsR (h i)) (γ β ε : EReal)
    (hγ : IsR γ) (hβ : IsR β) (hε : ∃ e : ℝ, 0 < e ∧ ε = (e : EReal)) (r : Fin n) :
    IsR (((h r - Ideal.div (∑ i, h i) ((n : ℝ) : EReal))
          * Ideal.rsqrt (Ideal.div (∑ i, (h i - Ideal.div (∑ i, h i) ((n : ℝ) : EReal))
              * (h i - Ideal.div (∑ i, h i) ((n : ℝ) : EReal))) ((n : ℝ) : EReal) + ε)) * γ + β) := by
  have hn' : (n : ℝ) ≠ 0 := by exact_mod_cast hn.ne'
  choose f hf using hh
  obtain ⟨e, he, rfl⟩ := hε
  have hfun : h = fun i => (f i : EReal) := funext hf
  subst hfun
  have hsum : (∑ i, (f i : EReal)) = ((∑ i, f i : ℝ) : EReal) := (coe_sum _ _).symm
  rw [hsum, div_coe_coe _ hn']
  set μ : ℝ := (∑ i, f i) / (n : ℝ)
  have hdev : (∑ i, ((f i : EReal) - (μ : EReal)) * ((f i : EReal) - (μ : EReal)))
      = ((∑ i, (f i - μ) * (f i - μ) : ℝ) : EReal) := by
    rw [coe_sum]; exact Finset.sum_congr rfl fun i _ => by rw [← EReal.coe_sub, ← EReal.coe_mul]
  rw [hdev, div_coe_coe _ hn', ← EReal.coe_add]
  have hpos : 0 < (∑ i, (f i - μ) * (f i - μ)) / (n : ℝ) + e := add_pos_of_nonneg_of_pos (var_nonneg f μ) he
  rw [rsqrt_coe_pos hpos]
  exact (((isR_coe _).sub (isR_coe _)).mul (isR_coe _)).mul hγ |>.add hβ

theorem isR_max_zero {x : EReal} (hx : IsR x) : IsR (max x 0) := hx.max isR_zero

end BNMath
-- ==== Proof.KBridge.lean ====
/-
  The normalisation, in the kernel's form and in the reference's. The kernel turns a column sum `s` and a column
  sum of squares `q` over the 100000 rows into a scale `γ · ρ(q/n − (s/n)² + ε)` and a shift `β − (s/n) · scale`
  (`ρ` the reciprocal square root), and computes `max (h · scale + shift) 0`; the reference computes
  `max (((h − μ) · ρ(v + ε)) · γ + β) 0` with `μ` the column mean and `v` the mean of the squared deviations. On a
  finite array the two agree (the extended-real law is `BNMath.bn_forms`), and the value is finite.
-/
import proofs.«129438_j27745488732760_1_alg».proof.Proof.KHost
import proofs.«129438_j27745488732760_1_alg».proof.Proof.RefRead
import proofs.«129438_j27745488732760_1_alg».proof.Proof.BNMath
import proofs.«129438_j27745488732760_1_alg».proof.Proof.BNFinite
import Idealize.ShloMosaic.Lib.ValueLayout
import Idealize.ShloMosaic.Lib.IdealHost

set_option maxRecDepth 16384

noncomputable section

namespace Cert.KernelIdeal.KBridge

open Idealize.ShloMosaic Idealize.ShloMosaic.ValueIdx
open Cert.KernelIdeal Cert.KernelIdeal.Gen Cert.KernelIdeal.KHost BNMath
open scoped BigOperators

/-- The small positive constant added to a variance, as the extended real its word denotes. -/
abbrev epsE : EReal := Ideal.ofBits .f32 0x3727C5AC#32

theorem hostRsqrt_apply {s : Shape} {φ : FTy} (x : FVec Ideal s φ) (i : s.Idx) : Host.rsqrt x i = Ideal.rsqrt (x i) := rfl

/-! ## Width 128 -/

theorem mean128_apply (s : FVec Ideal S1x128 .f32) (u : Fin 1) (k : Fin 128) :
    mean128 s (ix2 u k) = Ideal.div (s (ix2 u k)) ((100000 : ℝ) : EReal) := by
  unfold mean128
  rw [hostDivf_apply, broadcastInDim_scalar_apply, constant_apply, Cert.ReferenceIdeal.RefRead.nodes_val]

theorem scale128_apply (γ : FVec Ideal S128 .f32) (s q : FVec Ideal S1x128 .f32) (u : Fin 1) (k : Fin 128) :
    scale128 γ s q (ix2 u k) = γ (ix1 k) * Ideal.rsqrt ((Ideal.div (q (ix2 u k)) ((100000 : ℝ) : EReal)
        - Ideal.div (s (ix2 u k)) ((100000 : ℝ) : EReal) * Ideal.div (s (ix2 u k)) ((100000 : ℝ) : EReal)) + epsE) := by
  unfold scale128
  rw [mulf_apply, hostRsqrt_apply, addf_apply, subf_apply, mulf_apply, mean128_apply, mean128_apply,
    broadcastInDim_scalar_apply, constant_apply, shapeCast_a_1a_apply]

theorem shift128_apply (β γ : FVec Ideal S128 .f32) (s q : FVec Ideal S1x128 .f32) (u : Fin 1) (k : Fin 128) :
    shift128 β γ s q (ix2 u k) = β (ix1 k) - Ideal.div (s (ix2 u k)) ((100000 : ℝ) : EReal) * scale128 γ s q (ix2 u k) := by
  unfold shift128
  rw [subf_apply, mulf_apply, mean128_apply, shapeCast_a_1a_apply]

/-- Scale, shift and clamp with the kernel's rows is the reference's normalise, scale, shift and clamp, on a finite
    array whose column sums and sums of squares the rows were made from. -/
theorem stage128 (H : FVec Ideal S100000x128 .f32) (γ β : FVec Ideal S128 .f32) (s q : FVec Ideal S1x128 .f32)
    (hs : ∀ k : Fin 128, s (ix2 (0 : Fin 1) k) = ∑ r : Fin 100000, H (ix2 r k))
    (hq : ∀ k : Fin 128, q (ix2 (0 : Fin 1) k) = ∑ r : Fin 100000, H (ix2 r k) * H (ix2 r k))
    (hH : ∀ i, IsR (H i)) (hγ : ∀ i, IsR (γ i)) (hβ : ∀ i, IsR (β i)) (r : Fin 100000) (k : Fin 128) :
    max (H (ix2 r k) * scale128 γ s q (ix2 (0 : Fin 1) k) + shift128 β γ s q (ix2 (0 : Fin 1) k)) 0
      = Cert.ReferenceIdeal.RefRun.act1 H γ β (ix2 r k) := by
  rw [Cert.ReferenceIdeal.RefRead.act1_apply, shift128_apply, scale128_apply, hs, hq]
  congr 1
  have h := bn_forms (n := 100000) (by norm_num) (fun r : Fin 100000 => H (ix2 r k)) (fun r => hH _) (γ (ix1 k)) (β (ix1 k)) epsE
    (hγ _) (hβ _) Cert.ReferenceIdeal.RefRead.eps_pos r
  simp only [Nat.cast_ofNat] at h
  exact h

/-- The reference's normalised, clamped value of a finite array is finite. -/
theorem act1_isR (H : FVec Ideal S100000x128 .f32) (γ β : FVec Ideal S128 .f32)
    (hH : ∀ i, IsR (H i)) (hγ : ∀ i, IsR (γ i)) (hβ : ∀ i, IsR (β i)) (r : Fin 100000) (k : Fin 128) :
    IsR (Cert.ReferenceIdeal.RefRun.act1 H γ β (ix2 r k)) := by
  rw [Cert.ReferenceIdeal.RefRead.act1_apply]
  refine isR_max_zero ?_
  have h := bn_ref_isR (n := 100000) (by norm_num) (fun r : Fin 100000 => H (ix2 r k)) (fun r => hH _) (γ (ix1 k)) (β (ix1 k)) epsE
    (hγ _) (hβ _) Cert.ReferenceIdeal.RefRead.eps_pos r
  simp only [Nat.cast_ofNat] at h
  exact h

/-! ## Width 64 -/

theorem mean64_apply (s : FVec Ideal S1x64 .f32) (u : Fin 1) (k : Fin 64) :
    mean64 s (ix2 u k) = Ideal.div (s (ix2 u k)) ((100000 : ℝ) : EReal) := by
  unfold mean64
  rw [hostDivf_apply, broadcastInDim_scalar_apply, constant_apply, Cert.ReferenceIdeal.RefRead.nodes_val]

theorem scale64_apply (γ : FVec Ideal S64 .f32) (s q : FVec Ideal S1x64 .f32) (u : Fin 1) (k : Fin 64) :
    scale64 γ s q (ix2 u k) = γ (ix1 k) * Ideal.rsqrt ((Ideal.div (q (ix2 u k)) ((100000 : ℝ) : EReal)
        - Ideal.div (s (ix2 u k)) ((100000 : ℝ) : EReal) * Ideal.div (s (ix2 u k)) ((100000 : ℝ) : EReal)) + epsE) := by
  unfold scale64
  rw [mulf_apply, hostRsqrt_apply, addf_apply, subf_apply, mulf_apply, mean64_apply, mean64_apply,
    broadcastInDim_scalar_apply, constant_apply, shapeCast_a_1a_apply]

theorem shift64_apply (β γ : FVec Ideal S64 .f32) (s q : FVec Ideal S1x64 .f32) (u : Fin 1) (k : Fin 64) :
    shift64 β γ s q (ix2 u k) = β (ix1 k) - Ideal.div (s (ix2 u k)) ((100000 : ℝ) : EReal) * scale64 γ s q (ix2 u k) := by
  unfold shift64
  rw [subf_apply, mulf_apply, mean64_apply, shapeCast_a_1a_apply]

/-- Scale, shift and clamp with the kernel's rows is the reference's normalise, scale, shift and clamp, on a finite
    array whose column sums and sums of squares the rows were made from. -/
theorem stage64 (H : FVec Ideal S100000x64 .f32) (γ β : FVec Ideal S64 .f32) (s q : FVec Ideal S1x64 .f32)
    (hs : ∀ k : Fin 64, s (ix2 (0 : Fin 1) k) = ∑ r : Fin 100000, H (ix2 r k))
    (hq : ∀ k : Fin 64, q (ix2 (0 : Fin 1) k) = ∑ r : Fin 100000, H (ix2 r k) * H (ix2 r k))
    (hH : ∀ i, IsR (H i)) (hγ : ∀ i, IsR (γ i)) (hβ : ∀ i, IsR (β i)) (r : Fin 100000) (k : Fin 64) :
    max (H (ix2 r k) * scale64 γ s q (ix2 (0 : Fin 1) k) + shift64 β γ s q (ix2 (0 : Fin 1) k)) 0
      = Cert.ReferenceIdeal.RefRun.act2 H γ β (ix2 r k) := by
  rw [Cert.ReferenceIdeal.RefRead.act2_apply, shift64_apply, scale64_apply, hs, hq]
  congr 1
  have h := bn_forms (n := 100000) (by norm_num) (fun r : Fin 100000 => H (ix2 r k)) (fun r => hH _) (γ (ix1 k)) (β (ix1 k)) epsE
    (hγ _) (hβ _) Cert.ReferenceIdeal.RefRead.eps_pos r
  simp only [Nat.cast_ofNat] at h
  exact h

/-- The reference's normalised, clamped value of a finite array is finite. -/
theorem act2_isR (H : FVec Ideal S100000x64 .f32) (γ β : FVec Ideal S64 .f32)
    (hH : ∀ i, IsR (H i)) (hγ : ∀ i, IsR (γ i)) (hβ : ∀ i, IsR (β i)) (r : Fin 100000) (k : Fin 64) :
    IsR (Cert.ReferenceIdeal.RefRun.act2 H γ β (ix2 r k)) := by
  rw [Cert.ReferenceIdeal.RefRead.act2_apply]
  refine isR_max_zero ?_
  have h := bn_ref_isR (n := 100000) (by norm_num) (fun r : Fin 100000 => H (ix2 r k)) (fun r => hH _) (γ (ix1 k)) (β (ix1 k)) epsE
    (hγ _) (hβ _) Cert.ReferenceIdeal.RefRead.eps_pos r
  simp only [Nat.cast_ofNat] at h
  exact h

end Cert.KernelIdeal.KBridge

end
-- ==== Proof.KFinal.lean ====
/-
  The idealized kernel's result as the reference's function of the argument arrays. With every float argument
  finite: the first layer's values are finite (finite sums of finite products through the projection, the gathers
  and the scatter-add), so the kernel's scale–shift–clamp of them is the reference's normalise–clamp; the second
  layer's values are then the reference's and finite, and the same holds once more; the last region's dense layer
  of the clamped values is the reference's last stage.
-/
import proofs.«129438_j27745488732760_1_alg».proof.Proof.KChain
import proofs.«129438_j27745488732760_1_alg».proof.Proof.KBridge

set_option maxRecDepth 16384

noncomputable section

namespace Cert.KernelIdeal.KFinal

open Idealize.ShloMosaic Idealize.ShloMosaic.TcCoe Idealize.SL.Sem Idealize.ShloMosaic.ValueIdx
open Cert.KernelIdeal Cert.KernelIdeal.Gen Cert.KernelIdeal.KHost Cert.KernelIdeal.KChain Cert.KernelIdeal.KBridge BNMath
open scoped BigOperators

variable (m : (ℓ : Loc nD τ sig) → Buf (Elt Ideal) ℓ) (ρ : Dev nD → PrngReg) (c : Dev nD)

/-- Every float argument array holds real numbers. -/
def FiniteArgs : Prop := (∀ i, IsR (a0 m c i)) ∧ (∀ i, IsR (a2 m c i)) ∧ (∀ i, IsR (a3 m c i)) ∧ (∀ i, IsR (a4 m c i)) ∧ (∀ i, IsR (a5 m c i)) ∧ (∀ i, IsR (a6 m c i)) ∧ (∀ i, IsR (a7 m c i)) ∧ (∀ i, IsR (a8 m c i)) ∧ (∀ i, IsR (a9 m c i)) ∧ (∀ i, IsR (a10 m c i)) ∧ (∀ i, IsR (a11 m c i))

theorem H1_isR (hf : FiniteArgs m c) : ∀ i, IsR (H1 m c i) := by
  obtain ⟨h0, h2, h3, h4, h5, h6, h7, h8, h9, h10, h11⟩ := hf
  exact Cert.ReferenceIdeal.RefRead.h1_isR _ _ (Cert.ReferenceIdeal.RefRead.agg_isR _ _ (Cert.ReferenceIdeal.RefRead.proj_isR _ _ h0 h2)) h3

/-- The second layer before normalisation, as the reference's stages of the argument arrays. -/
def H2 : FVec Ideal S100000x64 .f32 := Cert.ReferenceIdeal.RefRun.h2 (Cert.ReferenceIdeal.RefRun.act1 (H1 m c) (a4 m c) (a5 m c)) (a6 m c) (a7 m c)

theorem S1_at (k : Fin 128) : S1 m ρ c (ix2 (0 : Fin 1) k) = ∑ r : Fin 100000, H1 m c (ix2 r k) := W6_v46_1 m ρ c 0 k
theorem Q1_at (k : Fin 128) : Q1 m ρ c (ix2 (0 : Fin 1) k) = ∑ r : Fin 100000, H1 m c (ix2 r k) * H1 m c (ix2 r k) := W6_v46_2 m ρ c 0 k

theorem H2k_eq (hf : FiniteArgs m c) (r : Fin 100000) (j : Fin 64) : H2k m ρ c r j = H2 m c (ix2 r j) := by
  have hH := H1_isR m c hf
  obtain ⟨h0, h2, h3, h4, h5, h6, h7, h8, h9, h10, h11⟩ := hf
  have key : ∀ k : Fin 128, max (H1 m c (ix2 r k) * scale128 (a4 m c) (S1 m ρ c) (Q1 m ρ c) (ix2 (0 : Fin 1) k)
        + shift128 (a5 m c) (a4 m c) (S1 m ρ c) (Q1 m ρ c) (ix2 (0 : Fin 1) k)) 0
      = Cert.ReferenceIdeal.RefRun.act1 (H1 m c) (a4 m c) (a5 m c) (ix2 r k) :=
    fun k => stage128 (H1 m c) (a4 m c) (a5 m c) (S1 m ρ c) (Q1 m ρ c) (S1_at m ρ c) (Q1_at m ρ c) hH h4 h5 r k
  unfold H2k Region2.oOf H2
  rw [Cert.ReferenceIdeal.RefRead.h2_apply, shapeCast_a_1a_apply]
  simp only [key]

theorem H2_isR (hf : FiniteArgs m c) : ∀ i, IsR (H2 m c i) := by
  have hH := H1_isR m c hf
  obtain ⟨h0, h2, h3, h4, h5, h6, h7, h8, h9, h10, h11⟩ := hf
  intro i
  obtain ⟨r, j, rfl⟩ : ∃ (r : Fin 100000) (j : Fin 64), i = ix2 r j := ⟨i 0, i 1, eq_ix2 i⟩
  unfold H2
  rw [Cert.ReferenceIdeal.RefRead.h2_apply]
  exact (isR_sum _ _ fun k _ => (act1_isR _ _ _ hH h4 h5 r k).mul (h6 _)).add (h7 _)

/-- The column sums the third region leaves. -/
def S2 : FVec Ideal S1x64 .f32 := W8 m ρ c (Proc.devRef .tc main_v62_1)
/-- The column sums of squares the third region leaves. -/
def Q2 : FVec Ideal S1x64 .f32 := W8 m ρ c (Proc.devRef .tc main_v62_2)

theorem S2_at (hf : FiniteArgs m c) (k : Fin 64) : S2 m ρ c (ix2 (0 : Fin 1) k) = ∑ r : Fin 100000, H2 m c (ix2 r k) :=
by
  refine Eq.trans (W8_v62_1 m ρ c 0 k) ?_
  show (∑ r : Fin 100000, H2k m ρ c r k : EReal) = _
  exact Finset.sum_congr rfl fun r _ => H2k_eq m ρ c hf r k
theorem Q2_at (hf : FiniteArgs m c) (k : Fin 64) :
    Q2 m ρ c (ix2 (0 : Fin 1) k) = ∑ r : Fin 100000, H2 m c (ix2 r k) * H2 m c (ix2 r k) :=
by
  refine Eq.trans (W8_v62_2 m ρ c 0 k) ?_
  show (∑ r : Fin 100000, H2k m ρ c r k * H2k m ρ c r k : EReal) = _
  exact Finset.sum_congr rfl fun r _ => by rw [H2k_eq m ρ c hf r k]

/-! ## Between the third and the fourth region: the second scale and shift rows -/

theorem W9_v62_0 : W9 m ρ c (Proc.devRef .tc main_v62_0) = W8 m ρ c (Proc.devRef .tc main_v62_0) := keep_hostOps3_main_v62_0 (W8 m ρ c)
theorem W9_v73 : W9 m ρ c (Proc.devRef .tc main_v73) = scale64 (a8 m c) (S2 m ρ c) (Q2 m ρ c) := by
  refine (s3_v73 (W8 m ρ c)).trans ?_
  rw [W8_main_arg8 m ρ c]; rfl
theorem W9_v76 : W9 m ρ c (Proc.devRef .tc main_v76) = shift64 (a9 m c) (a8 m c) (S2 m ρ c) (Q2 m ρ c) := by
  refine (s3_v76 (W8 m ρ c)).trans ?_
  rw [W8_main_arg8 m ρ c, W8_main_arg9 m ρ c]; rfl
theorem W9_v77 : W9 m ρ c (Proc.devRef .tc main_v77) = shapeCast S1x64 (a11 m c) shapeCasts_S64_S1x64 := by
  refine (s3_v77 (W8 m ρ c)).trans ?_
  rw [W8_main_arg11 m ρ c]

/-! ## The fourth region: the result -/

theorem W10_v78 (hf : FiniteArgs m c) (r : Fin 100000) (j : Fin 64) :
    (W10 m ρ c (Proc.devRef .tc main_v78) : S100000x64.Idx → EReal) (ix2 r j)
      = Cert.ReferenceIdeal.RefRun.out (Cert.ReferenceIdeal.RefRun.act2 (H2 m c) (a8 m c) (a9 m c)) (a10 m c) (a11 m c) (ix2 r j) := by
  have hH := H2_isR m c hf
  have hS := S2_at m ρ c hf
  have hQ := Q2_at m ρ c hf
  have hk := H2k_eq m ρ c hf
  obtain ⟨h0, h2, h3, h4, h5, h6, h7, h8, h9, h10, h11⟩ := hf
  rw [show W10 m ρ c (Proc.devRef .tc main_v78) = _ from W10_arr m ρ c 5,
    Region3.value_at (V9 m ρ) c _ _ _ _ _ (W9_v62_0 m ρ c) (W9_v73 m ρ c) (W9_v76 m ρ c) (W9_main_arg10 m ρ c) (W9_v77 m ρ c) r j,
    Cert.ReferenceIdeal.RefRead.out_apply, shapeCast_a_1a_apply]
  refine congrArg (fun x : EReal => x + _) (Finset.sum_congr rfl fun k _ => ?_)
  rw [W8_v62_0 m ρ c r k, hk r k, stage64 (H2 m c) (a8 m c) (a9 m c) (S2 m ρ c) (Q2 m ρ c) hS hQ hH h8 h9 r k]

/-- The kernel's result array is the reference's composed function of the kernel's own argument arrays. -/
theorem kernel_result (hf : FiniteArgs m c) :
    (W10 m ρ c (Proc.devRef .tc main_v78) : S100000x64.Idx → EReal)
      = Cert.ReferenceIdeal.RefRun.resultOf (a0 m c) (a1 m c) (a2 m c) (a3 m c) (a4 m c) (a5 m c) (a6 m c) (a7 m c) (a8 m c) (a9 m c) (a10 m c) (a11 m c) := by
  funext i
  obtain ⟨r, j, rfl⟩ : ∃ (r : Fin 100000) (j : Fin 64), i = ix2 r j := ⟨i 0, i 1, eq_ix2 i⟩
  rw [W10_v78 m ρ c hf r j]
  rfl

end Cert.KernelIdeal.KFinal

end
-- ==== Proof.RefRunOps.lean ====
/- The reference program's @main as a list of its host operations, the outlined functions' operations standing at
   their calls over the calls' buffer records, cut into four consecutive stretches; @main is the straight line over
   their concatenation; which buffers each stretch writes, so that every other buffer keeps its contents through it. -/
import proofs.«129438_j27745488732760_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lists of operations one after the other is running their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Stretch 1: the two index vectors, the degrees and their inverse square roots, the edge weights, the projection, the weighted
    sum over incoming edges and the bias (through %47), and the zero scalar the next stretch's column sum starts from. -/
abbrev K1 : List (HloOp τ sig (Elt F)) :=
  [ StableHlo.nullary main_v0 (iotaInDim S100000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.nullary main_cst (constant S_ .f32 0x3F800000#32),
    StableHlo.unary main_cst main_v7 (broadcastInDim S740000 ![] bcast_S_S740000 : (⟨S_, .f32⟩ : BufTy).Contents (Elt F) → (⟨S740000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S740000x1 ![0] bcast_S740000_S740000x1_0 : (⟨S740000, .i32⟩ : BufTy).Contents (Elt F) → (⟨S740000x1, .i32⟩ : BufTy).Contents (Elt F)),
    StableHlo.ternary main_v8 main_v9 main_v7 main_v10 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.unary main_cst_2 main_v14 (broadcastInDim S100000 ![] bcast_S_S100000 : (⟨S_, .f32⟩ : BufTy).Contents (Elt F) → (⟨S100000, .f32⟩ : BufTy).Contents (Elt F)),
    StableHlo.ternary main_v12 main_v13 main_v14 main_v15 ((select) : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v16 (broadcastInDim S740000 ![] bcast_S_S740000 : (⟨S_, .i32⟩ : BufTy).Contents (Elt F) → (⟨S740000, .i32⟩ : BufTy).Contents (Elt F)),
    StableHlo.binary main_v3 main_v16 main_v17 (cmpi .slt : (⟨S740000, .i32⟩ : BufTy).Contents (Elt F) → (⟨S740000, .i32⟩ : BufTy).Contents (Elt F) → (⟨S740000, .i1⟩ : BufTy).Contents (Elt F)),
    StableHlo.nullary main_c_3 (constantI S_ 32 100000#32),
    StableHlo.unary main_c_3 main_v18 (broadcastInDim S740000 ![] bcast_S_S740000 : (⟨S_, .i32⟩ : BufTy).Contents (Elt F) → (⟨S740000, .i32⟩ : BufTy).Contents (Elt F)),
    StableHlo.binary main_v3 main_v18 main_v19 (addi : (⟨S740000, .i32⟩ : BufTy).Contents (Elt F) → (⟨S740000, .i32⟩ : BufTy).Contents (Elt F) → (⟨S740000, .i32⟩ : BufTy).Contents (Elt F)),
    StableHlo.ternary main_v17 main_v19 main_v3 main_v20 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v20 main_v21 (broadcastInDim S740000x1 ![0] bcast_S740000_S740000x1_0 : (⟨S740000, .i32⟩ : BufTy).Contents (Elt F) → (⟨S740000x1, .i32⟩ : BufTy).Contents (Elt F)),
    StableHlo.binary main_v15 main_v21 main_v22 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.nullary main_c_4 (constantI S_ 32 0#32),
    StableHlo.unary main_c_4 main_v23 (broadcastInDim S740000 ![] bcast_S_S740000 : (⟨S_, .i32⟩ : BufTy).Contents (Elt F) → (⟨S740000, .i32⟩ : BufTy).Contents (Elt F)),
    StableHlo.binary main_v6 main_v23 main_v24 (cmpi .slt : (⟨S740000, .i32⟩ : BufTy).Contents (Elt F) → (⟨S740000, .i32⟩ : BufTy).Contents (Elt F) → (⟨S740000, .i1⟩ : BufTy).Contents (Elt F)),
    StableHlo.nullary main_c_5 (constantI S_ 32 100000#32),
    StableHlo.unary main_c_5 main_v25 (broadcastInDim S740000 ![] bcast_S_S740000 : (⟨S_, .i32⟩ : BufTy).Contents (Elt F) → (⟨S740000, .i32⟩ : BufTy).Contents (Elt F)),
    StableHlo.binary main_v6 main_v25 main_v26 (addi : (⟨S740000, .i32⟩ : BufTy).Contents (Elt F) → (⟨S740000, .i32⟩ : BufTy).Contents (Elt F) → (⟨S740000, .i32⟩ : BufTy).Contents (Elt F)),
    StableHlo.ternary main_v24 main_v26 main_v6 main_v27 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v27 main_v28 (broadcastInDim S740000x1 ![0] bcast_S740000_S740000x1_0 : (⟨S740000, .i32⟩ : BufTy).Contents (Elt F) → (⟨S740000x1, .i32⟩ : BufTy).Contents (Elt F)),
    StableHlo.binary main_v15 main_v28 main_v29 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v22 main_v29 main_v30 (mulf : (⟨S740000, .f32⟩ : BufTy).Contents (Elt F) → (⟨S740000, .f32⟩ : BufTy).Contents (Elt F) → (⟨S740000, .f32⟩ : BufTy).Contents (Elt F)),
    StableHlo.binary main_arg0 main_arg2 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_6 (constantI S_ 32 0#32),
    StableHlo.unary main_c_6 main_v32 (broadcastInDim S740000 ![] bcast_S_S740000 : (⟨S_, .i32⟩ : BufTy).Contents (Elt F) → (⟨S740000, .i32⟩ : BufTy).Contents (Elt F)),
    StableHlo.binary main_v3 main_v32 main_v33 (cmpi .slt : (⟨S740000, .i32⟩ : BufTy).Contents (Elt F) → (⟨S740000, .i32⟩ : BufTy).Contents (Elt F) → (⟨S740000, .i1⟩ : BufTy).Contents (Elt F)),
    StableHlo.nullary main_c_7 (constantI S_ 32 100000#32),
    StableHlo.unary main_c_7 main_v34 (broadcastInDim S740000 ![] bcast_S_S740000 : (⟨S_, .i32⟩ : BufTy).Contents (Elt F) → (⟨S740000, .i32⟩ : BufTy).Contents (Elt F)),
    StableHlo.binary main_v3 main_v34 main_v35 (addi : (⟨S740000, .i32⟩ : BufTy).Contents (Elt F) → (⟨S740000, .i32⟩ : BufTy).Contents (Elt F) → (⟨S740000, .i32⟩ : BufTy).Contents (Elt F)),
    StableHlo.ternary main_v33 main_v35 main_v3 main_v36 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v36 main_v37 (broadcastInDim S740000x1 ![0] bcast_S740000_S740000x1_0 : (⟨S740000, .i32⟩ : BufTy).Contents (Elt F) → (⟨S740000x1, .i32⟩ : BufTy).Contents (Elt F)),
    StableHlo.binary main_v31 main_v37 main_v38 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v30 main_v39 (broadcastInDim S740000x1 ![0] bcast_S740000_S740000x1_0 : (⟨S740000, .f32⟩ : BufTy).Contents (Elt F) → (⟨S740000x1, .f32⟩ : BufTy).Contents (Elt F)),
    StableHlo.unary main_v39 main_v40 (broadcastInDim S740000x128 ![0, 1] bcast_S740000x1_S740000x128_0_1 : (⟨S740000x1, .f32⟩ : BufTy).Contents (Elt F) → (⟨S740000x128, .f32⟩ : BufTy).Contents (Elt F)),
    StableHlo.binary main_v38 main_v40 main_v41 (mulf : (⟨S740000x128, .f32⟩ : BufTy).Contents (Elt F) → (⟨S740000x128, .f32⟩ : BufTy).Contents (Elt F) → (⟨S740000x128, .f32⟩ : BufTy).Contents (Elt F)),
    StableHlo.nullary main_cst_8 (constant S_ .f32 0x00000000#32),
    StableHlo.unary main_cst_8 main_v42 (broadcastInDim S100000x128 ![] bcast_S_S100000x128 : (⟨S_, .f32⟩ : BufTy).Contents (Elt F) → (⟨S100000x128, .f32⟩ : BufTy).Contents (Elt F)),
    StableHlo.unary main_v6 main_v43 (broadcastInDim S740000x1 ![0] bcast_S740000_S740000x1_0 : (⟨S740000, .i32⟩ : BufTy).Contents (Elt F) → (⟨S740000x1, .i32⟩ : BufTy).Contents (Elt F)),
    StableHlo.ternary main_v42 main_v43 main_v41 main_v44 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.unary main_arg3 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x00000000#32) ]

/-- Stretch 2: the column means and variances of %47, the normalisation, scale, shift and clamp (through %67). -/
abbrev K2 : List (HloOp τ sig (Elt F)) :=
  [ StableHlo.binary main_v47 main_cst_9 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call1.cst (constant S_ .f32 0x00000000#32),
    StableHlo.TRef.binary (StableHlo.TRef.of main_v47 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (StableHlo.TRef.of main_v47 : StableHlo.TRef sig ⟨S100000x128, .f32⟩) main_call1.v4 main_call1.v5 subf,
    StableHlo.TRef.binary main_call1.v5 main_call1.v5 main_call1.v6 mulf,
    StableHlo.TRef.unary (StableHlo.TRef.of main_c_11 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v53 main_v54 (subf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v55 (broadcastInDim S128 ![] bcast_S_S128 : (⟨S_, .f32⟩ : BufTy).Contents (Elt F) → (⟨S128, .f32⟩ : BufTy).Contents (Elt F)),
    StableHlo.binary main_v51 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg4 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (mulf : (⟨S100000x128, .f32⟩ : BufTy).Contents (Elt F) → (⟨S100000x128, .f32⟩ : BufTy).Contents (Elt F) → (⟨S100000x128, .f32⟩ : BufTy).Contents (Elt F)),
    StableHlo.unary main_arg5 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (StableHlo.TRef.of main_v66 : StableHlo.TRef sig ⟨S100000x128, .f32⟩) main_call2.v0 main_call2.v1 maximumf ]

/-- Stretch 3: the dense layer 128 → 64 with bias, its column means and variances, normalisation, scale, shift and clamp (through %91). -/
abbrev K3 : List (HloOp τ sig (Elt F)) :=
  [ StableHlo.binary main_v67 main_arg6 main_v68 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg7 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v70 main_v71 (addf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x00000000#32),
    StableHlo.binary main_v71 main_cst_13 main_v72 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_14 (constant S_ .f32 0x47C35000#32),
    StableHlo.unary main_cst_14 main_v73 (broadcastInDim S64 ![] bcast_S_S64 : (⟨S_, .f32⟩ : BufTy).Contents (Elt F) → (⟨S64, .f32⟩ : BufTy).Contents (Elt F)),
    StableHlo.binary main_v72 main_v73 main_v74 (Host.divf : (⟨S64, .f32⟩ : BufTy).Contents (Elt F) → (⟨S64, .f32⟩ : BufTy).Contents (Elt F) → (⟨S64, .f32⟩ : BufTy).Contents (Elt F)),
    StableHlo.nullary main_c_15 (constantI S_ 32 0#32),
    StableHlo.TRef.nullary main_call3.cst (constant S_ .f32 0x00000000#32),
    StableHlo.TRef.binary (StableHlo.TRef.of main_v71 : StableHlo.TRef sig ⟨S100000x64, .f32⟩) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (StableHlo.TRef.of main_v71 : StableHlo.TRef sig ⟨S100000x64, .f32⟩) main_call3.v4 main_call3.v5 subf,
    StableHlo.TRef.binary main_call3.v5 main_call3.v5 main_call3.v6 mulf,
    StableHlo.TRef.unary (StableHlo.TRef.of main_c_15 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v74 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v71 main_v77 main_v78 (subf : (⟨S100000x64, .f32⟩ : BufTy).Contents (Elt F) → (⟨S100000x64, .f32⟩ : BufTy).Contents (Elt F) → (⟨S100000x64, .f32⟩ : BufTy).Contents (Elt F)),
    StableHlo.nullary main_cst_16 (constant S_ .f32 0x3727C5AC#32),
    StableHlo.unary main_cst_16 main_v79 (broadcastInDim S64 ![] bcast_S_S64 : (⟨S_, .f32⟩ : BufTy).Contents (Elt F) → (⟨S64, .f32⟩ : BufTy).Contents (Elt F)),
    StableHlo.binary main_v75 main_v79 main_v80 (addf : (⟨S64, .f32⟩ : BufTy).Contents (Elt F) → (⟨S64, .f32⟩ : BufTy).Contents (Elt F) → (⟨S64, .f32⟩ : BufTy).Contents (Elt F)),
    StableHlo.unary main_v80 main_v81 (Host.rsqrt : (⟨S64, .f32⟩ : BufTy).Contents (Elt F) → (⟨S64, .f32⟩ : BufTy).Contents (Elt F)),
    StableHlo.unary main_v81 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v83 main_v84 (mulf : (⟨S100000x64, .f32⟩ : BufTy).Contents (Elt F) → (⟨S100000x64, .f32⟩ : BufTy).Contents (Elt F) → (⟨S100000x64, .f32⟩ : BufTy).Contents (Elt F)),
    StableHlo.unary main_arg8 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v86 main_v87 (mulf : (⟨S100000x64, .f32⟩ : BufTy).Contents (Elt F) → (⟨S100000x64, .f32⟩ : BufTy).Contents (Elt F) → (⟨S100000x64, .f32⟩ : BufTy).Contents (Elt F)),
    StableHlo.unary main_arg9 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S100000x64 ![0, 1] bcast_S1x64_S100000x64_0_1 : (⟨S1x64, .f32⟩ : BufTy).Contents (Elt F) → (⟨S100000x64, .f32⟩ : BufTy).Contents (Elt F)),
    StableHlo.binary main_v87 main_v89 main_v90 (addf : (⟨S100000x64, .f32⟩ : BufTy).Contents (Elt F) → (⟨S100000x64, .f32⟩ : BufTy).Contents (Elt F) → (⟨S100000x64, .f32⟩ : BufTy).Contents (Elt F)),
    StableHlo.TRef.nullary main_call4.cst (constant S_ .f32 0x00000000#32),
    StableHlo.TRef.unary main_call4.cst main_call4.v0 (broadcastInDim S100000x64 ![] bcast_S_S100000x64),
    StableHlo.TRef.binary (StableHlo.TRef.of main_v90 : StableHlo.TRef sig ⟨S100000x64, .f32⟩) main_call4.v0 main_call4.v1 maximumf ]

/-- Stretch 4: the last dense layer with bias (through %95). -/
abbrev K4 : List (HloOp τ sig (Elt F)) :=
  [ StableHlo.binary main_v91 main_arg10 main_v92 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg11 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S100000x64 ![0, 1] bcast_S1x64_S100000x64_0_1 : (⟨S1x64, .f32⟩ : BufTy).Contents (Elt F) → (⟨S100000x64, .f32⟩ : BufTy).Contents (Elt F)),
    StableHlo.binary main_v92 main_v94 main_v95 (addf : (⟨S100000x64, .f32⟩ : BufTy).Contents (Elt F) → (⟨S100000x64, .f32⟩ : BufTy).Contents (Elt F) → (⟨S100000x64, .f32⟩ : BufTy).Contents (Elt F)) ]

/-- @main's operations, in order. -/
abbrev ops : List (HloOp τ sig (Elt F)) := K1 ++ (K2 ++ (K3 ++ K4))

set_option maxRecDepth 8192 in
set_option maxHeartbeats 4000000 in
/-- The first window of @main is stretch 1: the one call unfolded, sequencing reassociated. -/
theorem part0_eq (c : Dev nD) : main_part0 (F := F) c = seq K1 := by
  simp only [main_part0, fn_where.body, seq, bind_assoc, pure_bind]
  rfl

set_option maxRecDepth 8192 in
set_option maxHeartbeats 4000000 in
/-- The second window of @main is stretches 2, 3 and 4 in a row: the calls unfolded (the variance's inner select too). -/
theorem part1_eq (c : Dev nD) : main_part1 (F := F) c = seq (K2 ++ (K3 ++ K4)) := by
  simp only [seq_append, main_part1, fn_var.body, fn_where_0.body, fn_relu.body, fn_var_1.body, fn_where_2.body, fn_relu_3.body, seq, bind_assoc, pure_bind]

/-- @main is the straight line over `ops`. -/
theorem main_eq (c : Dev nD) : main (F := F) c = seq ops := by
  show (main_part0 (F := F) c >>= fun _ => main_part1 (F := F) c) = seq (K1 ++ (K2 ++ (K3 ++ K4)))
  rw [seq_append, part0_eq, part1_eq]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem K1_sub : (K1 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..⟩

set_option maxRecDepth 8192 in
theorem K1_fresh : ∀ op ∈ (K1 : List (HloOp τ sig (Elt F))), op.fresh = ∅ := by
  intro _ h; (repeat (cases h with | head => rfl | tail _ h => ?_)); exact nomatch h

/-- The buffers stretch 1 writes. -/
abbrev K1_W : List (Ref sig .tc) :=
  [main_v0, main_v1, main_v2, main_v3, main_v4, main_v5, main_v6, main_cst,
    main_v7, main_cst_0, main_v8, main_v9, main_v10, main_cst_1, main_v11, main_v12,
    main_v13, main_cst_2, main_v14, main_v15, main_c, main_v16, main_v17, main_c_3,
    main_v18, main_v19, main_v20, main_v21, main_v22, main_c_4, main_v23, main_v24,
    main_c_5, main_v25, main_v26, main_v27, main_v28, main_v29, main_v30, main_v31,
    main_c_6, main_v32, main_v33, main_c_7, main_v34, main_v35, main_v36, main_v37,
    main_v38, main_v39, main_v40, main_v41, main_cst_8, main_v42, main_v43, main_v44,
    main_v45, main_v46, main_v47, main_cst_9]

set_option maxRecDepth 8192 in
theorem K1_writes : (K1 : List (HloOp τ sig (Elt F))).Forall fun op => op.writes ⊆ (K1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer stretch 1 does not write keeps its contents through it. -/
theorem K1_keep (V : Valuation τ sig (Elt F)) (r : Ref sig .tc) (h : r ∉ K1_W) :
    after K1 V (Proc.devRef .tc r) = V (Proc.devRef .tc r) :=
  after_of_writes_sub K1 V K1_writes h

set_option maxRecDepth 8192 in
theorem K2_sub : (K2 : List (HloOp τ sig (Elt F))).Forall fun op => op.bufs ⊆ tcRefs τ sig :=
  ⟨binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub ..⟩

set_option maxRecDepth 8192 in
theorem K2_fresh : ∀ op ∈ (K2 : List (HloOp τ sig (Elt F))), op.fresh = ∅ := by
  intro _ h; (repeat (cases h with | head => rfl | tail _ h => ?_)); exact nomatch h

/-- The buffers stretch 2 writes. -/
abbrev K2_W : List (Ref sig .tc) :=
  [main_v48, main_cst_10, main_v49, main_v50, main_c_11, main_call1_cst, main_call1_v0, main_call1_v1,
    main_call1_cst_0, main_call1_v2, main_call1_v3, main_call1_v4, main_call1_v5, main_call1_v6, main_call1_v7, main_call1_cst_1,
    main_call1_v8, main_call1_cst_2, main_call1_v9, main_call1_v10, main_call1_v11, main_call1_cst_3, main_call1_v12, main_call1_cst_4,
    main_call1_call0_v0, main_call1_call0_v1, main_v51, main_v52, main_v53, main_v54, main_cst_12, main_v55,
    main_v56, main_v57, main_v58, main_v59, main_v60, main_v61, main_v62, main_v63,
    main_v64, main_v65, main_v66, main_call2_cst, main_call2_v0, main_v67]

set_option maxRecDepth 8192 in
theorem K2_writes : (K2 : List (HloOp τ sig (Elt F))).Forall fun op => op.writes ⊆ (K2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer stretch 2 does not write keeps its contents through it. -/
theorem K2_keep (V : Valuation τ sig (Elt F)) (r : Ref sig .tc) (h : r ∉ K2_W) :
    after K2 V (Proc.devRef .tc r) = V (Proc.devRef .tc r) :=
  after_of_writes_sub K2 V K2_writes h

set_option maxRecDepth 8192 in
theorem K3_sub : (K3 : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩

set_option maxRecDepth 8192 in
theorem K3_fresh : ∀ op ∈ (K3 : List (HloOp τ sig (Elt F))), op.fresh = ∅ := by
  intro _ h; (repeat (cases h with | head => rfl | tail _ h => ?_)); exact nomatch h

/-- The buffers stretch 3 writes. -/
abbrev K3_W : List (Ref sig .tc) :=
  [main_v68, main_v69, main_v70, main_v71, main_cst_13, main_v72, main_cst_14, main_v73,
    main_v74, main_c_15, main_call3_cst, main_call3_v0, main_call3_v1, main_call3_cst_0, main_call3_v2, main_call3_v3,
    main_call3_v4, main_call3_v5, main_call3_v6, main_call3_v7, main_call3_cst_1, main_call3_v8, main_call3_cst_2, main_call3_v9,
    main_call3_v10, main_call3_v11, main_call3_cst_3, main_call3_v12, main_call3_cst_4, main_call3_call0_v0, main_call3_call0_v1, main_v75,
    main_v76, main_v77, main_v78, main_cst_16, main_v79, main_v80, main_v81, main_v82,
    main_v83, main_v84, main_v85, main_v86, main_v87, main_v88, main_v89, main_v90,
    main_call4_cst, main_call4_v0, main_v91]

set_option maxRecDepth 8192 in
theorem K3_writes : (K3 : List (HloOp τ sig (Elt F))).Forall fun op => op.writes ⊆ (K3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer stretch 3 does not write keeps its contents through it. -/
theorem K3_keep (V : Valuation τ sig (Elt F)) (r : Ref sig .tc) (h : r ∉ K3_W) :
    after K3 V (Proc.devRef .tc r) = V (Proc.devRef .tc r) :=
  after_of_writes_sub K3 V K3_writes h

set_option maxRecDepth 8192 in
theorem K4_sub : (K4 : List (HloOp τ sig (Elt F))).Forall fun op => op.bufs ⊆ tcRefs τ sig :=
  ⟨binary_bufs_sub .., unary_bufs_sub .., unary_bufs_sub .., binary_bufs_sub ..⟩

set_option maxRecDepth 8192 in
theorem K4_fresh : ∀ op ∈ (K4 : List (HloOp τ sig (Elt F))), op.fresh = ∅ := by
  intro _ h; (repeat (cases h with | head => rfl | tail _ h => ?_)); exact nomatch h

/-- The buffers stretch 4 writes. -/
abbrev K4_W : List (Ref sig .tc) :=
  [main_v92, main_v93, main_v94, main_v95]

set_option maxRecDepth 8192 in
theorem K4_writes : (K4 : List (HloOp τ sig (Elt F))).Forall fun op => op.writes ⊆ (K4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer stretch 4 does not write keeps its contents through it. -/
theorem K4_keep (V : Valuation τ sig (Elt F)) (r : Ref sig .tc) (h : r ∉ K4_W) :
    after K4 V (Proc.devRef .tc r) = V (Proc.devRef .tc r) :=
  after_of_writes_sub K4 V K4_writes h

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp K1_sub op h, List.forall_iff_forall_mem.mp K2_sub op h, List.forall_iff_forall_mem.mp K3_sub op h, List.forall_iff_forall_mem.mp K4_sub op h]

theorem ops_fresh : ∀ op ∈ (ops : List (HloOp τ sig (Elt F))), op.fresh = ∅ := by
  intro op h
  simp only [ops, List.mem_append] at h
  rcases h with h | h | h | h
  exacts [K1_fresh op h, K2_fresh op h, K3_fresh op h, K4_fresh op h]

/-- The contents after all of @main are the four stretches' in turn. -/
theorem after_ops (V : Valuation τ sig (Elt F)) : after ops V = after K4 (after K3 (after K2 (after K1 V))) := by
  simp only [ops, after_app]

end Cert.ReferenceIdeal.RefRun

end
-- ==== Proof.RefRunK1.lean ====
/- Stretch 1 of the reference read as stages: from any contents, the first layer before normalisation as a function of the features, the edge table, the weights and the bias; and the zero scalar. -/
import proofs.«129438_j27745488732760_1_alg».proof.Proof.RefRunOps
import proofs.«129438_j27745488732760_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reshape of the sliced row 0 of the edge table, at its own buffer: the row's entries as a vector. -/
theorem reshape_v2_at (he hn hx hy) (W : Valuation τ sig (Elt F)) :
    (reshape (τ := τ) (Val := Elt F) main_v1 main_v2 he hn hx hy).result W (no_index (Proc.devRef .tc main_v2))
      = shapeCast S640000 (W (Proc.devRef .tc main_v1)) shapeCasts_S1x640000_S640000 :=
  (reshape_result main_v1 main_v2 he hn hx hy W).trans rfl
/-- That reshape leaves every other buffer as it was. -/
theorem reshape_v2_other (he hn hx hy) (W : Valuation τ sig (Elt F)) {r : Ref sig .tc} (h : r ≠ main_v2) :
    (reshape (τ := τ) (Val := Elt F) main_v1 main_v2 he hn hx hy).result W (no_index (Proc.devRef .tc r)) = W (Proc.devRef .tc r) :=
  reshape_result_ne' he hn hx hy W h
/-- The reshape of the sliced row 1 of the edge table, at its own buffer. -/
theorem reshape_v5_at (he hn hx hy) (W : Valuation τ sig (Elt F)) :
    (reshape (τ := τ) (Val := Elt F) main_v4 main_v5 he hn hx hy).result W (no_index (Proc.devRef .tc main_v5))
      = shapeCast S640000 (W (Proc.devRef .tc main_v4)) shapeCasts_S1x640000_S640000 :=
  (reshape_result main_v4 main_v5 he hn hx hy W).trans rfl
/-- That reshape leaves every other buffer as it was. -/
theorem reshape_v5_other (he hn hx hy) (W : Valuation τ sig (Elt F)) {r : Ref sig .tc} (h : r ≠ main_v5) :
    (reshape (τ := τ) (Val := Elt F) main_v4 main_v5 he hn hx hy).result W (no_index (Proc.devRef .tc r)) = W (Proc.devRef .tc r) :=
  reshape_result_ne' he hn hx hy W h

/-- Two index vectors laid end to end: 640000 entries, then 100000 — the concatenation along the one axis, as a function
    of its two operands. -/
def cat2 (a : IVec S640000 32) (b : IVec S100000 32) : IVec S740000 32 :=
  concatenate S740000 0 [⟨S640000, a⟩, ⟨S100000, b⟩] concatenates_S640000_S100000_S740000_d0

/-- The concatenation of a list of exactly these two shape-tagged operands is `cat2` of them. -/
theorem cat2_eq (a : IVec S640000 32) (b : IVec S100000 32) (h : Shape.Concatenates [S640000, S100000] S740000 0) :
    concatenate S740000 0 [⟨S640000, a⟩, ⟨S100000, b⟩] h = cat2 a b := rfl

set_option maxRecDepth 8192 in
set_option maxHeartbeats 4000000 in
/-- After stretch 1, %47 holds the weighted sum over incoming edges of the projected features, plus the bias. -/
theorem K1_v47 (V : Valuation τ sig (Elt Ideal)) :
    after (K1 (F := Ideal)) V (Proc.devRef .tc main_v47)
      = h1 (agg (V (Proc.devRef .tc main_arg1)) (proj (V (Proc.devRef .tc main_arg0)) (V (Proc.devRef .tc main_arg2)))) (V (Proc.devRef .tc main_arg3)) := by
  unfold h1 agg proj edgeNorm dinv deg idxSrc idxDst idxRow wrapIdx asCol rows128
  simp (disch := decide) only [after_cons, after_nil,
      nullary_result', unary_result', binary_result', ternary_result', quaternary_result', nary4_result', nary_result',
      unaryIndexed_result', binaryIndexed_result',
      nullary_result_ne', unary_result_ne', binary_result_ne', ternary_result_ne', quaternary_result_ne',
      nary_result_ne', unaryIndexed_result_ne', binaryIndexed_result_ne', reshape_v2_at, reshape_v2_other, reshape_v5_at, reshape_v5_other, cat2_eq]

set_option maxRecDepth 8192 in
set_option maxHeartbeats 4000000 in
/-- After stretch 1 the scalar the next stretch's column sum starts from is zero. -/
theorem K1_cst9 (V : Valuation τ sig (Elt Ideal)) : after (K1 (F := Ideal)) V (Proc.devRef .tc main_cst_9) = zeroS := by
  simp (disch := decide) only [after_cons, after_nil,
      nullary_result', unary_result', binary_result', ternary_result', quaternary_result', nary4_result', nary_result',
      unaryIndexed_result', binaryIndexed_result',
      nullary_result_ne', unary_result_ne', binary_result_ne', ternary_result_ne', quaternary_result_ne',
      nary_result_ne', unaryIndexed_result_ne', binaryIndexed_result_ne', reshape_v2_at, reshape_v2_other, reshape_v5_at, reshape_v5_other, cat2_eq]

end Cert.ReferenceIdeal.RefRun

end
-- ==== Proof.RefRunK2.lean ====
/- Stretch 2 of the reference read as stages: from any contents whose zero scalar is in place, what %47 holds normalised over the rows, scaled, shifted and clamped. -/
import proofs.«129438_j27745488732760_1_alg».proof.Proof.RefRunOps
import proofs.«129438_j27745488732760_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- After stretch 2, %67 holds the normalised and clamped contents of %47 (the column sum of the mean starts from the
    scalar the previous stretch left, which is zero). -/
theorem K2_v67 (V : Valuation τ sig (Elt Ideal)) (hz : V (Proc.devRef .tc main_cst_9) = zeroS) :
    after (K2 (F := Ideal)) V (Proc.devRef .tc main_v67) = act1 (V (Proc.devRef .tc main_v47)) (V (Proc.devRef .tc main_arg4)) (V (Proc.devRef .tc main_arg5)) := by
  unfold act1 mean1 var1 dev1 rows128 cnt
  after_results_simp
  rw [hz]
  rfl

end Cert.ReferenceIdeal.RefRun

end
-- ==== Proof.RefRunK3.lean ====
/- Stretch 3 of the reference read as stages: from any contents, the second dense layer of what %67 holds, normalised over the rows, scaled, shifted and clamped. -/
import proofs.«129438_j27745488732760_1_alg».proof.Proof.RefRunOps
import proofs.«129438_j27745488732760_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- After stretch 3, %91 holds the normalised and clamped second layer of the contents of %67 and the four arguments. -/
theorem K3_v91 (V : Valuation τ sig (Elt Ideal)) :
    after (K3 (F := Ideal)) V (Proc.devRef .tc main_v91)
      = act2 (h2 (V (Proc.devRef .tc main_v67)) (V (Proc.devRef .tc main_arg6)) (V (Proc.devRef .tc main_arg7))) (V (Proc.devRef .tc main_arg8)) (V (Proc.devRef .tc main_arg9)) := by
  unfold act2 mean2 var2 dev2 h2 rows64 cnt
  after_results_simp
  rfl

end Cert.ReferenceIdeal.RefRun

end
-- ==== Proof.RefRunK4.lean ====
/- Stretch 4 of the reference read as a stage: from any contents, the last dense layer of what %91, the weight matrix and the bias hold. -/
import proofs.«129438_j27745488732760_1_alg».proof.Proof.RefRunOps
import proofs.«129438_j27745488732760_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
/-- After stretch 4 the result buffer holds the last dense layer of the contents of %91 and the two arguments. -/
theorem K4_v95 (V : Valuation τ sig (Elt Ideal)) :
    after (K4 (F := Ideal)) V (Proc.devRef .tc main_v95) = out (V (Proc.devRef .tc main_v91)) (V (Proc.devRef .tc main_arg10)) (V (Proc.devRef .tc main_arg11)) := by
  unfold out rows64
  after_results_simp

end Cert.ReferenceIdeal.RefRun

end
-- ==== Proof.RefRun.lean ====
/- The run of the idealized reference: every weakly fair execution of @main terminates, with the result buffer at the
   composition of the named stages applied to the argument arrays and every argument unchanged. The four
   stretches' values are chained: each stretch's output is the next one's input, and a buffer a stretch does not
   write passes through it. -/
import proofs.«129438_j27745488732760_1_alg».proof.Proof.RefRunK1
import proofs.«129438_j27745488732760_1_alg».proof.Proof.RefRunK2
import proofs.«129438_j27745488732760_1_alg».proof.Proof.RefRunK3
import proofs.«129438_j27745488732760_1_alg».proof.Proof.RefRunK4

noncomputable section

namespace Cert.ReferenceIdeal.RefRun

open Cert.ReferenceIdeal Cert.ReferenceIdeal.Gen Idealize.ShloMosaic Idealize.ShloMosaic.TcCoe Idealize.SL.Sem Idealize.ShloMosaic.StableHlo

/-- An argument is written by no stretch: it ends as it started. -/
theorem arg_kept (V : Valuation τ sig (Elt Ideal)) (r : Ref sig .tc)
    (h1 : r ∉ K1_W) (h2 : r ∉ K2_W) (h3 : r ∉ K3_W) (h4 : r ∉ K4_W) :
    after (ops (F := Ideal)) V (Proc.devRef .tc r) = V (Proc.devRef .tc r) :=
  (congrFun (after_ops V) _).trans ((K4_keep _ r h4).trans ((K3_keep _ r h3).trans ((K2_keep _ r h2).trans (K1_keep V r h1))))

/-- After all of @main the result buffer holds the composition of the stages over the arguments' starting contents:
    stretch 4 reads %91 and two arguments, which stretch 3 made from %67 and four arguments, which stretch 2 made from
    %47, the zero scalar and two arguments, which stretch 1 made from the first four arguments; every argument read
    late has passed through the earlier stretches untouched. -/
theorem out_eq (V : Valuation τ sig (Elt Ideal)) :
    after (ops (F := Ideal)) V (Proc.devRef .tc main_v95)
      = resultOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops, K4_v95, K3_v91, K2_v67 _ (K1_cst9 V), K1_v47,
    K3_keep _ main_arg10 (by decide), K2_keep _ main_arg10 (by decide), K1_keep _ main_arg10 (by decide),
    K3_keep _ main_arg11 (by decide), K2_keep _ main_arg11 (by decide), K1_keep _ main_arg11 (by decide),
    K2_keep _ main_arg6 (by decide), K1_keep _ main_arg6 (by decide),
    K2_keep _ main_arg7 (by decide), K1_keep _ main_arg7 (by decide),
    K2_keep _ main_arg8 (by decide), K1_keep _ main_arg8 (by decide),
    K2_keep _ main_arg9 (by decide), K1_keep _ main_arg9 (by decide),
    K1_keep _ main_arg4 (by decide), K1_keep _ main_arg5 (by decide)]
  rfl

/-- On every device, from any memory with zero counters: every weakly fair execution of @main terminates with the result
    at `result m c` and the twelve arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v95) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v95).trans (out_eq (launchContents m c)),
      (h c main_arg0).trans (arg_kept (launchContents m c) main_arg0 (by decide) (by decide) (by decide) (by decide)),
      (h c main_arg1).trans (arg_kept (launchContents m c) main_arg1 (by decide) (by decide) (by decide) (by decide)),
      (h c main_arg2).trans (arg_kept (launchContents m c) main_arg2 (by decide) (by decide) (by decide) (by decide)),
      (h c main_arg3).trans (arg_kept (launchContents m c) main_arg3 (by decide) (by decide) (by decide) (by decide)),
      (h c main_arg4).trans (arg_kept (launchContents m c) main_arg4 (by decide) (by decide) (by decide) (by decide)),
      (h c main_arg5).trans (arg_kept (launchContents m c) main_arg5 (by decide) (by decide) (by decide) (by decide)),
      (h c main_arg6).trans (arg_kept (launchContents m c) main_arg6 (by decide) (by decide) (by decide) (by decide)),
      (h c main_arg7).trans (arg_kept (launchContents m c) main_arg7 (by decide) (by decide) (by decide) (by decide)),
      (h c main_arg8).trans (arg_kept (launchContents m c) main_arg8 (by decide) (by decide) (by decide) (by decide)),
      (h c main_arg9).trans (arg_kept (launchContents m c) main_arg9 (by decide) (by decide) (by decide) (by decide)),
      (h c main_arg10).trans (arg_kept (launchContents m c) main_arg10 (by decide) (by decide) (by decide) (by decide)),
      (h c main_arg11).trans (arg_kept (launchContents m c) main_arg11 (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.FinitePre.lean ====
/-
  Finiteness of the inputs, from the precondition.

  The precondition says, for each of the eleven float argument arrays, that the conjunction over all of its
  entries of "|x| < +∞" is the one-bit word 1, and that the conjunction of these eleven words is 1. Here
  |x| is max x (−x) on the extended reals and +∞ is the value of the f32 word 0x7F800000. A conjunction of
  one-bit words is 1 exactly when each is; a conjunction over all entries that is 1 had a 1 at every entry;
  and max x (−x) < +∞ fails at −∞ and at +∞, so it leaves the real numbers. Hence every entry of every float
  argument is a real number. The arrays stay variables throughout: nothing of their contents is inspected.
-/
import proofs.«129438_j27745488732760_1_alg».proof.Defs
import proofs.«129438_j27745488732760_1_alg».proof.Proof.BNMath
import Idealize.ShloMosaic.Lib.ReduceAll
import Idealize.ShloMosaic.Lib.IdealHost

noncomputable section

namespace Cert.FinitePre

open Idealize.ShloMosaic Idealize.SL.Sem
open Cert.Pre_finite_inputs

/-- The scalar shape has exactly one index. -/
instance subsingleton_scalar_idx : Subsingleton S_.Idx := ⟨fun a b => funext fun d => d.elim0⟩

/-- The f32 word with all exponent bits set and a zero significand denotes +∞. -/
theorem ofBits_inf : Ideal.ofBits .f32 0x7F800000#32 = (⊤ : EReal) := by
  simp [Ideal.ofBits, Ideal.ieee]

/-- An extended real whose absolute value max x (−x) lies strictly below +∞ is a real number:
    at −∞ and at +∞ the maximum is +∞ itself. -/
theorem isR_of_abs_lt_top (x : EReal) (h : max x (-x) < ⊤) : BNMath.IsR x := by
  induction x using EReal.rec with
  | bot => simp at h
  | coe r => exact ⟨r, rfl⟩
  | top => simp at h

/-- A one-bit word made from a decision is 1 exactly when the decision is true. -/
theorem ofBool_eq_one (b : Bool) : BitVec.ofBool b = 1#1 ↔ b = true := by cases b <;> decide

/-- One array, any shape: if the conjunction over all entries of "|a i| < +∞" is 1, every entry is a real. -/
theorem all_finite {S : Shape} {axes : List (Fin S.rank)} (a : FVec Ideal S .f32)
    (hb : S_.BroadcastsInDim S (![] : Fin 0 → Fin S.rank)) (hr : S.ReducesTo axes S_) (hu : 0 < S_.numel)
    (j : S_.Idx)
    (e : Host.reduce IntOp.andi
          (cmpf .olt (Host.absf a) (broadcastInDim S ![] hb (constant (F := Ideal) S_ .f32 0x7F800000#32)))
          (constantI S_ 1 1#1) hr hu j = 1#1) :
    ∀ i, BNMath.IsR (a i) := by
  intro i
  have hi := Host.reduce_andi_all _ _ hr hu j e i
  rw [ValueIdx.cmpf_apply, ValueIdx.broadcastInDim_scalar_apply, ValueIdx.constant_apply, ofBits_inf] at hi
  have hlt : max (a i) (-(a i)) < ⊤ := by
    have : BitVec.ofBool (decide (max (a i) (-(a i)) < (⊤ : EReal))) = 1#1 := hi
    rw [ofBool_eq_one, decide_eq_true_eq] at this
    exact this
  exact isR_of_abs_lt_top _ hlt

/-- The conjunction of two one-bit vectors, read at an index. -/
theorem andi_apply {s : Shape} {w : Nat} (x y : IVec s w) (i : s.Idx) : andi x y i = IntOp.andi (x i) (y i) := rfl

/-- The precondition over ARBITRARY arrays: if the precondition's predicate is 1, every entry of each of the eleven
    float arrays is a real number. The predicate is the conjunction of eleven "all entries have |x| < +∞";
    the conjunction is split word by word and each part is read by `all_finite`. The integer array is not
    constrained. -/
theorem fn_finite [Facts]
    (a0 : FVec Ideal S100000x128 .f32) (a1 : IVec S2x640000 32) (a2 : FVec Ideal S128x128 .f32)
    (a3 a4 a5 : FVec Ideal S128 .f32) (a6 : FVec Ideal S128x64 .f32) (a7 a8 a9 : FVec Ideal S64 .f32)
    (a10 : FVec Ideal S64x64 .f32) (a11 : FVec Ideal S64 .f32)
    (e : fn (F := Ideal) a0 a1 a2 a3 a4 a5 a6 a7 a8 a9 a10 a11 = fun _ => 1#1) :
    (∀ i, BNMath.IsR (a0 i)) ∧ (∀ i, BNMath.IsR (a2 i)) ∧ (∀ i, BNMath.IsR (a3 i)) ∧ (∀ i, BNMath.IsR (a4 i))
    ∧ (∀ i, BNMath.IsR (a5 i)) ∧ (∀ i, BNMath.IsR (a6 i)) ∧ (∀ i, BNMath.IsR (a7 i)) ∧ (∀ i, BNMath.IsR (a8 i))
    ∧ (∀ i, BNMath.IsR (a9 i)) ∧ (∀ i, BNMath.IsR (a10 i)) ∧ (∀ i, BNMath.IsR (a11 i)) := by
  have e0 := congrFun e ValueIdx.ix0
  dsimp only [fn, fn_part1, fn_part2, fn_part3] at e0
  simp only [andi_apply, IntOp.andi_eq_one] at e0
  obtain ⟨⟨⟨⟨⟨⟨⟨⟨⟨⟨h0, h2⟩, h3⟩, h4⟩, h5⟩, h6⟩, h7⟩, h8⟩, h9⟩, h10⟩, h11⟩ := e0
  exact ⟨all_finite a0 _ _ _ _ h0, all_finite a2 _ _ _ _ h2, all_finite a3 _ _ _ _ h3, all_finite a4 _ _ _ _ h4,
    all_finite a5 _ _ _ _ h5, all_finite a6 _ _ _ _ h6, all_finite a7 _ _ _ _ h7, all_finite a8 _ _ _ _ h8,
    all_finite a9 _ _ _ _ h9, all_finite a10 _ _ _ _ h10, all_finite a11 _ _ _ _ h11⟩

/-- The certificate's precondition gives, on every device, that each float argument array holds real numbers only. -/
theorem finite_args [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, BNMath.IsR (m ((c.tc : Thread Cert.KernelIdeal.nD Cert.KernelIdeal.τ).loc Cert.KernelIdeal.main_arg0) i))
    ∧ (∀ i, BNMath.IsR (m ((c.tc : Thread Cert.KernelIdeal.nD Cert.KernelIdeal.τ).loc Cert.KernelIdeal.main_arg2) i))
    ∧ (∀ i, BNMath.IsR (m ((c.tc : Thread Cert.KernelIdeal.nD Cert.KernelIdeal.τ).loc Cert.KernelIdeal.main_arg3) i))
    ∧ (∀ i, BNMath.IsR (m ((c.tc : Thread Cert.KernelIdeal.nD Cert.KernelIdeal.τ).loc Cert.KernelIdeal.main_arg4) i))
    ∧ (∀ i, BNMath.IsR (m ((c.tc : Thread Cert.KernelIdeal.nD Cert.KernelIdeal.τ).loc Cert.KernelIdeal.main_arg5) i))
    ∧ (∀ i, BNMath.IsR (m ((c.tc : Thread Cert.KernelIdeal.nD Cert.KernelIdeal.τ).loc Cert.KernelIdeal.main_arg6) i))
    ∧ (∀ i, BNMath.IsR (m ((c.tc : Thread Cert.KernelIdeal.nD Cert.KernelIdeal.τ).loc Cert.KernelIdeal.main_arg7) i))
    ∧ (∀ i, BNMath.IsR (m ((c.tc : Thread Cert.KernelIdeal.nD Cert.KernelIdeal.τ).loc Cert.KernelIdeal.main_arg8) i))
    ∧ (∀ i, BNMath.IsR (m ((c.tc : Thread Cert.KernelIdeal.nD Cert.KernelIdeal.τ).loc Cert.KernelIdeal.main_arg9) i))
    ∧ (∀ i, BNMath.IsR (m ((c.tc : Thread Cert.KernelIdeal.nD Cert.KernelIdeal.τ).loc Cert.KernelIdeal.main_arg10) i))
    ∧ (∀ i, BNMath.IsR (m ((c.tc : Thread Cert.KernelIdeal.nD Cert.KernelIdeal.τ).loc Cert.KernelIdeal.main_arg11) i)) :=
  fn_finite _ _ _ _ _ _ _ _ _ _ _ _ (h c)

end Cert.FinitePre

end
-- ==== Proof.lean ====
/-
  The certificate: a graph-convolution layer followed by two batch-normalised dense layers, computed by four
  tiled kernel regions among host operations, against its plain array reference; equal at exact extended reals
  whenever every float input is finite.

  Both programs project the node features (a matrix product; the kernel's bf16 rounding on the way in is the
  identity at the ideal reading), gather the projected rows along the edges, weight them by the inverse square
  roots of the end points' degrees and sum them into their destination rows — the same host operations on both
  sides. They differ in the normalisations: the kernel accumulates column sums `s` and sums of squares `q` over
  row blocks and applies `h · scale + shift` with `scale = γ · rsqrt(q/n − (s/n)² + ε)`, `shift = β − (s/n) · scale`,
  where the reference applies `((h − μ) · rsqrt(v + ε)) · γ + β` with the mean `μ` and the mean `v` of squared
  deviations. Sums over row blocks are sums over all rows (addition of extended reals is associative and
  commutative), and on FINITE values the two variance forms and the two affine forms agree; finiteness is where the
  precondition is used, and it propagates through the products, the gathers (which clamp their index into the
  array) and the scatter-adds (finite sums).

  The frames of the two kernel programs are the generated ones; the reference's frame is its run with the result
  dropped; nothing was rewritten by the idealization, so `preserves` is trivial.
-/
import proofs.«129438_j27745488732760_1_alg».proof.Defs
import proofs.«129438_j27745488732760_1_alg».proof.Proof.Gen.Kernel
import proofs.«129438_j27745488732760_1_alg».proof.Proof.Gen.Kernel.Skeleton
import proofs.«129438_j27745488732760_1_alg».proof.Proof.Gen.Kernel.Launch
import proofs.«129438_j27745488732760_1_alg».proof.Proof.Gen.Kernel.Points
import proofs.«129438_j27745488732760_1_alg».proof.Proof.Gen.Kernel.Frame
import proofs.«129438_j27745488732760_1_alg».proof.Proof.Gen.KernelIdeal
import proofs.«129438_j27745488732760_1_alg».proof.Proof.Gen.KernelIdeal.Skeleton
import proofs.«129438_j27745488732760_1_alg».proof.Proof.Gen.KernelIdeal.Launch
import proofs.«129438_j27745488732760_1_alg».proof.Proof.Gen.KernelIdeal.Points
import proofs.«129438_j27745488732760_1_alg».proof.Proof.Gen.KernelIdeal.Frame
import proofs.«129438_j27745488732760_1_alg».proof.Proof.Gen.ReferenceIdeal
import proofs.«129438_j27745488732760_1_alg».proof.Proof.Gen.Pre_finite_inputs
import proofs.«129438_j27745488732760_1_alg».proof.Proof.KernelRun
import proofs.«129438_j27745488732760_1_alg».proof.Proof.KFinal
import proofs.«129438_j27745488732760_1_alg».proof.Proof.RefRun
import proofs.«129438_j27745488732760_1_alg».proof.Proof.FinitePre
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- The two idealized programs end with equal results from memories agreeing on the arguments: the kernel's result
    is the reference's composed function of its own (finite) arguments, and the arguments agree. -/
theorem algebraic : Cert.algebraic_KernelIdeal_ReferenceIdeal := by
  intro m ρ m' ρ' hpre hagree
  refine ⟨fun c => Cert.KernelIdeal.Gen.W10 m ρ c (Proc.devRef .tc Cert.KernelIdeal.main_v78), Cert.KernelIdeal.KRun.run_value m ρ, ?_⟩
  refine (θ_run Cert.ReferenceIdeal.defs _ _).mono (fun _ h c => ⟨(h c).1.trans ?_, (h c).2⟩) (Cert.ReferenceIdeal.RefRun.run m' ρ')
  refine Eq.trans ?_ (Cert.KernelIdeal.KFinal.kernel_result m ρ c (Cert.FinitePre.finite_args m hpre c)).symm
  obtain ⟨e0, e1, e2, e3, e4, e5, e6, e7, e8, e9, e10, e11⟩ := hagree c
  unfold Cert.ReferenceIdeal.RefRun.result
  rw [e0, e1, e2, e3, e4, e5, e6, e7, e8, e9, e10, e11]

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
